-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x128 : Shape := ⟨2, ![12288, 128]⟩
abbrev S128x64 : Shape := ⟨2, ![128, 64]⟩
abbrev S128x1 : Shape := ⟨2, ![128, 1]⟩
abbrev S_ : Shape := ⟨0, ![]⟩

class Facts : Prop where
  bcast_S_S12288x128 : S_.BroadcastsInDim S12288x128 (![] : Fin 0 → Fin S12288x128.rank)
  reducesTo_S12288x128_S_d0_1 : S12288x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : FVec F S12288x128 .f32) (main_arg1 : FVec F S128x64 .f32) (main_arg2 : FVec F S128x1 .f32) : IVec S_ 1 :=
  let main_v0 : FVec F S12288x128 .f32 := Host.absf main_arg0
  let main_cst : FVec F S_ .f32 := constant S_ .f32 0x7F800000#32
  let main_v1 : FVec F S12288x128 .f32 := broadcastInDim S12288x128 ![] bcast_S_S12288x128 main_cst
  let main_v2 : IVec S12288x128 1 := cmpf .olt main_v0 main_v1
  let main_c : IVec S_ 1 := constantI S_ 1 1#1
  let main_v3 : IVec S_ 1 := (fun x v => Host.reduce IntOp.andi x v reducesTo_S12288x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x1 .f32 := Host.absf main_arg2
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  main_v13
-- ==== Kernel.lean ====
abbrev S12288x128 : Shape := ⟨2, ![12288, 128]⟩
abbrev S128x64 : Shape := ⟨2, ![128, 64]⟩
abbrev S128x1 : Shape := ⟨2, ![128, 1]⟩
abbrev S64x1 : Shape := ⟨2, ![64, 1]⟩
abbrev S64x2 : Shape := ⟨2, ![64, 2]⟩
abbrev S12288x64 : Shape := ⟨2, ![12288, 64]⟩
abbrev S12288x2 : Shape := ⟨2, ![12288, 2]⟩
abbrev S2048x128 : Shape := ⟨2, ![2048, 128]⟩
abbrev S2048x64 : Shape := ⟨2, ![2048, 64]⟩
abbrev S2048x2 : Shape := ⟨2, ![2048, 2]⟩
abbrev S12288x1 : Shape := ⟨2, ![12288, 1]⟩
abbrev S1x12288 : Shape := ⟨2, ![1, 12288]⟩
abbrev S_ : Shape := ⟨0, ![]⟩
abbrev S1x1 : Shape := ⟨2, ![1, 1]⟩
abbrev S1024x1 : Shape := ⟨2, ![1024, 1]⟩
abbrev S1024x64 : Shape := ⟨2, ![1024, 64]⟩
abbrev S1x2048 : Shape := ⟨2, ![1, 2048]⟩
abbrev S1024x2048 : Shape := ⟨2, ![1024, 2048]⟩
abbrev S1024 : Shape := ⟨1, ![1024]⟩

abbrev nBuf : Space → Nat
  | .hbm => 15
  | .vmem => 18
  | .smem => 0
  | _ => 0

abbrev bufTy : (tb : Table) → Fin (tcTables nBuf tb) → BufTy
  | .hbm, ⟨0, _⟩ => ⟨S12288x128, .f32⟩
  | .hbm, ⟨1, _⟩ => ⟨S128x64, .f32⟩
  | .hbm, ⟨2, _⟩ => ⟨S128x1, .f32⟩
  | .hbm, ⟨3, _⟩ => ⟨S64x1, .f32⟩
  | .hbm, ⟨4, _⟩ => ⟨S64x1, .f32⟩
  | .hbm, ⟨5, _⟩ => ⟨S64x2, .f32⟩
  | .hbm, ⟨6, _⟩ => ⟨S12288x64, .bf16⟩
  | .hbm, ⟨7, _⟩ => ⟨S12288x2, .f32⟩
  | .hbm, ⟨8, _⟩ => ⟨S12288x1, .f32⟩
  | .hbm, ⟨9, _⟩ => ⟨S12288x1, .f32⟩
  | .hbm, ⟨10, _⟩ => ⟨S1x12288, .f32⟩
  | .hbm, ⟨11, _⟩ => ⟨S_, .f32⟩
  | .hbm, ⟨12, _⟩ => ⟨S_, .f32⟩
  | .hbm, ⟨13, _⟩ => ⟨S1x1, .f32⟩
  | .hbm, ⟨14, _⟩ => ⟨S12288x64, .f32⟩
  | .local _ .vmem, ⟨0, _⟩ => ⟨S2048x128, .f32⟩
  | .local _ .vmem, ⟨1, _⟩ => ⟨S2048x128, .f32⟩
  | .local _ .vmem, ⟨2, _⟩ => ⟨S128x64, .f32⟩
  | .local _ .vmem, ⟨3, _⟩ => ⟨S64x2, .f32⟩
  | .local _ .vmem, ⟨4, _⟩ => ⟨S2048x64, .bf16⟩
  | .local _ .vmem, ⟨5, _⟩ => ⟨S2048x64, .bf16⟩
  | .local _ .vmem, ⟨6, _⟩ => ⟨S2048x2, .f32⟩
  | .local _ .vmem, ⟨7, _⟩ => ⟨S2048x2, .f32⟩
  | .local _ .vmem, ⟨8, _⟩ => ⟨S1024x1, .f32⟩
  | .local _ .vmem, ⟨9, _⟩ => ⟨S1024x1, .f32⟩
  | .local _ .vmem, ⟨10, _⟩ => ⟨S1x12288, .f32⟩
  | .local _ .vmem, ⟨11, _⟩ => ⟨S12288x64, .bf16⟩
  | .local _ .vmem, ⟨12, _⟩ => ⟨S1x1, .f32⟩
  | .local _ .vmem, ⟨13, _⟩ => ⟨S1024x64, .f32⟩
  | .local _ .vmem, ⟨14, _⟩ => ⟨S1024x64, .f32⟩
  | .local _ .vmem, ⟨15, _⟩ => ⟨S1024x1, .f32⟩
  | .local _ .vmem, ⟨16, _⟩ => ⟨S1024x1, .f32⟩
  | .local _ .vmem, ⟨17, _⟩ => ⟨S1024x64, .f32⟩
  | _, _ => ⟨S12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![12, 6], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let c0 : Index := 0#32
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  ![0, v5.toNat]
def k1_mult2 (i : grid1.Coords) : BitVec 32 :=
  let arg1 : BitVec 32 := BitVec.ofNat 32 (i 1).val
  let c2048_i32_1 : BitVec 32 := 2048#32
  let v8 : BitVec 32 := Scalar.muli arg1 c2048_i32_1
  v8
def k1_off2 (i : grid1.Coords) : Fin 2 → Nat :=
  let arg1 : BitVec 32 := BitVec.ofNat 32 (i 1).val
  let c2048_i32_1 : BitVec 32 := 2048#32
  let v8 : BitVec 32 := Scalar.muli arg1 c2048_i32_1
  let v9 : BitVec 32 := v8
  let v10 : Index := Scalar.indexCast v9
  let c0_2 : Index := 0#32
  ![v10.toNat, 0]
def k1_cond2 (i : grid1.Coords) : BitVec 1 :=
  let arg1 : BitVec 32 := BitVec.ofNat 32 (i 1).val
  let c5_i32 : BitVec 32 := 5#32
  let v41 : BitVec 1 := Scalar.cmpi .eq arg1 c5_i32
  let v42 : BitVec 32 := Scalar.extui v41
  let c0_i32_18 : BitVec 32 := 0#32
  let v43 : BitVec 1 := Scalar.cmpi .ne v42 c0_i32_18
  v43

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x12288 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S12288x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S128x1_S64x1_0_0 : S128x1.Slices ![0, 0] S64x1
  slices_S128x1_S64x1_64_0 : S128x1.Slices ![64, 0] S64x1
  concatenates_S64x1_S64x1_S64x2_d1 : Shape.Concatenates [S64x1, S64x1] S64x2 1
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S2048x64_S2048x64_0_0 : ∀ a, (![0, 0] : Fin 2 → Nat) a + S2048x64.size a ≤ S2048x64.size a
  h_S2048x64 : 0 < S2048x64.numel
  packedbf16_S2048x64_S2048x64_0_0 : (Rect.unit (s := S2048x64) ![0, 0] S2048x64.size inb_S2048x64_S2048x64_0_0).PackedRows (EltTy.packing .bf16)
  inb_S2048x2_S2048x2_0_0 : ∀ a, (![0, 0] : Fin 2 → Nat) a + S2048x2.size a ≤ S2048x2.size a
  h_S2048x2 : 0 < S2048x2.numel
  slices_S12288x2_S12288x1_0_0 : S12288x2.Slices ![0, 0] S12288x1
  slices_S12288x2_S12288x1_0_1 : S12288x2.Slices ![0, 1] S12288x1
  transposes_S12288x1_S1x12288_1_0 : S12288x1.Transposes [1, 0] S1x12288
  reducesTo_S12288x1_S_d0_1 : S12288x1.ReducesTo [0, 1] S_
  h_S_ : 0 < S_.numel
  shapeCasts_S_S1x1 : S_.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  h_S1x2048 : 0 < S1x2048.numel
  shapeCasts_S1x2048_S1x2048 : S1x2048.ShapeCasts S1x2048
  shapeCasts_S2048x64_S2048x64 : S2048x64.ShapeCasts S2048x64
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  broadcasts_S1024x1_S1024x64 : S1024x1.Broadcasts S1024x64
  dot_S2048x128_S128x64_S2048x64_1_0_0_1_n_n_wf : DotDims.WF S2048x128 S128x64 S2048x64 [1] [0] [0] [1] [] []
  dot_S2048x64_S64x2_S2048x2_1_0_0_1_n_n_wf : DotDims.WF S2048x64 S64x2 S2048x2 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S12288x128.size a
  hwx0_0 : ∀ i : grid0.Coords, EltTy.bits .f32 = 32 ∨ (Rect.block (s := S12288x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2.size a ≤ S64x2.size a
  hwx0_2 : ∀ i : grid0.Coords, EltTy.bits .f32 = 32 ∨ (Rect.block (s := S64x2) S64x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S12288x64.size a
  hwx0_3 : ∀ i : grid0.Coords, EltTy.bits .bf16 = 32 ∨ (Rect.block (s := S12288x64) S2048x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x2.size a ≤ S12288x2.size a
  hwx0_4 : ∀ i : grid0.Coords, EltTy.bits .f32 = 32 ∨ (Rect.block (s := S12288x2) S2048x2.size (cc0_transform_4 i) (hinb0_4 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S1x2048.size a ≤ S1x12288.size a
  k1_mult2_dvd : ∀ i : grid1.Coords, 16 ∣ (k1_mult2 i).toNat
  k1_off2_inb : ∀ i : grid1.Coords, ∀ a, (k1_off2 i) a + S2048x64.size a ≤ S12288x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S12288x1.size a
  hwx1_0 : ∀ i : grid1.Coords, EltTy.bits .f32 = 32 ∨ (Rect.block (s := S12288x1) S1024x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x12288.size a ≤ S1x12288.size a
  hwx1_1 : ∀ i : grid1.Coords, EltTy.bits .f32 = 32 ∨ (Rect.block (s := S1x12288) S1x12288.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S12288x64.size a ≤ S12288x64.size a
  hwx1_2 : ∀ i : grid1.Coords, EltTy.bits .bf16 = 32 ∨ (Rect.block (s := S12288x64) S12288x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S12288x64.size a
  hwx1_4 : ∀ i : grid1.Coords, EltTy.bits .f32 = 32 ∨ (Rect.block (s := S12288x64) S1024x64.size (cc1_transform_4 i) (hinb1_4 i)).WholeWords (EltTy.packing .f32)

variable [Facts₀]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x2_S2048x2_1_0_0_1_n_n : DotDims S2048x64 S64x2 S2048x2 where
  lhsContracting := [1]
  rhsContracting := [0]
  lhsNonContracting := [0]
  rhsNonContracting := [1]
  lhsBatch := []
  rhsBatch := []
  wf := dot_S2048x64_S64x2_S2048x2_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S2048x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x12288.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S12288x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S12288x128 : Shape := ⟨2, ![12288, 128]⟩
abbrev S128x64 : Shape := ⟨2, ![128, 64]⟩
abbrev S128x1 : Shape := ⟨2, ![128, 1]⟩
abbrev S12288x64 : Shape := ⟨2, ![12288, 64]⟩
abbrev S64x1 : Shape := ⟨2, ![64, 1]⟩
abbrev S12288x1 : Shape := ⟨2, ![12288, 1]⟩
abbrev S1x12288 : Shape := ⟨2, ![1, 12288]⟩
abbrev S12288x12288 : Shape := ⟨2, ![12288, 12288]⟩
abbrev S_ : Shape := ⟨0, ![]⟩
abbrev S12288 : Shape := ⟨1, ![12288]⟩

abbrev nBuf : Space → Nat
  | .hbm => 50
  | .vmem => 0
  | .smem => 0
  | _ => 0

abbrev bufTy : (tb : Table) → Fin (tcTables nBuf tb) → BufTy
  | .hbm, ⟨0, _⟩ => ⟨S12288x128, .f32⟩
  | .hbm, ⟨1, _⟩ => ⟨S128x64, .f32⟩
  | .hbm, ⟨2, _⟩ => ⟨S128x1, .f32⟩
  | .hbm, ⟨3, _⟩ => ⟨S12288x64, .f32⟩
  | .hbm, ⟨4, _⟩ => ⟨S64x1, .f32⟩
  | .hbm, ⟨5, _⟩ => ⟨S12288x1, .f32⟩
  | .hbm, ⟨6, _⟩ => ⟨S64x1, .f32⟩
  | .hbm, ⟨7, _⟩ => ⟨S12288x1, .f32⟩
  | .hbm, ⟨8, _⟩ => ⟨S1x12288, .f32⟩
  | .hbm, ⟨9, _⟩ => ⟨S12288x12288, .f32⟩
  | .hbm, ⟨10, _⟩ => ⟨S12288x12288, .f32⟩
  | .hbm, ⟨11, _⟩ => ⟨S12288x12288, .f32⟩
  | .hbm, ⟨12, _⟩ => ⟨S_, .f32⟩
  | .hbm, ⟨13, _⟩ => ⟨S_, .f32⟩
  | .hbm, ⟨14, _⟩ => ⟨S12288x12288, .f32⟩
  | .hbm, ⟨15, _⟩ => ⟨S12288x12288, .i1⟩
  | .hbm, ⟨16, _⟩ => ⟨S_, .f32⟩
  | .hbm, ⟨17, _⟩ => ⟨S12288x12288, .f32⟩
  | .hbm, ⟨18, _⟩ => ⟨S12288x12288, .f32⟩
  | .hbm, ⟨19, _⟩ => ⟨S12288x12288, .f32⟩
  | .hbm, ⟨20, _⟩ => ⟨S_, .f32⟩
  | .hbm, ⟨21, _⟩ => ⟨S12288, .f32⟩
  | .hbm, ⟨22, _⟩ => ⟨S_, .f32⟩
  | .hbm, ⟨23, _⟩ => ⟨S12288, .f32⟩
  | .hbm, ⟨24, _⟩ => ⟨S12288, .f32⟩
  | .hbm, ⟨25, _⟩ => ⟨S12288x1, .f32⟩
  | .hbm, ⟨26, _⟩ => ⟨S12288x12288, .f32⟩
  | .hbm, ⟨27, _⟩ => ⟨S12288x12288, .f32⟩
  | .hbm, ⟨28, _⟩ => ⟨S12288x12288, .f32⟩
  | .hbm, ⟨29, _⟩ => ⟨S_, .f32⟩
  | .hbm, ⟨30, _⟩ => ⟨S12288, .f32⟩
  | .hbm, ⟨31, _⟩ => ⟨S12288x1, .f32⟩
  | .hbm, ⟨32, _⟩ => ⟨S12288x12288, .f32⟩
  | .hbm, ⟨33, _⟩ => ⟨S12288x12288, .f32⟩
  | .hbm, ⟨34, _⟩ => ⟨S12288x64, .f32⟩
  | .hbm, ⟨35, _⟩ => ⟨S_, .f32⟩
  | .hbm, ⟨36, _⟩ => ⟨S12288x64, .f32⟩
  | .hbm, ⟨37, _⟩ => ⟨S12288x64, .i1⟩
  | .hbm, ⟨38, _⟩ => ⟨S_, .f32⟩
  | .hbm, ⟨39, _⟩ => ⟨S12288x64, .f32⟩
  | .hbm, ⟨40, _⟩ => ⟨S12288x64, .i1⟩
  | .hbm, ⟨41, _⟩ => ⟨S_, .f32⟩
  | .hbm, ⟨42, _⟩ => ⟨S_, .f32⟩
  | .hbm, ⟨43, _⟩ => ⟨S12288x64, .f32⟩
  | .hbm, ⟨44, _⟩ => ⟨S12288x64, .f32⟩
  | .hbm, ⟨45, _⟩ => ⟨S12288x64, .f32⟩
  | .hbm, ⟨46, _⟩ => ⟨S_, .f32⟩
  | .hbm, ⟨47, _⟩ => ⟨S12288x64, .f32⟩
  | .hbm, ⟨48, _⟩ => ⟨S12288x64, .f32⟩
  | .hbm, ⟨49, _⟩ => ⟨S12288x64, .f32⟩
  | _, _ => ⟨S12288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_cst_0 : Ref sig .tc := ⟨.hbm, 38, rfl⟩
abbrev main_call1_v2 : Ref sig .tc := ⟨.hbm, 39, rfl⟩
abbrev main_call1_v3 : Ref sig .tc := ⟨.hbm, 40, rfl⟩
abbrev main_call1_cst_1 : Ref sig .tc := ⟨.hbm, 41, rfl⟩
abbrev main_call1_call0_v0 : Ref sig .tc := ⟨.hbm, 42, rfl⟩
abbrev main_call1_call0_v1 : Ref sig .tc := ⟨.hbm, 43, rfl⟩
abbrev main_call1_v4 : Ref sig .tc := ⟨.hbm, 44, rfl⟩
abbrev main_call1_v5 : Ref sig .tc := ⟨.hbm, 45, rfl⟩
abbrev main_call1_cst_2 : Ref sig .tc := ⟨.hbm, 46, rfl⟩
abbrev main_call1_v6 : Ref sig .tc := ⟨.hbm, 47, rfl⟩
abbrev main_call1_v7 : Ref sig .tc := ⟨.hbm, 48, rfl⟩
abbrev main_v22 : Ref sig .tc := ⟨.hbm, 49, rfl⟩

abbrev nD : Nat := 1
abbrev τ : Topo := Topo.v7x

variable {F : FTy → Type} [FloatOps F]

class Facts₀ : Prop where
  slices_S128x1_S64x1_0_0 : S128x1.Slices ![0, 0] S64x1
  slices_S128x1_S64x1_64_0 : S128x1.Slices ![64, 0] S64x1
  transposes_S12288x1_S1x12288_1_0 : S12288x1.Transposes [1, 0] S1x12288
  bcast_S12288x1_S12288x12288_0_1 : S12288x1.BroadcastsInDim S12288x12288 (![0, 1] : Fin 2 → Fin S12288x12288.rank)
  bcast_S1x12288_S12288x12288_0_1 : S1x12288.BroadcastsInDim S12288x12288 (![0, 1] : Fin 2 → Fin S12288x12288.rank)
  bcast_S_S12288x12288 : S_.BroadcastsInDim S12288x12288 (![] : Fin 0 → Fin S12288x12288.rank)
  reducesTo_S12288x12288_S12288_d1 : S12288x12288.ReducesTo [1] S12288
  h_S_ : 0 < S_.numel
  bcast_S_S12288 : S_.BroadcastsInDim S12288 (![] : Fin 0 → Fin S12288.rank)
  bcast_S12288_S12288x1_0 : S12288.BroadcastsInDim S12288x1 (![0] : Fin 1 → Fin S12288x1.rank)
  bcast_S_S12288x64 : S_.BroadcastsInDim S12288x64 (![] : Fin 0 → Fin S12288x64.rank)
  dot_S12288x128_S128x64_S12288x64_1_0_0_1_n_n_wf : DotDims.WF S12288x128 S128x64 S12288x64 [1] [0] [0] [1] [] []
  dot_S12288x64_S64x1_S12288x1_1_0_0_1_n_n_wf : DotDims.WF S12288x64 S64x1 S12288x1 [1] [0] [0] [1] [] []
  dot_S12288x12288_S12288x64_S12288x64_1_0_0_1_n_n_wf : DotDims.WF S12288x12288 S12288x64 S12288x64 [1] [0] [0] [1] [] []

variable [Facts₀]

def dot_S12288x128_S128x64_S12288x64_1_0_0_1_n_n : DotDims S12288x128 S128x64 S12288x64 where
  lhsContracting := [1]
  rhsContracting := [0]
  lhsNonContracting := [0]
  rhsNonContracting := [1]
  lhsBatch := []
  rhsBatch := []
  wf := dot_S12288x128_S128x64_S12288x64_1_0_0_1_n_n_wf
def dot_S12288x64_S64x1_S12288x1_1_0_0_1_n_n : DotDims S12288x64 S64x1 S12288x1 where
  lhsContracting := [1]
  rhsContracting := [0]
  lhsNonContracting := [0]
  rhsNonContracting := [1]
  lhsBatch := []
  rhsBatch := []
  wf := dot_S12288x64_S64x1_S12288x1_1_0_0_1_n_n_wf
def dot_S12288x12288_S12288x64_S12288x64_1_0_0_1_n_n : DotDims S12288x12288 S12288x64 S12288x64 where
  lhsContracting := [1]
  rhsContracting := [0]
  lhsNonContracting := [0]
  rhsNonContracting := [1]
  lhsBatch := []
  rhsBatch := []
  wf := dot_S12288x12288_S12288x64_S12288x64_1_0_0_1_n_n_wf

class Facts : Prop extends Facts₀ where

variable [Facts]
-- ==== Proof.Kernel.Region0.lean ====
/-
  The projection region (the first kernel launch): a grid of 6 row blocks. At block `t` the body reads rows
  2048·t … 2048·t+2047 of `h`, all of `W` and all of the two-column matrix `[a₁ | a₂]`, and writes the
  same rows of `Wh = h·W` (rounded through bf16) and of `Wh·[a₁ | a₂]`. Nothing is carried from one block to
  the next: each output block is one function of the three input blocks at the same point.
-/
import proofs.«107845_j2010044695310_2_alg».proof.Proof.Gen.Kernel.Launch
import proofs.«107845_j2010044695310_2_alg».proof.Proof.Gen.Kernel.Skeleton
import proofs.«107845_j2010044695310_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w` at point `t`, read off the array the region is entered with. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window holds its block at every point, whether or not the pipeline fetched it there: where it did
    not, the block index has not moved. Window 0 (rows of `h`). -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- Window 1 (`W`, the same whole block at every point). -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- Window 2 (`[a₁ | a₂]`, the same whole block at every point). -/
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

end

/-! ## The body's accesses: every load and store is of a whole block -/

abbrev rH : Rect S2048x128 := Rect.unit (s := S2048x128) ![0, 0] S2048x128.size inb_S2048x128_S2048x128_0_0
abbrev rW : Rect S128x64 := Rect.unit (s := S128x64) ![0, 0] S128x64.size inb_S128x64_S128x64_0_0
abbrev rA : Rect S64x2 := Rect.unit (s := S64x2) ![0, 0] S64x2.size inb_S64x2_S64x2_0_0
abbrev rWh : Rect S2048x64 := Rect.unit (s := S2048x64) ![0, 0] S2048x64.size inb_S2048x64_S2048x64_0_0
abbrev rE : Rect S2048x2 := Rect.unit (s := S2048x2) ![0, 0] S2048x2.size inb_S2048x2_S2048x2_0_0

/-- The block of `Wh` the body leaves: its one store, of the product of the `h` block and `W`. -/
def outWh (x0 : Vec F S2048x128 .f32) (x1 : Vec F S128x64 .f32) : Vec F S2048x64 .bf16 :=
  View.canon [⟨rWh, k0_pay3 (View.ld x0 rH) (View.ld x1 rW)⟩]
/-- The block of `Wh·[a₁ | a₂]` the body leaves: its one store. -/
def outE (x0 : Vec F S2048x128 .f32) (x1 : Vec F S128x64 .f32) (x2 : Vec F S64x2 .f32) : Vec F S2048x2 .f32 :=
  View.canon [⟨rE, k0_pay2 (View.ld x0 rH) (View.ld x1 rW) (View.ld x2 rA)⟩]

theorem coverWh (p0 : Vec F S2048x64 .bf16) (y : S2048x64.Idx) :
    ∃ pc ∈ ([⟨rWh, p0⟩] : List (View.Piece (Elt F) S2048x64 .bf16)), y ∈ pc.1.set :=
  View.cover_of_tiled [⟨rWh, p0⟩] S2048x64.size (by rfl) y
theorem coverE (p0 : Vec F S2048x2 .f32) (y : S2048x2.Idx) :
    ∃ pc ∈ ([⟨rE, p0⟩] : List (View.Piece (Elt F) S2048x2 .f32)), y ∈ pc.1.set :=
  View.cover_of_tiled [⟨rE, p0⟩] S2048x2.size (by rfl) y

set_option maxHeartbeats 2000000 in
/-- The body on whole memrefs: from the three inputs at their contents and the two outputs at anything, it ends with
    the inputs as they were and each output at its block. -/
theorem sound_kernel0 (c : Dev nD) (E : Set ℕ) (i : grid0.Coords)
    (arg1 : Memref sig .tc .vmem S2048x128 .f32) (harg1 : arg1.IsWhole) (arg2 : Memref sig .tc .vmem S128x64 .f32) (harg2 : arg2.IsWhole)
    (arg3 : Memref sig .tc .vmem S64x2 .f32) (harg3 : arg3.IsWhole) (arg4 : Memref sig .tc .vmem S2048x64 .bf16) (harg4 : arg4.IsWhole)
    (arg5 : Memref sig .tc .vmem S2048x2 .f32) (harg5 : arg5.IsWhole)
    (x0 : Vec F S2048x128 .f32) (x1 : Vec F S128x64 .f32) (x2 : Vec F S64x2 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outWh x0 x1) ∗ owns (c : Thread nD τ) arg5 fullShare (outE x0 x1 x2)) -∗ K ⟨⟩))
      ⊢ wp frame (wpE (defs₀ (F := F)) Variants.none c none) E (cc0_proj_kernel i arg1 harg1 arg2 harg2 arg3 harg3 arg4 harg4 arg5 harg5) K := by
  simp only [cc0_proj_kernel_eq_skeleton]; unfold cc0_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverWh _)
  iexists _; isplitr
  swap; · iexact H4
  ipureintro
  exact View.read_writes_eq_canon _ _ _ (coverE _)

section
variable (V : (c : Dev nD) → (b : Ref sig .tc) → Buf (Elt F) ((c : Thread nD τ).loc b))

/-- The region's proof data on core `c`: the arrays as the region is entered; after the body at point `t` each input
    window at its block and each output window at its block as computed from the inputs'; the invariant is the
    scoped buffers the kernel does not use, at anything; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => outWh (blk0 V c 0 t) (blk0 V c 1 t)
    | ⟨4, _⟩ => outE (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = outWh (blk0 V c 0 t) (blk0 V c 1 t) := by dsimp only [dat0]
theorem after0_4 (c : Dev nD) (t : Fin cfg0.N) : (dat0 V c).after 4 t = outE (blk0 V c 0 t) (blk0 V c 1 t) (blk0 V c 2 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end

end Cert.Kernel.Frame

end
-- ==== Proof.Kernel.R1Base.lean ====
/-
  The attention region (the second kernel launch): a grid of 12 row blocks by 6 column blocks, the column index
  running fastest. For a row block the kernel keeps three accumulators across its 6 column steps: the row shift
  `m`, the running sum `l` of the exponentials and the running weighted sum `acc` of the value rows. At column
  step 0 it sets `m` and zeroes `l` and `acc`; at every step it adds the step's 2048 columns to `l` and
  `acc`; at step 5 it writes `elu(acc / l)` into the row block of the result. What is shared by the three kinds
  of step is stated here.
-/
import proofs.«107845_j2010044695310_2_alg».proof.Proof.Gen.Kernel.Launch
import proofs.«107845_j2010044695310_2_alg».proof.Proof.Gen.Kernel.Skeleton
import proofs.«107845_j2010044695310_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w` at point `t`, read off the array the region is entered with. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window holds its block at every point, fetched there or not. Window 0: the row block of the first logit column. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- Window 1: the second logit column as one row, whole at every point. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
/-- Window 2: the value matrix, whole at every point. -/
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
/-- Window 3: the one-element array holding the largest entry of the second logit column. -/
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

end

/-! ## The two branches of the body, decided over the grid -/

/-- The first branch (reset the accumulators) is taken when the column step is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 6 = 0 :=
  (by decide +kernel : ∀ t : Fin grid1.N, cond1_0 (grid1.coords t) ↔ t.val % 6 = 0)
/-- The second branch (write the row block of the result) is taken when the column step is 5. -/
abbrev cond1_1 (i : grid1.Coords) : Prop := k1_cond2 i = 1#1
theorem hcond1_1 : ∀ t : Fin cfg1.N, cond1_1 (grid1.coords t) ↔ t.val % 6 = 5 :=
  (by decide +kernel : ∀ t : Fin grid1.N, cond1_1 (grid1.coords t) ↔ t.val % 6 = 5)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from column step 5 the result window is idle (nothing is stored into it) and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At column step 5 it is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x12288 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S12288x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)
/-- The three accumulators: the row shift, the running sum, the running weighted sum. -/
abbrev scM : Memref sig .tc .vmem S1024x1 .f32 := Memref.whole cc1_scratch0
abbrev scL : Memref sig .tc .vmem S1024x1 .f32 := Memref.whole cc1_scratch1
abbrev scAcc : Memref sig .tc .vmem S1024x64 .f32 := Memref.whole cc1_scratch2
abbrev VM : View sig .tc .vmem S1024x1 .f32 := scM.view
abbrev VL : View sig .tc .vmem S1024x1 .f32 := scL.view
abbrev VAcc : View sig .tc .vmem S1024x64 .f32 := scAcc.view
/-- One staging buffer of the result window, through which its contents are stated. -/
abbrev VOut : View sig .tc .vmem S1024x64 .f32 := (Memref.whole cc1_stg4_0 : Memref sig .tc .vmem S1024x64 .f32).view

/-- The scoped buffers this kernel does not stage: the first kernel's eight staging buffers at anything, and the
    three accumulators at `A`, `B`, `C`. -/
abbrev withAcc (c : Dev nD) (A B C : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ A ∗ B ∗ C)

/-- The invariant before the first point, with the accumulators as memrefs owned at some contents. -/
theorem PhiA1_eq (c : Dev nD) :
    (Pipeline.ΦA spec1 c : sProp 𝕄)
      = iprop(withAcc c iprop(∃ d, owns (c : Thread nD τ) scM fullShare d) iprop(∃ d, owns (c : Thread nD τ) scL fullShare d) iprop(∃ d, owns (c : Thread nD τ) scAcc fullShare d) ∗ (∃ r, prngReg c r)) := by
  unfold Pipeline.ΦA; rw [scopedRest1_eq]; simp only [scM, scL, scAcc, owns_whole]; try rfl

end Cert.Kernel.Frame

end
-- ==== Proof.Kernel.RunA.lean ====
/-
  A column step 0 of the attention kernel: the row shift is set from the row block of the first logit column and
  the largest entry of the second, the two sums are zeroed, and the step's 2048 columns are added to them. The
  result window is left untouched.
-/
import proofs.«107845_j2010044695310_2_alg».proof.Proof.Kernel.R1Base

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each accumulator at a column step 0, as pieces (last first), with the proof that on
    whole memrefs — the inputs at their contents, the result window at contents handed back untouched, the accumulators
    at anything — the body runs to the continuation holding the inputs as they were and each accumulator with its pieces
    written. -/
noncomputable def runA (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x12288 .f32) (x2 : Vec F S12288x64 .bf16) (x3 : Vec F S1x1 .f32) :
    Σ' (LM : List (View.Piece (Elt F) S1024x1 .f32)) (LL : List (View.Piece (Elt F) S1024x1 .f32)), { LAcc : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LAcc)) -∗ K ⟨⟩))
          ⊢ wp frame (wpE (defs₀ (F := F)) Variants.none c none) E (cc1_ga_kernel i arg2 harg2 arg3 harg3 arg4 harg4 arg5 harg5 arg6 harg6 arg7 harg7 arg8 harg8 arg9 harg9) K } := by
  refine ⟨?_, ?_, ?_, fun xi4 E K => ?run⟩
  case run =>
    simp only [cc1_ga_kernel_eq_skeleton]; unfold cc1_ga_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds7, %fs7, -, HS7⟩, ⟨%ds8, %fs8, -, HS8⟩, ⟨%ds9, %fs9, -, HS9⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]; · iexists _; iexact HS7
    isplitl [HS8]; · iexists _; iexact HS8
    iexists _; iexact HS9

end Cert.Kernel.Frame

end
-- ==== Proof.Kernel.RunB.lean ====
/-
  A column step 1 to 4 of the attention kernel: the row shift is read, and the step's 2048 columns are added to
  the running sum and to the running weighted sum. The result window is left untouched.
-/
import proofs.«107845_j2010044695310_2_alg».proof.Proof.Kernel.R1Base

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the two sums at a middle column step, as pieces (last first), with the proof that
    on whole memrefs — the inputs and the three accumulators at their contents, the result window at contents handed
    back untouched — the body runs to the continuation holding the inputs and the row shift as they were and each sum
    with its pieces written. -/
noncomputable def runB (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x12288 .f32) (x2 : Vec F S12288x64 .bf16) (x3 : Vec F S1x1 .f32) (xs7 : Vec F S1024x1 .f32) (xs8 : Vec F S1024x1 .f32) (xs9 : Vec F S1024x64 .f32) :
    Σ' (LL : List (View.Piece (Elt F) S1024x1 .f32)), { LAcc : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs7 ∗ owns (c : Thread nD τ) arg8 fullShare xs8 ∗ owns (c : Thread nD τ) arg9 fullShare xs9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ owns (c : Thread nD τ) arg7 fullShare xs7 ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LAcc)) -∗ K ⟨⟩))
          ⊢ wp frame (wpE (defs₀ (F := F)) Variants.none c none) E (cc1_ga_kernel i arg2 harg2 arg3 harg3 arg4 harg4 arg5 harg5 arg6 harg6 arg7 harg7 arg8 harg8 arg9 harg9) K } := by
  refine ⟨?_, ?_, fun xi4 E K => ?run⟩
  case run =>
    simp only [cc1_ga_kernel_eq_skeleton]; unfold cc1_ga_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs7, %hfs7, HS7⟩, ⟨%fs8, %hfs8, HS8⟩, ⟨%fs9, %hfs9, HS9⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs7; obtain rfl := harg8.eq_unread hfs8; obtain rfl := harg9.eq_unread hfs9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]
    · iexists _; isplitr; · ipureintro; exact harg7.read_unread _
      iexact HS7
    isplitl [HS8]; · iexists _; iexact HS8
    iexists _; iexact HS9

end Cert.Kernel.Frame

end
-- ==== Proof.Kernel.RunC.lean ====
/-
  A column step 5 of the attention kernel: the last 2048 columns are added to the two sums, and the row block of
  the result is written: `elu` of the weighted sum divided by the sum.
-/
import proofs.«107845_j2010044695310_2_alg».proof.Proof.Kernel.R1Base

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result window and the two sums at a last column step, as pieces (last first),
    with the proof that on whole memrefs — the inputs and the three accumulators at their contents, the result window at
    anything — the body runs to the continuation holding the inputs and the row shift as they were and the result window
    and each sum with its pieces written. -/
noncomputable def runC (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x12288 .f32) (x2 : Vec F S12288x64 .bf16) (x3 : Vec F S1x1 .f32) (xs7 : Vec F S1024x1 .f32) (xs8 : Vec F S1024x1 .f32) (xs9 : Vec F S1024x64 .f32) :
    Σ' (LOut : List (View.Piece (Elt F) S1024x64 .f32)) (LL : List (View.Piece (Elt F) S1024x1 .f32)), { LAcc : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs7 ∗ owns (c : Thread nD τ) arg8 fullShare xs8 ∗ owns (c : Thread nD τ) arg9 fullShare xs9
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LOut)
                ∗ owns (c : Thread nD τ) arg7 fullShare xs7 ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LAcc)) -∗ K ⟨⟩))
          ⊢ wp frame (wpE (defs₀ (F := F)) Variants.none c none) E (cc1_ga_kernel i arg2 harg2 arg3 harg3 arg4 harg4 arg5 harg5 arg6 harg6 arg7 harg7 arg8 harg8 arg9 harg9) K } := by
  refine ⟨?_, ?_, ?_, fun E K => ?run⟩
  case run =>
    simp only [cc1_ga_kernel_eq_skeleton]; unfold cc1_ga_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs7, %hfs7, HS7⟩, ⟨%fs8, %hfs8, HS8⟩, ⟨%fs9, %hfs9, HS9⟩, Hk⟩
    obtain rfl := harg2.eq_unread hf0; obtain rfl := harg3.eq_unread hf1; obtain rfl := harg4.eq_unread hf2; obtain rfl := harg5.eq_unread hf3
    obtain rfl := harg7.eq_unread hfs7; obtain rfl := harg8.eq_unread hfs8; obtain rfl := harg9.eq_unread hfs9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS7]
    · iexists _; isplitr; · ipureintro; exact harg7.read_unread _
      iexact HS7
    isplitl [HS8]; · iexists _; iexact HS8
    iexists _; iexact HS9

end Cert.Kernel.Frame

end
-- ==== Proof.Kernel.Region1.lean ====
/-
  The attention region assembled: what each kind of column step leaves in the accumulators and in the result
  window, the contents after every one of the 72 grid points by recursion on the point (a step 0 starts afresh,
  a later step continues from what the step before left), the region's invariant (before the first point the
  accumulators hold anything, afterwards what the point before left), its proof data and the body obligation.
-/
import proofs.«107845_j2010044695310_2_alg».proof.Proof.Kernel.RunA
import proofs.«107845_j2010044695310_2_alg».proof.Proof.Kernel.RunB
import proofs.«107845_j2010044695310_2_alg».proof.Proof.Kernel.RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three accumulators' contents: the row shift, the running sum, the running weighted sum. -/
abbrev Acc3 (F : FTy → Type) [FloatOps F] : Type := Vec F S1024x1 .f32 × Vec F S1024x1 .f32 × Vec F S1024x64 .f32

/-- Contents nothing reads: the result window at a point that stores nothing into it, the accumulators before the
    first point. -/
def junkOut : Vec F S1024x64 .f32 := VOut.read (Elt F) (VOut.writes (Elt F) VOut.junk [])
def junkAcc : Acc3 F :=
  (VM.read (Elt F) (VM.writes (Elt F) VM.junk []), VL.read (Elt F) (VL.writes (Elt F) VL.junk []), VAcc.read (Elt F) (VAcc.writes (Elt F) VAcc.junk []))

theorem condA0 (t : Fin cfg1.N) (h0 : t.val % 6 = 0) : cond1_0 (grid1.coords t) := (hcond1_0 t).mpr h0
theorem condA1 (t : Fin cfg1.N) (h0 : t.val % 6 = 0) : ¬cond1_1 (grid1.coords t) := fun h => by
  have := (hcond1_1 t).mp h; omega
theorem condN0 (t : Fin cfg1.N) (h0 : ¬t.val % 6 = 0) : ¬cond1_0 (grid1.coords t) := fun h => h0 ((hcond1_0 t).mp h)
theorem condC1 (t : Fin cfg1.N) (h1 : t.val % 6 = 5) : cond1_1 (grid1.coords t) := (hcond1_1 t).mpr h1
theorem condN1 (t : Fin cfg1.N) (h1 : ¬t.val % 6 = 5) : ¬cond1_1 (grid1.coords t) := fun h => h1 ((hcond1_1 t).mp h)

section
variable (V : (c : Dev nD) → (b : Ref sig .tc) → Buf (Elt F) ((c : Thread nD τ).loc b))

/-! ## What each kind of step leaves, at the point's memrefs and input blocks -/

/-- The run of a column step 0 at point `t`. -/
def resA (c : Dev nD) (t : Fin cfg1.N) (hc0 : cond1_0 (grid1.coords t)) (hc1 : ¬cond1_1 (grid1.coords t)) :=
  runA (F := F) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scAcc (Memref.isWhole_whole _) hc0 hc1 (blk1 V c 0 t) (blk1 V c 1 t) (blk1 V c 2 t) (blk1 V c 3 t)
/-- The run of a middle column step at point `t`, from the accumulators `p`. -/
def resB (c : Dev nD) (t : Fin cfg1.N) (hc0 : ¬cond1_0 (grid1.coords t)) (hc1 : ¬cond1_1 (grid1.coords t)) (p : Acc3 F) :=
  runB (F := F) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scAcc (Memref.isWhole_whole _) hc0 hc1 (blk1 V c 0 t) (blk1 V c 1 t) (blk1 V c 2 t) (blk1 V c 3 t) p.1 p.2.1 p.2.2
/-- The run of a last column step at point `t`, from the accumulators `p`. -/
def resC (c : Dev nD) (t : Fin cfg1.N) (hc0 : ¬cond1_0 (grid1.coords t)) (hc1 : cond1_1 (grid1.coords t)) (p : Acc3 F) :=
  runC (F := F) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scAcc (Memref.isWhole_whole _) hc0 hc1 (blk1 V c 0 t) (blk1 V c 1 t) (blk1 V c 2 t) (blk1 V c 3 t) p.1 p.2.1 p.2.2

theorem coverA_M (c : Dev nD) (t : Fin cfg1.N) (hc0) (hc1) (y : S1024x1.Idx) : ∃ pc ∈ (resA V c t hc0 hc1).1, y ∈ pc.1.set :=
  View.cover_of_tiledL (resA V c t hc0 hc1).1 S1024x1.size (by sl_kernel_rfl) y
theorem coverA_L (c : Dev nD) (t : Fin cfg1.N) (hc0) (hc1) (y : S1024x1.Idx) : ∃ pc ∈ (resA V c t hc0 hc1).2.1, y ∈ pc.1.set :=
  View.cover_of_tiledL (resA V c t hc0 hc1).2.1 S1024x1.size (by sl_kernel_rfl) y
theorem coverA_Acc (c : Dev nD) (t : Fin cfg1.N) (hc0) (hc1) (y : S1024x64.Idx) : ∃ pc ∈ (resA V c t hc0 hc1).2.2.1, y ∈ pc.1.set :=
  View.cover_of_tiledL (resA V c t hc0 hc1).2.2.1 S1024x64.size (by sl_kernel_rfl) y
theorem coverB_L (c : Dev nD) (t : Fin cfg1.N) (hc0) (hc1) (p : Acc3 F) (y : S1024x1.Idx) : ∃ pc ∈ (resB V c t hc0 hc1 p).1, y ∈ pc.1.set :=
  View.cover_of_tiledL (resB V c t hc0 hc1 p).1 S1024x1.size (by sl_kernel_rfl) y
theorem coverB_Acc (c : Dev nD) (t : Fin cfg1.N) (hc0) (hc1) (p : Acc3 F) (y : S1024x64.Idx) : ∃ pc ∈ (resB V c t hc0 hc1 p).2.1, y ∈ pc.1.set :=
  View.cover_of_tiledL (resB V c t hc0 hc1 p).2.1 S1024x64.size (by sl_kernel_rfl) y
theorem coverC_Out (c : Dev nD) (t : Fin cfg1.N) (hc0) (hc1) (p : Acc3 F) (y : S1024x64.Idx) : ∃ pc ∈ (resC V c t hc0 hc1 p).1, y ∈ pc.1.set :=
  View.cover_of_tiledL (resC V c t hc0 hc1 p).1 S1024x64.size (by sl_kernel_rfl) y
theorem coverC_L (c : Dev nD) (t : Fin cfg1.N) (hc0) (hc1) (p : Acc3 F) (y : S1024x1.Idx) : ∃ pc ∈ (resC V c t hc0 hc1 p).2.1, y ∈ pc.1.set :=
  View.cover_of_tiledL (resC V c t hc0 hc1 p).2.1 S1024x1.size (by sl_kernel_rfl) y
theorem coverC_Acc (c : Dev nD) (t : Fin cfg1.N) (hc0) (hc1) (p : Acc3 F) (y : S1024x64.Idx) : ∃ pc ∈ (resC V c t hc0 hc1 p).2.2.1, y ∈ pc.1.set :=
  View.cover_of_tiledL (resC V c t hc0 hc1 p).2.2.1 S1024x64.size (by sl_kernel_rfl) y

/-- One grid point: the result window's buffer and the accumulators after the body at `t`, from the accumulators `p` the
    point before left. A column step 0 ignores `p`; a step other than 5 leaves junk in the result window's place. -/
def step1 (c : Dev nD) (t : Fin cfg1.N) (p : Acc3 F) : Vec F S1024x64 .f32 × Acc3 F :=
  if h0 : t.val % 6 = 0 then
    (junkOut,
      VM.read (Elt F) (VM.writes (Elt F) VM.junk (resA V c t (condA0 t h0) (condA1 t h0)).1),
      VL.read (Elt F) (VL.writes (Elt F) VL.junk (resA V c t (condA0 t h0) (condA1 t h0)).2.1),
      VAcc.read (Elt F) (VAcc.writes (Elt F) VAcc.junk (resA V c t (condA0 t h0) (condA1 t h0)).2.2.1))
  else if h1 : t.val % 6 = 5 then
    (VOut.read (Elt F) (VOut.writes (Elt F) VOut.junk (resC V c t (condN0 t h0) (condC1 t h1) p).1),
      p.1,
      VL.read (Elt F) (VL.writes (Elt F) VL.junk (resC V c t (condN0 t h0) (condC1 t h1) p).2.1),
      VAcc.read (Elt F) (VAcc.writes (Elt F) VAcc.junk (resC V c t (condN0 t h0) (condC1 t h1) p).2.2.1))
  else
    (junkOut,
      p.1,
      VL.read (Elt F) (VL.writes (Elt F) VL.junk (resB V c t (condN0 t h0) (condN1 t h1) p).1),
      VAcc.read (Elt F) (VAcc.writes (Elt F) VAcc.junk (resB V c t (condN0 t h0) (condN1 t h1) p).2.1))

/-- THE ACCUMULATION: the result window's buffer and the accumulators after the body at position `n`, by recursion on
    the position. -/
def outsAt1 (c : Dev nD) : (n : ℕ) → n < cfg1.N → Vec F S1024x64 .f32 × Acc3 F
  | 0, hn => step1 V c ⟨0, hn⟩ junkAcc
  | n + 1, hn => step1 V c ⟨n + 1, hn⟩ (outsAt1 c n (Nat.lt_of_succ_lt hn)).2

/-- The accumulators the point before `t` left (junk before the first point). -/
def prevAcc (c : Dev nD) (t : Fin cfg1.N) : Acc3 F :=
  if h : t.val = 0 then junkAcc else (outsAt1 V c (t.val - 1) (Nat.lt_of_le_of_lt (Nat.sub_le _ _) t.isLt)).2

theorem outsAt1_eq (c : Dev nD) (t : Fin cfg1.N) : outsAt1 V c t.val t.isLt = step1 V c t (prevAcc V c t) := by
  obtain ⟨n, hn⟩ := t
  cases n with
  | zero => rfl
  | succ n => rfl

theorem prevAcc_pos (c : Dev nD) (t : Fin cfg1.N) (ht : t.val ≠ 0) :
    prevAcc V c t = (outsAt1 V c (t.val - 1) (Nat.lt_of_le_of_lt (Nat.sub_le _ _) t.isLt)).2 := dif_neg ht

/-! ## The region's invariant -/

/-- Before position `n`: before the first point the scoped buffers this kernel does not stage at anything; afterwards
    the accumulators at what the point before left. The generator register rides along. -/
def Phi1 (c : Dev nD) : (n : ℕ) → n ≤ cfg1.N → sProp 𝕄
  | 0, _ => Pipeline.ΦA spec1 c
  | n + 1, hn => iprop(withAcc c (owns (c : Thread nD τ) scM fullShare (outsAt1 V c n hn).2.1) (owns (c : Thread nD τ) scL fullShare (outsAt1 V c n hn).2.2.1) (owns (c : Thread nD τ) scAcc fullShare (outsAt1 V c n hn).2.2.2) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(withAcc c (owns (c : Thread nD τ) scM fullShare (outsAt1 V c n hn).2.1) (owns (c : Thread nD τ) scL fullShare (outsAt1 V c n hn).2.2.1) (owns (c : Thread nD τ) scAcc fullShare (outsAt1 V c n hn).2.2.2) ∗ (∃ r, prngReg c r)) := rfl

theorem Phi1_pos (c : Dev nD) (n : ℕ) (h : n ≤ cfg1.N) (hz : n ≠ 0) :
    Phi1 V c n h = iprop(withAcc c (owns (c : Thread nD τ) scM fullShare (outsAt1 V c (n - 1) (by omega)).2.1) (owns (c : Thread nD τ) scL fullShare (outsAt1 V c (n - 1) (by omega)).2.2.1) (owns (c : Thread nD τ) scAcc fullShare (outsAt1 V c (n - 1) (by omega)).2.2.2) ∗ (∃ r, prngReg c r)) := by
  cases n with
  | zero => exact absurd rfl hz
  | succ n => rfl

/-- At any position the invariant gives the accumulators at SOME contents (their named contents forgotten). -/
theorem Phi1_any (c : Dev nD) (n : ℕ) (h : n ≤ cfg1.N) : Phi1 V c n h ⊢ Pipeline.ΦA spec1 c := by
  by_cases hz : n = 0
  · rw [Phi1_zero V c n h hz]
  · rw [Phi1_pos V c n h hz, PhiA1_eq]
    iintro ⟨⟨G1, G2, G3, G4, G5, G6, G7, G8, HS7, HS8, HS9⟩, Hg⟩
    isplitl [G1 G2 G3 G4 G5 G6 G7 G8 HS7 HS8 HS9]
    · isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [HS7]
      · iexists _; iexact HS7
      isplitl [HS8]
      · iexists _; iexact HS8
      iexists _; iexact HS9
    iexact Hg

/-- The same with the right side spelt out. -/
theorem Phi1_anyE (c : Dev nD) (n : ℕ) (h : n ≤ cfg1.N) : Phi1 V c n h ⊢
    (iprop(withAcc c iprop(∃ d, owns (c : Thread nD τ) scM fullShare d) iprop(∃ d, owns (c : Thread nD τ) scL fullShare d) iprop(∃ d, owns (c : Thread nD τ) scAcc fullShare d) ∗ (∃ r, prngReg c r)) : sProp 𝕄) := by
  have h := Phi1_any V c n h
  rw [PhiA1_eq] at h
  exact h

/-! ## The proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => (outsAt1 V c t.val t.isLt).1
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the point's column step says which kind of step it is;
    the invariant hands the body the accumulators (at what the point before left, or at anything for a step 0) and takes
    them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [outsAt1_eq V c t]
  have hN : t.val < 72 := lt_of_lt_of_eq t.isLt (show cfg1.N = 72 from N_1)
  by_cases h0 : t.val % 6 = 0
  · rw [Dat.leavesExact_idle (dat1 V c) 4 t (idleAt1_4 t (condA1 t h0)) (noFlush1_4 t (condA1 t h0))]
    unfold step1; rw [dif_pos h0]; (try dsimp only)
    rw [Phi1_castSucc V c t]
    have hany := Phi1_anyE V c t.val (Nat.le_of_lt t.isLt)
    iintro ⟨HP, Ho, ⟨%d0, H0⟩, ⟨%d1, H1⟩, ⟨%d2, H2⟩, ⟨%d3, H3⟩, ⟨%d4, H4⟩⟩
    ihave HP' := hany $$ HP
    icases HP' with ⟨⟨G1, G2, G3, G4, G5, G6, G7, G8, HS7, HS8, HS9⟩, Hg⟩
    iapply ((resA V c t (condA0 t h0) (condA1 t h0)).2.2.2 _ Set.univ _)
    isplitl [H0]; · iexact H0
    isplitl [H1]; · iexact H1
    isplitl [H2]; · iexact H2
    isplitl [H3]; · iexact H3
    isplitl [H4]; · iexact H4
    isplitl [HS7]; · iexact HS7
    isplitl [HS8]; · iexact HS8
    isplitl [HS9]; · iexact HS9
    iintro ⟨H0, H1, H2, H3, H4, ⟨%e7, HS7⟩, ⟨%e8, HS8⟩, ⟨%e9, HS9⟩⟩
    isplitl [G1 G2 G3 G4 G5 G6 G7 G8 HS7 HS8 HS9 Hg]
    ·
      isplitl [G1 G2 G3 G4 G5 G6 G7 G8 HS7 HS8 HS9]
      · isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [HS7]
        · unfold owns; iexists _; isplitr
          swap; · iexact HS7
          ipureintro; exact View.read_writes_of_cover _ _ _ _ _ (coverA_M V c t _ _)
        isplitl [HS8]
        · unfold owns; iexists _; isplitr
          swap; · iexact HS8
          ipureintro; exact View.read_writes_of_cover _ _ _ _ _ (coverA_L V c t _ _)
        unfold owns; iexists _; isplitr
        swap; · iexact HS9
        ipureintro; exact View.read_writes_of_cover _ _ _ _ _ (coverA_Acc V c t _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [Phi1_castSucc V c t, Phi1_pos V c _ _ hz, prevAcc_pos V c t hz]
    by_cases h1 : t.val % 6 = 5
    · rw [show (dat1 V c).leavesExact 4 t = owns (c : Thread nD τ) (ms1_4 t) fullShare ((dat1 V c).after 4 t) from by
        unfold Dat.leavesExact; rw [liveAt1_4 t (condC1 t h1)], after1_4, outsAt1_eq V c t, prevAcc_pos V c t hz]
      unfold step1; rw [dif_neg h0, dif_pos h1]; (try dsimp only)
      iintro ⟨⟨⟨G1, G2, G3, G4, G5, G6, G7, G8, HS7, HS8, HS9⟩, Hg⟩, Ho, ⟨%d0, H0⟩, ⟨%d1, H1⟩, ⟨%d2, H2⟩, ⟨%d3, H3⟩, ⟨%d4, H4⟩⟩
      iapply ((resC V c t (condN0 t h0) (condC1 t h1) _).2.2.2 Set.univ _)
      isplitl [H0]; · iexact H0
      isplitl [H1]; · iexact H1
      isplitl [H2]; · iexact H2
      isplitl [H3]; · iexact H3
      isplitl [H4]; · iexists _; iexact H4
      isplitl [HS7]; · iexact HS7
      isplitl [HS8]; · iexact HS8
      isplitl [HS9]; · iexact HS9
      iintro ⟨H0, H1, H2, H3, ⟨%e4, H4⟩, HS7, ⟨%e8, HS8⟩, ⟨%e9, HS9⟩⟩
      isplitl [G1 G2 G3 G4 G5 G6 G7 G8 HS7 HS8 HS9 Hg]
      ·
        isplitl [G1 G2 G3 G4 G5 G6 G7 G8 HS7 HS8 HS9]
        · isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [HS7]
          · iexact HS7
          isplitl [HS8]
          · unfold owns; iexists _; isplitr
            swap; · iexact HS8
            ipureintro; exact View.read_writes_of_cover _ _ _ _ _ (coverC_L V c t _ _ _)
          unfold owns; iexists _; isplitr
          swap; · iexact HS9
          ipureintro; exact View.read_writes_of_cover _ _ _ _ _ (coverC_Acc V c t _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_Out V c t _ _ _)
    · rw [Dat.leavesExact_idle (dat1 V c) 4 t (idleAt1_4 t (condN1 t h1)) (noFlush1_4 t (condN1 t h1))]
      unfold step1; rw [dif_neg h0, dif_neg h1]; (try dsimp only)
      iintro ⟨⟨⟨G1, G2, G3, G4, G5, G6, G7, G8, HS7, HS8, HS9⟩, Hg⟩, Ho, ⟨%d0, H0⟩, ⟨%d1, H1⟩, ⟨%d2, H2⟩, ⟨%d3, H3⟩, ⟨%d4, H4⟩⟩
      iapply ((resB V c t (condN0 t h0) (condN1 t h1) _).2.2 _ Set.univ _)
      isplitl [H0]; · iexact H0
      isplitl [H1]; · iexact H1
      isplitl [H2]; · iexact H2
      isplitl [H3]; · iexact H3
      isplitl [H4]; · iexact H4
      isplitl [HS7]; · iexact HS7
      isplitl [HS8]; · iexact HS8
      isplitl [HS9]; · iexact HS9
      iintro ⟨H0, H1, H2, H3, H4, HS7, ⟨%e8, HS8⟩, ⟨%e9, HS9⟩⟩
      isplitl [G1 G2 G3 G4 G5 G6 G7 G8 HS7 HS8 HS9 Hg]
      ·
        isplitl [G1 G2 G3 G4 G5 G6 G7 G8 HS7 HS8 HS9]
        · isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [HS7]
          · iexact HS7
          isplitl [HS8]
          · unfold owns; iexists _; isplitr
            swap; · iexact HS8
            ipureintro; exact View.read_writes_of_cover _ _ _ _ _ (coverB_L V c t _ _ _)
          unfold owns; iexists _; isplitr
          swap; · iexact HS9
          ipureintro; exact View.read_writes_of_cover _ _ _ _ _ (coverB_Acc V c t _ _ _)
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the scoped buffers back at anything. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl]
  exact Phi1_any V c _ _

end

end Cert.Kernel.Frame

end
-- ==== Proof.Kernel.Run.lean ====
/-
  The whole program as four segments in order — the host lines that build `[a₁ | a₂]`, the projection region, the
  host lines that split the logit columns and take the largest entry of the second, the attention region — and its
  run: every weakly fair execution ends, and in the final memory every buffer holds what the fold of these four
  steps over the launch memory gives it. A host stretch's step is the composition of its operations; a region's
  step overwrites each of its output arrays by the blocks its grid points wrote back and changes nothing else.
-/
import proofs.«107845_j2010044695310_2_alg».proof.Proof.Kernel.Region0
import proofs.«107845_j2010044695310_2_alg».proof.Proof.Kernel.Region1
import proofs.«107845_j2010044695310_2_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its arrays at what its write-backs leave, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments through the fold -/

/-- `main_arg0` ends as launched: no host line writes it, the projection only reads it through an input window, the attention region never touches it. -/
theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
/-- `main_arg1` ends as launched: no host line writes it, the projection only reads it through an input window, the attention region never touches it. -/
theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl
/-- `main_arg2` ends as launched: no host line writes it, the projection only reads it, the attention region never touches it. -/
theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ## The proof-data family and what rides beside the buffers -/

abbrev admK : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admK p) c
  | ⟨0, _⟩ => fun c => dat0 (V1 m ρ) c
  | ⟨1, _⟩ => fun c => dat1 (V3 m ρ) c
abbrev 𝒱K : Variants := Variants.none
abbrev LK : GSem nD τ sig → Finset Unit := fun _ => ∅
abbrev lvK : GSem nD τ sig → Unit → ℕ := fun _ _ => 0
/-- The generator register at some state and the core owing nothing. -/
abbrev RK (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RK
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TN (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) admK (pdats m ρ) () defs₀ 𝒱K LK lvK 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ LK lvK 0 fun _ _ => rfl
  pre c := iprop(StableHlo.held (c : Thread nD τ) (Pipeline.ucRefs τ sig) (W1 m ρ c) ∗ RK c)
  post c := iprop(StableHlo.held (c : Thread nD τ) (Pipeline.ucRefs τ sig) (W2 m ρ c) ∗ RK c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) admK (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admK (pdats m ρ) () defs₀ 𝒱K LK lvK 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ LK lvK 1 fun _ _ => rfl
  pre c := iprop(StableHlo.held (c : Thread nD τ) (Pipeline.ucRefs τ sig) (W3 m ρ c) ∗ RK c)
  post c := iprop(TN m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) admK (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : (_ : sProp 𝕄) ⊢ Pipeline.ΦA spec1 c).trans (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans (?_ : Pipeline.ΦA spec1 c ⊢ (_ : sProp 𝕄))
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) admK (pdats m ρ) () defs₀ 𝒱K LK lvK) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final memory each unscoped buffer holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) admK (pdats m ρ) () cellOf_inj emb₁ defs₀ 𝒱K LK lvK m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RK c)) (Tₙ := TN m ρ)
    (hch := ⟨fun _ => .rfl, fun _ => .rfl, fun _ => .rfl, fun _ => .rfl, fun _ => .rfl⟩)
    (hinit := by
      refine Pipeline.initEach LK lvK fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.Kernel.Frame

end
-- ==== Proof.KernelIdeal.Region0.lean ====
/-
  The projection region (the first kernel launch): a grid of 6 row blocks. At block `t` the body reads rows
  2048·t … 2048·t+2047 of `h`, all of `W` and all of the two-column matrix `[a₁ | a₂]`, and writes the
  same rows of `Wh = h·W` (rounded through bf16) and of `Wh·[a₁ | a₂]`. Nothing is carried from one block to
  the next: each output block is one function of the three input blocks at the same point.
-/
import proofs.«107845_j2010044695310_2_alg».proof.Proof.Gen.KernelIdeal.Launch
import proofs.«107845_j2010044695310_2_alg».proof.Proof.Gen.KernelIdeal.Skeleton
import proofs.«107845_j2010044695310_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w` at point `t`, read off the array the region is entered with. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window holds its block at every point, whether or not the pipeline fetched it there: where it did
    not, the block index has not moved. Window 0 (rows of `h`). -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- Window 1 (`W`, the same whole block at every point). -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- Window 2 (`[a₁ | a₂]`, the same whole block at every point). -/
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

end

/-! ## The body's accesses: every load and store is of a whole block -/

abbrev rH : Rect S2048x128 := Rect.unit (s := S2048x128) ![0, 0] S2048x128.size inb_S2048x128_S2048x128_0_0
abbrev rW : Rect S128x64 := Rect.unit (s := S128x64) ![0, 0] S128x64.size inb_S128x64_S128x64_0_0
abbrev rA : Rect S64x2 := Rect.unit (s := S64x2) ![0, 0] S64x2.size inb_S64x2_S64x2_0_0
abbrev rWh : Rect S2048x64 := Rect.unit (s := S2048x64) ![0, 0] S2048x64.size inb_S2048x64_S2048x64_0_0
abbrev rE : Rect S2048x2 := Rect.unit (s := S2048x2) ![0, 0] S2048x2.size inb_S2048x2_S2048x2_0_0

/-- The block of `Wh` the body leaves: its one store, of the product of the `h` block and `W`. -/
def outWh (x0 : Vec F S2048x128 .f32) (x1 : Vec F S128x64 .f32) : Vec F S2048x64 .bf16 :=
  View.canon [⟨rWh, k0_pay3 (View.ld x0 rH) (View.ld x1 rW)⟩]
/-- The block of `Wh·[a₁ | a₂]` the body leaves: its one store. -/
def outE (x0 : Vec F S2048x128 .f32) (x1 : Vec F S128x64 .f32) (x2 : Vec F S64x2 .f32) : Vec F S2048x2 .f32 :=
  View.canon [⟨rE, k0_pay2 (View.ld x0 rH) (View.ld x1 rW) (View.ld x2 rA)⟩]

theorem coverWh (p0 : Vec F S2048x64 .bf16) (y : S2048x64.Idx) :
    ∃ pc ∈ ([⟨rWh, p0⟩] : List (View.Piece (Elt F) S2048x64 .bf16)), y ∈ pc.1.set :=
  View.cover_of_tiled [⟨rWh, p0⟩] S2048x64.size (by rfl) y
theorem coverE (p0 : Vec F S2048x2 .f32) (y : S2048x2.Idx) :
    ∃ pc ∈ ([⟨rE, p0⟩] : List (View.Piece (Elt F) S2048x2 .f32)), y ∈ pc.1.set :=
  View.cover_of_tiled [⟨rE, p0⟩] S2048x2.size (by rfl) y

set_option maxHeartbeats 2000000 in
/-- The body on whole memrefs: from the three inputs at their contents and the two outputs at anything, it ends with
    the inputs as they were and each output at its block. -/
theorem sound_kernel0 (c : Dev nD) (E : Set ℕ) (i : grid0.Coords)
    (arg1 : Memref sig .tc .vmem S2048x128 .f32) (harg1 : arg1.IsWhole) (arg2 : Memref sig .tc .vmem S128x64 .f32) (harg2 : arg2.IsWhole)
    (arg3 : Memref sig .tc .vmem S64x2 .f32) (harg3 : arg3.IsWhole) (arg4 : Memref sig .tc .vmem S2048x64 .bf16) (harg4 : arg4.IsWhole)
    (arg5 : Memref sig .tc .vmem S2048x2 .f32) (harg5 : arg5.IsWhole)
    (x0 : Vec F S2048x128 .f32) (x1 : Vec F S128x64 .f32) (x2 : Vec F S64x2 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outWh x0 x1) ∗ owns (c : Thread nD τ) arg5 fullShare (outE x0 x1 x2)) -∗ K ⟨⟩))
      ⊢ wp frame (wpE (defs₀ (F := F)) Variants.none c none) E (cc0_proj_kernel i arg1 harg1 arg2 harg2 arg3 harg3 arg4 harg4 arg5 harg5) K := by
  simp only [cc0_proj_kernel_eq_skeleton]; unfold cc0_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverWh _)
  iexists _; isplitr
  swap; · iexact H4
  ipureintro
  exact View.read_writes_eq_canon _ _ _ (coverE _)

section
variable (V : (c : Dev nD) → (b : Ref sig .tc) → Buf (Elt F) ((c : Thread nD τ).loc b))

/-- The region's proof data on core `c`: the arrays as the region is entered; after the body at point `t` each input
    window at its block and each output window at its block as computed from the inputs'; the invariant is the
    scoped buffers the kernel does not use, at anything; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => outWh (blk0 V c 0 t) (blk0 V c 1 t)
    | ⟨4, _⟩ => outE (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = outWh (blk0 V c 0 t) (blk0 V c 1 t) := by dsimp only [dat0]
theorem after0_4 (c : Dev nD) (t : Fin cfg0.N) : (dat0 V c).after 4 t = outE (blk0 V c 0 t) (blk0 V c 1 t) (blk0 V c 2 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end

end Cert.KernelIdeal.Frame

end
-- ==== Proof.KernelIdeal.R1Base.lean ====
/-
  The attention region (the second kernel launch): a grid of 12 row blocks by 6 column blocks, the column index
  running fastest. For a row block the kernel keeps three accumulators across its 6 column steps: the row shift
  `m`, the running sum `l` of the exponentials and the running weighted sum `acc` of the value rows. At column
  step 0 it sets `m` and zeroes `l` and `acc`; at every step it adds the step's 2048 columns to `l` and
  `acc`; at step 5 it writes `elu(acc / l)` into the row block of the result. What is shared by the three kinds
  of step is stated here.
-/
import proofs.«107845_j2010044695310_2_alg».proof.Proof.Gen.KernelIdeal.Launch
import proofs.«107845_j2010044695310_2_alg».proof.Proof.Gen.KernelIdeal.Skeleton
import proofs.«107845_j2010044695310_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w` at point `t`, read off the array the region is entered with. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window holds its block at every point, fetched there or not. Window 0: the row block of the first logit column. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- Window 1: the second logit column as one row, whole at every point. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
/-- Window 2: the value matrix, whole at every point. -/
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
/-- Window 3: the one-element array holding the largest entry of the second logit column. -/
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

end

/-! ## The two branches of the body, decided over the grid -/

/-- The first branch (reset the accumulators) is taken when the column step is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 6 = 0 :=
  (by decide +kernel : ∀ t : Fin grid1.N, cond1_0 (grid1.coords t) ↔ t.val % 6 = 0)
/-- The second branch (write the row block of the result) is taken when the column step is 5. -/
abbrev cond1_1 (i : grid1.Coords) : Prop := k1_cond2 i = 1#1
theorem hcond1_1 : ∀ t : Fin cfg1.N, cond1_1 (grid1.coords t) ↔ t.val % 6 = 5 :=
  (by decide +kernel : ∀ t : Fin grid1.N, cond1_1 (grid1.coords t) ↔ t.val % 6 = 5)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from column step 5 the result window is idle (nothing is stored into it) and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At column step 5 it is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x12288 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S12288x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)
/-- The three accumulators: the row shift, the running sum, the running weighted sum. -/
abbrev scM : Memref sig .tc .vmem S1024x1 .f32 := Memref.whole cc1_scratch0
abbrev scL : Memref sig .tc .vmem S1024x1 .f32 := Memref.whole cc1_scratch1
abbrev scAcc : Memref sig .tc .vmem S1024x64 .f32 := Memref.whole cc1_scratch2
abbrev VM : View sig .tc .vmem S1024x1 .f32 := scM.view
abbrev VL : View sig .tc .vmem S1024x1 .f32 := scL.view
abbrev VAcc : View sig .tc .vmem S1024x64 .f32 := scAcc.view
/-- One staging buffer of the result window, through which its contents are stated. -/
abbrev VOut : View sig .tc .vmem S1024x64 .f32 := (Memref.whole cc1_stg4_0 : Memref sig .tc .vmem S1024x64 .f32).view

/-- The scoped buffers this kernel does not stage: the first kernel's eight staging buffers at anything, and the
    three accumulators at `A`, `B`, `C`. -/
abbrev withAcc (c : Dev nD) (A B C : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ A ∗ B ∗ C)

/-- The invariant before the first point, with the accumulators as memrefs owned at some contents. -/
theorem PhiA1_eq (c : Dev nD) :
    (Pipeline.ΦA spec1 c : sProp 𝕄)
      = iprop(withAcc c iprop(∃ d, owns (c : Thread nD τ) scM fullShare d) iprop(∃ d, owns (c : Thread nD τ) scL fullShare d) iprop(∃ d, owns (c : Thread nD τ) scAcc fullShare d) ∗ (∃ r, prngReg c r)) := by
  unfold Pipeline.ΦA; rw [scopedRest1_eq]; simp only [scM, scL, scAcc, owns_whole]; try rfl

end Cert.KernelIdeal.Frame

end
-- ==== Proof.KernelIdeal.RunA.lean ====
/-
  A column step 0 of the attention kernel: the row shift is set from the row block of the first logit column and
  the largest entry of the second, the two sums are zeroed, and the step's 2048 columns are added to them. The
  result window is left untouched.
-/
import proofs.«107845_j2010044695310_2_alg».proof.Proof.KernelIdeal.R1Base

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each accumulator at a column step 0, as pieces (last first), with the proof that on
    whole memrefs — the inputs at their contents, the result window at contents handed back untouched, the accumulators
    at anything — the body runs to the continuation holding the inputs as they were and each accumulator with its pieces
    written. -/
noncomputable def runA (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x12288 .f32) (x2 : Vec F S12288x64 .bf16) (x3 : Vec F S1x1 .f32) :
    Σ' (LM : List (View.Piece (Elt F) S1024x1 .f32)) (LL : List (View.Piece (Elt F) S1024x1 .f32)), { LAcc : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LAcc)) -∗ K ⟨⟩))
          ⊢ wp frame (wpE (defs₀ (F := F)) Variants.none c none) E (cc1_ga_kernel i arg2 harg2 arg3 harg3 arg4 harg4 arg5 harg5 arg6 harg6 arg7 harg7 arg8 harg8 arg9 harg9) K } := by
  refine ⟨?_, ?_, ?_, fun xi4 E K => ?run⟩
  case run =>
    simp only [cc1_ga_kernel_eq_skeleton]; unfold cc1_ga_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds7, %fs7, -, HS7⟩, ⟨%ds8, %fs8, -, HS8⟩, ⟨%ds9, %fs9, -, HS9⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]; · iexists _; iexact HS7
    isplitl [HS8]; · iexists _; iexact HS8
    iexists _; iexact HS9

end Cert.KernelIdeal.Frame

end
-- ==== Proof.KernelIdeal.RunB.lean ====
/-
  A column step 1 to 4 of the attention kernel: the row shift is read, and the step's 2048 columns are added to
  the running sum and to the running weighted sum. The result window is left untouched.
-/
import proofs.«107845_j2010044695310_2_alg».proof.Proof.KernelIdeal.R1Base

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the two sums at a middle column step, as pieces (last first), with the proof that
    on whole memrefs — the inputs and the three accumulators at their contents, the result window at contents handed
    back untouched — the body runs to the continuation holding the inputs and the row shift as they were and each sum
    with its pieces written. -/
noncomputable def runB (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x12288 .f32) (x2 : Vec F S12288x64 .bf16) (x3 : Vec F S1x1 .f32) (xs7 : Vec F S1024x1 .f32) (xs8 : Vec F S1024x1 .f32) (xs9 : Vec F S1024x64 .f32) :
    Σ' (LL : List (View.Piece (Elt F) S1024x1 .f32)), { LAcc : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs7 ∗ owns (c : Thread nD τ) arg8 fullShare xs8 ∗ owns (c : Thread nD τ) arg9 fullShare xs9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ owns (c : Thread nD τ) arg7 fullShare xs7 ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LAcc)) -∗ K ⟨⟩))
          ⊢ wp frame (wpE (defs₀ (F := F)) Variants.none c none) E (cc1_ga_kernel i arg2 harg2 arg3 harg3 arg4 harg4 arg5 harg5 arg6 harg6 arg7 harg7 arg8 harg8 arg9 harg9) K } := by
  refine ⟨?_, ?_, fun xi4 E K => ?run⟩
  case run =>
    simp only [cc1_ga_kernel_eq_skeleton]; unfold cc1_ga_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs7, %hfs7, HS7⟩, ⟨%fs8, %hfs8, HS8⟩, ⟨%fs9, %hfs9, HS9⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs7; obtain rfl := harg8.eq_unread hfs8; obtain rfl := harg9.eq_unread hfs9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS7]
    · iexists _; isplitr; · ipureintro; exact harg7.read_unread _
      iexact HS7
    isplitl [HS8]; · iexists _; iexact HS8
    iexists _; iexact HS9

end Cert.KernelIdeal.Frame

end
-- ==== Proof.KernelIdeal.RunC.lean ====
/-
  A column step 5 of the attention kernel: the last 2048 columns are added to the two sums, and the row block of
  the result is written: `elu` of the weighted sum divided by the sum.
-/
import proofs.«107845_j2010044695310_2_alg».proof.Proof.KernelIdeal.R1Base

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result window and the two sums at a last column step, as pieces (last first),
    with the proof that on whole memrefs — the inputs and the three accumulators at their contents, the result window at
    anything — the body runs to the continuation holding the inputs and the row shift as they were and the result window
    and each sum with its pieces written. -/
noncomputable def runC (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x12288 .f32) (x2 : Vec F S12288x64 .bf16) (x3 : Vec F S1x1 .f32) (xs7 : Vec F S1024x1 .f32) (xs8 : Vec F S1024x1 .f32) (xs9 : Vec F S1024x64 .f32) :
    Σ' (LOut : List (View.Piece (Elt F) S1024x64 .f32)) (LL : List (View.Piece (Elt F) S1024x1 .f32)), { LAcc : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs7 ∗ owns (c : Thread nD τ) arg8 fullShare xs8 ∗ owns (c : Thread nD τ) arg9 fullShare xs9
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LOut)
                ∗ owns (c : Thread nD τ) arg7 fullShare xs7 ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LAcc)) -∗ K ⟨⟩))
          ⊢ wp frame (wpE (defs₀ (F := F)) Variants.none c none) E (cc1_ga_kernel i arg2 harg2 arg3 harg3 arg4 harg4 arg5 harg5 arg6 harg6 arg7 harg7 arg8 harg8 arg9 harg9) K } := by
  refine ⟨?_, ?_, ?_, fun E K => ?run⟩
  case run =>
    simp only [cc1_ga_kernel_eq_skeleton]; unfold cc1_ga_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs7, %hfs7, HS7⟩, ⟨%fs8, %hfs8, HS8⟩, ⟨%fs9, %hfs9, HS9⟩, Hk⟩
    obtain rfl := harg2.eq_unread hf0; obtain rfl := harg3.eq_unread hf1; obtain rfl := harg4.eq_unread hf2; obtain rfl := harg5.eq_unread hf3
    obtain rfl := harg7.eq_unread hfs7; obtain rfl := harg8.eq_unread hfs8; obtain rfl := harg9.eq_unread hfs9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS7]
    · iexists _; isplitr; · ipureintro; exact harg7.read_unread _
      iexact HS7
    isplitl [HS8]; · iexists _; iexact HS8
    iexists _; iexact HS9

end Cert.KernelIdeal.Frame

end
-- ==== Proof.KernelIdeal.Region1.lean ====
/-
  The attention region assembled: what each kind of column step leaves in the accumulators and in the result
  window, the contents after every one of the 72 grid points by recursion on the point (a step 0 starts afresh,
  a later step continues from what the step before left), the region's invariant (before the first point the
  accumulators hold anything, afterwards what the point before left), its proof data and the body obligation.
-/
import proofs.«107845_j2010044695310_2_alg».proof.Proof.KernelIdeal.RunA
import proofs.«107845_j2010044695310_2_alg».proof.Proof.KernelIdeal.RunB
import proofs.«107845_j2010044695310_2_alg».proof.Proof.KernelIdeal.RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three accumulators' contents: the row shift, the running sum, the running weighted sum. -/
abbrev Acc3 (F : FTy → Type) [FloatOps F] : Type := Vec F S1024x1 .f32 × Vec F S1024x1 .f32 × Vec F S1024x64 .f32

/-- Contents nothing reads: the result window at a point that stores nothing into it, the accumulators before the
    first point. -/
def junkOut : Vec F S1024x64 .f32 := VOut.read (Elt F) (VOut.writes (Elt F) VOut.junk [])
def junkAcc : Acc3 F :=
  (VM.read (Elt F) (VM.writes (Elt F) VM.junk []), VL.read (Elt F) (VL.writes (Elt F) VL.junk []), VAcc.read (Elt F) (VAcc.writes (Elt F) VAcc.junk []))

theorem condA0 (t : Fin cfg1.N) (h0 : t.val % 6 = 0) : cond1_0 (grid1.coords t) := (hcond1_0 t).mpr h0
theorem condA1 (t : Fin cfg1.N) (h0 : t.val % 6 = 0) : ¬cond1_1 (grid1.coords t) := fun h => by
  have := (hcond1_1 t).mp h; omega
theorem condN0 (t : Fin cfg1.N) (h0 : ¬t.val % 6 = 0) : ¬cond1_0 (grid1.coords t) := fun h => h0 ((hcond1_0 t).mp h)
theorem condC1 (t : Fin cfg1.N) (h1 : t.val % 6 = 5) : cond1_1 (grid1.coords t) := (hcond1_1 t).mpr h1
theorem condN1 (t : Fin cfg1.N) (h1 : ¬t.val % 6 = 5) : ¬cond1_1 (grid1.coords t) := fun h => h1 ((hcond1_1 t).mp h)

section
variable (V : (c : Dev nD) → (b : Ref sig .tc) → Buf (Elt F) ((c : Thread nD τ).loc b))

/-! ## What each kind of step leaves, at the point's memrefs and input blocks -/

/-- The run of a column step 0 at point `t`. -/
def resA (c : Dev nD) (t : Fin cfg1.N) (hc0 : cond1_0 (grid1.coords t)) (hc1 : ¬cond1_1 (grid1.coords t)) :=
  runA (F := F) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scAcc (Memref.isWhole_whole _) hc0 hc1 (blk1 V c 0 t) (blk1 V c 1 t) (blk1 V c 2 t) (blk1 V c 3 t)
/-- The run of a middle column step at point `t`, from the accumulators `p`. -/
def resB (c : Dev nD) (t : Fin cfg1.N) (hc0 : ¬cond1_0 (grid1.coords t)) (hc1 : ¬cond1_1 (grid1.coords t)) (p : Acc3 F) :=
  runB (F := F) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scAcc (Memref.isWhole_whole _) hc0 hc1 (blk1 V c 0 t) (blk1 V c 1 t) (blk1 V c 2 t) (blk1 V c 3 t) p.1 p.2.1 p.2.2
/-- The run of a last column step at point `t`, from the accumulators `p`. -/
def resC (c : Dev nD) (t : Fin cfg1.N) (hc0 : ¬cond1_0 (grid1.coords t)) (hc1 : cond1_1 (grid1.coords t)) (p : Acc3 F) :=
  runC (F := F) c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scAcc (Memref.isWhole_whole _) hc0 hc1 (blk1 V c 0 t) (blk1 V c 1 t) (blk1 V c 2 t) (blk1 V c 3 t) p.1 p.2.1 p.2.2

theorem coverA_M (c : Dev nD) (t : Fin cfg1.N) (hc0) (hc1) (y : S1024x1.Idx) : ∃ pc ∈ (resA V c t hc0 hc1).1, y ∈ pc.1.set :=
  View.cover_of_tiledL (resA V c t hc0 hc1).1 S1024x1.size (by sl_kernel_rfl) y
theorem coverA_L (c : Dev nD) (t : Fin cfg1.N) (hc0) (hc1) (y : S1024x1.Idx) : ∃ pc ∈ (resA V c t hc0 hc1).2.1, y ∈ pc.1.set :=
  View.cover_of_tiledL (resA V c t hc0 hc1).2.1 S1024x1.size (by sl_kernel_rfl) y
theorem coverA_Acc (c : Dev nD) (t : Fin cfg1.N) (hc0) (hc1) (y : S1024x64.Idx) : ∃ pc ∈ (resA V c t hc0 hc1).2.2.1, y ∈ pc.1.set :=
  View.cover_of_tiledL (resA V c t hc0 hc1).2.2.1 S1024x64.size (by sl_kernel_rfl) y
theorem coverB_L (c : Dev nD) (t : Fin cfg1.N) (hc0) (hc1) (p : Acc3 F) (y : S1024x1.Idx) : ∃ pc ∈ (resB V c t hc0 hc1 p).1, y ∈ pc.1.set :=
  View.cover_of_tiledL (resB V c t hc0 hc1 p).1 S1024x1.size (by sl_kernel_rfl) y
theorem coverB_Acc (c : Dev nD) (t : Fin cfg1.N) (hc0) (hc1) (p : Acc3 F) (y : S1024x64.Idx) : ∃ pc ∈ (resB V c t hc0 hc1 p).2.1, y ∈ pc.1.set :=
  View.cover_of_tiledL (resB V c t hc0 hc1 p).2.1 S1024x64.size (by sl_kernel_rfl) y
theorem coverC_Out (c : Dev nD) (t : Fin cfg1.N) (hc0) (hc1) (p : Acc3 F) (y : S1024x64.Idx) : ∃ pc ∈ (resC V c t hc0 hc1 p).1, y ∈ pc.1.set :=
  View.cover_of_tiledL (resC V c t hc0 hc1 p).1 S1024x64.size (by sl_kernel_rfl) y
theorem coverC_L (c : Dev nD) (t : Fin cfg1.N) (hc0) (hc1) (p : Acc3 F) (y : S1024x1.Idx) : ∃ pc ∈ (resC V c t hc0 hc1 p).2.1, y ∈ pc.1.set :=
  View.cover_of_tiledL (resC V c t hc0 hc1 p).2.1 S1024x1.size (by sl_kernel_rfl) y
theorem coverC_Acc (c : Dev nD) (t : Fin cfg1.N) (hc0) (hc1) (p : Acc3 F) (y : S1024x64.Idx) : ∃ pc ∈ (resC V c t hc0 hc1 p).2.2.1, y ∈ pc.1.set :=
  View.cover_of_tiledL (resC V c t hc0 hc1 p).2.2.1 S1024x64.size (by sl_kernel_rfl) y

/-- One grid point: the result window's buffer and the accumulators after the body at `t`, from the accumulators `p` the
    point before left. A column step 0 ignores `p`; a step other than 5 leaves junk in the result window's place. -/
def step1 (c : Dev nD) (t : Fin cfg1.N) (p : Acc3 F) : Vec F S1024x64 .f32 × Acc3 F :=
  if h0 : t.val % 6 = 0 then
    (junkOut,
      VM.read (Elt F) (VM.writes (Elt F) VM.junk (resA V c t (condA0 t h0) (condA1 t h0)).1),
      VL.read (Elt F) (VL.writes (Elt F) VL.junk (resA V c t (condA0 t h0) (condA1 t h0)).2.1),
      VAcc.read (Elt F) (VAcc.writes (Elt F) VAcc.junk (resA V c t (condA0 t h0) (condA1 t h0)).2.2.1))
  else if h1 : t.val % 6 = 5 then
    (VOut.read (Elt F) (VOut.writes (Elt F) VOut.junk (resC V c t (condN0 t h0) (condC1 t h1) p).1),
      p.1,
      VL.read (Elt F) (VL.writes (Elt F) VL.junk (resC V c t (condN0 t h0) (condC1 t h1) p).2.1),
      VAcc.read (Elt F) (VAcc.writes (Elt F) VAcc.junk (resC V c t (condN0 t h0) (condC1 t h1) p).2.2.1))
  else
    (junkOut,
      p.1,
      VL.read (Elt F) (VL.writes (Elt F) VL.junk (resB V c t (condN0 t h0) (condN1 t h1) p).1),
      VAcc.read (Elt F) (VAcc.writes (Elt F) VAcc.junk (resB V c t (condN0 t h0) (condN1 t h1) p).2.1))

/-- THE ACCUMULATION: the result window's buffer and the accumulators after the body at position `n`, by recursion on
    the position. -/
def outsAt1 (c : Dev nD) : (n : ℕ) → n < cfg1.N → Vec F S1024x64 .f32 × Acc3 F
  | 0, hn => step1 V c ⟨0, hn⟩ junkAcc
  | n + 1, hn => step1 V c ⟨n + 1, hn⟩ (outsAt1 c n (Nat.lt_of_succ_lt hn)).2

/-- The accumulators the point before `t` left (junk before the first point). -/
def prevAcc (c : Dev nD) (t : Fin cfg1.N) : Acc3 F :=
  if h : t.val = 0 then junkAcc else (outsAt1 V c (t.val - 1) (Nat.lt_of_le_of_lt (Nat.sub_le _ _) t.isLt)).2

theorem outsAt1_eq (c : Dev nD) (t : Fin cfg1.N) : outsAt1 V c t.val t.isLt = step1 V c t (prevAcc V c t) := by
  obtain ⟨n, hn⟩ := t
  cases n with
  | zero => rfl
  | succ n => rfl

theorem prevAcc_pos (c : Dev nD) (t : Fin cfg1.N) (ht : t.val ≠ 0) :
    prevAcc V c t = (outsAt1 V c (t.val - 1) (Nat.lt_of_le_of_lt (Nat.sub_le _ _) t.isLt)).2 := dif_neg ht

/-! ## The region's invariant -/

/-- Before position `n`: before the first point the scoped buffers this kernel does not stage at anything; afterwards
    the accumulators at what the point before left. The generator register rides along. -/
def Phi1 (c : Dev nD) : (n : ℕ) → n ≤ cfg1.N → sProp 𝕄
  | 0, _ => Pipeline.ΦA spec1 c
  | n + 1, hn => iprop(withAcc c (owns (c : Thread nD τ) scM fullShare (outsAt1 V c n hn).2.1) (owns (c : Thread nD τ) scL fullShare (outsAt1 V c n hn).2.2.1) (owns (c : Thread nD τ) scAcc fullShare (outsAt1 V c n hn).2.2.2) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(withAcc c (owns (c : Thread nD τ) scM fullShare (outsAt1 V c n hn).2.1) (owns (c : Thread nD τ) scL fullShare (outsAt1 V c n hn).2.2.1) (owns (c : Thread nD τ) scAcc fullShare (outsAt1 V c n hn).2.2.2) ∗ (∃ r, prngReg c r)) := rfl

theorem Phi1_pos (c : Dev nD) (n : ℕ) (h : n ≤ cfg1.N) (hz : n ≠ 0) :
    Phi1 V c n h = iprop(withAcc c (owns (c : Thread nD τ) scM fullShare (outsAt1 V c (n - 1) (by omega)).2.1) (owns (c : Thread nD τ) scL fullShare (outsAt1 V c (n - 1) (by omega)).2.2.1) (owns (c : Thread nD τ) scAcc fullShare (outsAt1 V c (n - 1) (by omega)).2.2.2) ∗ (∃ r, prngReg c r)) := by
  cases n with
  | zero => exact absurd rfl hz
  | succ n => rfl

/-- At any position the invariant gives the accumulators at SOME contents (their named contents forgotten). -/
theorem Phi1_any (c : Dev nD) (n : ℕ) (h : n ≤ cfg1.N) : Phi1 V c n h ⊢ Pipeline.ΦA spec1 c := by
  by_cases hz : n = 0
  · rw [Phi1_zero V c n h hz]
  · rw [Phi1_pos V c n h hz, PhiA1_eq]
    iintro ⟨⟨G1, G2, G3, G4, G5, G6, G7, G8, HS7, HS8, HS9⟩, Hg⟩
    isplitl [G1 G2 G3 G4 G5 G6 G7 G8 HS7 HS8 HS9]
    · isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [HS7]
      · iexists _; iexact HS7
      isplitl [HS8]
      · iexists _; iexact HS8
      iexists _; iexact HS9
    iexact Hg

/-- The same with the right side spelt out. -/
theorem Phi1_anyE (c : Dev nD) (n : ℕ) (h : n ≤ cfg1.N) : Phi1 V c n h ⊢
    (iprop(withAcc c iprop(∃ d, owns (c : Thread nD τ) scM fullShare d) iprop(∃ d, owns (c : Thread nD τ) scL fullShare d) iprop(∃ d, owns (c : Thread nD τ) scAcc fullShare d) ∗ (∃ r, prngReg c r)) : sProp 𝕄) := by
  have h := Phi1_any V c n h
  rw [PhiA1_eq] at h
  exact h

/-! ## The proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => (outsAt1 V c t.val t.isLt).1
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the point's column step says which kind of step it is;
    the invariant hands the body the accumulators (at what the point before left, or at anything for a step 0) and takes
    them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [outsAt1_eq V c t]
  have hN : t.val < 72 := lt_of_lt_of_eq t.isLt (show cfg1.N = 72 from N_1)
  by_cases h0 : t.val % 6 = 0
  · rw [Dat.leavesExact_idle (dat1 V c) 4 t (idleAt1_4 t (condA1 t h0)) (noFlush1_4 t (condA1 t h0))]
    unfold step1; rw [dif_pos h0]; (try dsimp only)
    rw [Phi1_castSucc V c t]
    have hany := Phi1_anyE V c t.val (Nat.le_of_lt t.isLt)
    iintro ⟨HP, Ho, ⟨%d0, H0⟩, ⟨%d1, H1⟩, ⟨%d2, H2⟩, ⟨%d3, H3⟩, ⟨%d4, H4⟩⟩
    ihave HP' := hany $$ HP
    icases HP' with ⟨⟨G1, G2, G3, G4, G5, G6, G7, G8, HS7, HS8, HS9⟩, Hg⟩
    iapply ((resA V c t (condA0 t h0) (condA1 t h0)).2.2.2 _ Set.univ _)
    isplitl [H0]; · iexact H0
    isplitl [H1]; · iexact H1
    isplitl [H2]; · iexact H2
    isplitl [H3]; · iexact H3
    isplitl [H4]; · iexact H4
    isplitl [HS7]; · iexact HS7
    isplitl [HS8]; · iexact HS8
    isplitl [HS9]; · iexact HS9
    iintro ⟨H0, H1, H2, H3, H4, ⟨%e7, HS7⟩, ⟨%e8, HS8⟩, ⟨%e9, HS9⟩⟩
    isplitl [G1 G2 G3 G4 G5 G6 G7 G8 HS7 HS8 HS9 Hg]
    ·
      isplitl [G1 G2 G3 G4 G5 G6 G7 G8 HS7 HS8 HS9]
      · isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [HS7]
        · unfold owns; iexists _; isplitr
          swap; · iexact HS7
          ipureintro; exact View.read_writes_of_cover _ _ _ _ _ (coverA_M V c t _ _)
        isplitl [HS8]
        · unfold owns; iexists _; isplitr
          swap; · iexact HS8
          ipureintro; exact View.read_writes_of_cover _ _ _ _ _ (coverA_L V c t _ _)
        unfold owns; iexists _; isplitr
        swap; · iexact HS9
        ipureintro; exact View.read_writes_of_cover _ _ _ _ _ (coverA_Acc V c t _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [Phi1_castSucc V c t, Phi1_pos V c _ _ hz, prevAcc_pos V c t hz]
    by_cases h1 : t.val % 6 = 5
    · rw [show (dat1 V c).leavesExact 4 t = owns (c : Thread nD τ) (ms1_4 t) fullShare ((dat1 V c).after 4 t) from by
        unfold Dat.leavesExact; rw [liveAt1_4 t (condC1 t h1)], after1_4, outsAt1_eq V c t, prevAcc_pos V c t hz]
      unfold step1; rw [dif_neg h0, dif_pos h1]; (try dsimp only)
      iintro ⟨⟨⟨G1, G2, G3, G4, G5, G6, G7, G8, HS7, HS8, HS9⟩, Hg⟩, Ho, ⟨%d0, H0⟩, ⟨%d1, H1⟩, ⟨%d2, H2⟩, ⟨%d3, H3⟩, ⟨%d4, H4⟩⟩
      iapply ((resC V c t (condN0 t h0) (condC1 t h1) _).2.2.2 Set.univ _)
      isplitl [H0]; · iexact H0
      isplitl [H1]; · iexact H1
      isplitl [H2]; · iexact H2
      isplitl [H3]; · iexact H3
      isplitl [H4]; · iexists _; iexact H4
      isplitl [HS7]; · iexact HS7
      isplitl [HS8]; · iexact HS8
      isplitl [HS9]; · iexact HS9
      iintro ⟨H0, H1, H2, H3, ⟨%e4, H4⟩, HS7, ⟨%e8, HS8⟩, ⟨%e9, HS9⟩⟩
      isplitl [G1 G2 G3 G4 G5 G6 G7 G8 HS7 HS8 HS9 Hg]
      ·
        isplitl [G1 G2 G3 G4 G5 G6 G7 G8 HS7 HS8 HS9]
        · isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [HS7]
          · iexact HS7
          isplitl [HS8]
          · unfold owns; iexists _; isplitr
            swap; · iexact HS8
            ipureintro; exact View.read_writes_of_cover _ _ _ _ _ (coverC_L V c t _ _ _)
          unfold owns; iexists _; isplitr
          swap; · iexact HS9
          ipureintro; exact View.read_writes_of_cover _ _ _ _ _ (coverC_Acc V c t _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_Out V c t _ _ _)
    · rw [Dat.leavesExact_idle (dat1 V c) 4 t (idleAt1_4 t (condN1 t h1)) (noFlush1_4 t (condN1 t h1))]
      unfold step1; rw [dif_neg h0, dif_neg h1]; (try dsimp only)
      iintro ⟨⟨⟨G1, G2, G3, G4, G5, G6, G7, G8, HS7, HS8, HS9⟩, Hg⟩, Ho, ⟨%d0, H0⟩, ⟨%d1, H1⟩, ⟨%d2, H2⟩, ⟨%d3, H3⟩, ⟨%d4, H4⟩⟩
      iapply ((resB V c t (condN0 t h0) (condN1 t h1) _).2.2 _ Set.univ _)
      isplitl [H0]; · iexact H0
      isplitl [H1]; · iexact H1
      isplitl [H2]; · iexact H2
      isplitl [H3]; · iexact H3
      isplitl [H4]; · iexact H4
      isplitl [HS7]; · iexact HS7
      isplitl [HS8]; · iexact HS8
      isplitl [HS9]; · iexact HS9
      iintro ⟨H0, H1, H2, H3, H4, HS7, ⟨%e8, HS8⟩, ⟨%e9, HS9⟩⟩
      isplitl [G1 G2 G3 G4 G5 G6 G7 G8 HS7 HS8 HS9 Hg]
      ·
        isplitl [G1 G2 G3 G4 G5 G6 G7 G8 HS7 HS8 HS9]
        · isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [HS7]
          · iexact HS7
          isplitl [HS8]
          · unfold owns; iexists _; isplitr
            swap; · iexact HS8
            ipureintro; exact View.read_writes_of_cover _ _ _ _ _ (coverB_L V c t _ _ _)
          unfold owns; iexists _; isplitr
          swap; · iexact HS9
          ipureintro; exact View.read_writes_of_cover _ _ _ _ _ (coverB_Acc V c t _ _ _)
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the scoped buffers back at anything. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl]
  exact Phi1_any V c _ _

end

end Cert.KernelIdeal.Frame

end
-- ==== Proof.KernelIdeal.Run.lean ====
/-
  The whole program as four segments in order — the host lines that build `[a₁ | a₂]`, the projection region, the
  host lines that split the logit columns and take the largest entry of the second, the attention region — and its
  run: every weakly fair execution ends, and in the final memory every buffer holds what the fold of these four
  steps over the launch memory gives it. A host stretch's step is the composition of its operations; a region's
  step overwrites each of its output arrays by the blocks its grid points wrote back and changes nothing else.
-/
import proofs.«107845_j2010044695310_2_alg».proof.Proof.KernelIdeal.Region0
import proofs.«107845_j2010044695310_2_alg».proof.Proof.KernelIdeal.Region1
import proofs.«107845_j2010044695310_2_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its arrays at what its write-backs leave, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments through the fold -/

/-- `main_arg0` ends as launched: no host line writes it, the projection only reads it through an input window, the attention region never touches it. -/
theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
/-- `main_arg1` ends as launched: no host line writes it, the projection only reads it through an input window, the attention region never touches it. -/
theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl
/-- `main_arg2` ends as launched: no host line writes it, the projection only reads it, the attention region never touches it. -/
theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ## The proof-data family and what rides beside the buffers -/

abbrev admK : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admK p) c
  | ⟨0, _⟩ => fun c => dat0 (V1 m ρ) c
  | ⟨1, _⟩ => fun c => dat1 (V3 m ρ) c
abbrev 𝒱K : Variants := Variants.none
abbrev LK : GSem nD τ sig → Finset Unit := fun _ => ∅
abbrev lvK : GSem nD τ sig → Unit → ℕ := fun _ _ => 0
/-- The generator register at some state and the core owing nothing. -/
abbrev RK (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RK
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TN (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) admK (pdats m ρ) () defs₀ 𝒱K LK lvK 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ LK lvK 0 fun _ _ => rfl
  pre c := iprop(StableHlo.held (c : Thread nD τ) (Pipeline.ucRefs τ sig) (W1 m ρ c) ∗ RK c)
  post c := iprop(StableHlo.held (c : Thread nD τ) (Pipeline.ucRefs τ sig) (W2 m ρ c) ∗ RK c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) admK (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admK (pdats m ρ) () defs₀ 𝒱K LK lvK 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ LK lvK 1 fun _ _ => rfl
  pre c := iprop(StableHlo.held (c : Thread nD τ) (Pipeline.ucRefs τ sig) (W3 m ρ c) ∗ RK c)
  post c := iprop(TN m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) admK (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : (_ : sProp 𝕄) ⊢ Pipeline.ΦA spec1 c).trans (show Pipeline.ΦA spec1 c ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans (?_ : Pipeline.ΦA spec1 c ⊢ (_ : sProp 𝕄))
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) admK (pdats m ρ) () defs₀ 𝒱K LK lvK) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final memory each unscoped buffer holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) admK (pdats m ρ) () cellOf_inj emb₁ defs₀ 𝒱K LK lvK m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RK c)) (Tₙ := TN m ρ)
    (hch := ⟨fun _ => .rfl, fun _ => .rfl, fun _ => .rfl, fun _ => .rfl, fun _ => .rfl⟩)
    (hinit := by
      refine Pipeline.initEach LK lvK fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Frame

end
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.KValue.R0.lean ====
/-
  After the projection region its two output arrays hold, entry by entry over the extended reals,
  `Wh(i, d) = Σ_k h(i, k)·W(k, d)` and `E(i, u) = Σ_d Wh(i, d)·A(d, u)` with `A = [a₁ | a₂]`: block `t` of either is
  written at grid point `t` from rows 2048·t … 2048·t + 2047 of `h`, and the six blocks tile the arrays.
-/
import proofs.«107845_j2010044695310_2_alg».proof.Proof.KernelIdeal.Region0
import proofs.«107845_j2010044695310_2_alg».proof.Proof.LibRowSum
import proofs.«107845_j2010044695310_2_alg».proof.Proof.LibDot
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

open Cert.LibDot

theorem hz0 : (![0, 0] : Fin 2 → Nat) = fun _ => 0 := funext fun a => by fin_cases a <;> rfl

/-! ## The body's two products at an entry -/

theorem plain_hW : Plain (dot_S2048x128_S128x64_S2048x64_1_0_0_1_n_n) :=
  ⟨rfl, rfl, fun _ _ => rfl, fun _ _ => rfl, fun _ _ => rfl, fun _ _ => rfl⟩
theorem plain_whA : Plain (dot_S2048x64_S64x2_S2048x2_1_0_0_1_n_n) :=
  ⟨rfl, rfl, fun _ _ => rfl, fun _ _ => rfl, fun _ _ => rfl, fun _ _ => rfl⟩

theorem pay1_apply (x0 : Vec Ideal S2048x128 .f32) (x1 : Vec Ideal S128x64 .f32) (p : Fin 2048) (q : Fin 64) :
    k0_pay1 (F := Ideal) x0 x1 (ix2 p q) = ∑ k : Fin 128, x0 (ix2 p k) * x1 (ix2 k q) := by
  unfold k0_pay1
  exact matmul_ix2 plain_hW none _ _ p q

theorem pay3_apply0 (x0 : Vec Ideal S2048x128 .f32) (x1 : Vec Ideal S128x64 .f32) (p : Fin 2048) (q : Fin 64) :
    k0_pay3 (F := Ideal) x0 x1 (ix2 p q) = ∑ k : Fin 128, x0 (ix2 p k) * x1 (ix2 k q) :=
  pay1_apply x0 x1 p q

theorem pay2_apply0 (x0 : Vec Ideal S2048x128 .f32) (x1 : Vec Ideal S128x64 .f32) (x2 : Vec Ideal S64x2 .f32) (p : Fin 2048) (u : Fin 2) :
    k0_pay2 (F := Ideal) x0 x1 x2 (ix2 p u) = ∑ d : Fin 64, (∑ k : Fin 128, x0 (ix2 p k) * x1 (ix2 k d)) * x2 (ix2 d u) := by
  unfold k0_pay2
  rw [shapeCast_self]
  refine (matmul_ix2 plain_whA none _ _ p u).trans (Finset.sum_congr rfl fun d _ => ?_)
  exact congrArg (· * x2 (ix2 d u)) (pay1_apply x0 x1 p d)

/-! ## The arrays' closed forms -/

/-- `Wh = h·W`. -/
def GWh (h : S12288x128.Idx → EReal) (W : S128x64.Idx → EReal) : S12288x64.Idx → EReal :=
  fun i => ∑ k : Fin 128, h (ix2 (⟨(i 0).val, idx2_lt0 i⟩ : Fin 12288) k) * W (ix2 k (⟨(i 1).val, idx2_lt1 i⟩ : Fin 64))
/-- `E = Wh·A`. -/
def GE (h : S12288x128.Idx → EReal) (W : S128x64.Idx → EReal) (A : S64x2.Idx → EReal) : S12288x2.Idx → EReal :=
  fun i => ∑ d : Fin 64, GWh h W (ix2 (⟨(i 0).val, idx2_lt0 i⟩ : Fin 12288) d) * A (ix2 d (⟨(i 1).val, idx2_lt1 i⟩ : Fin 2))

section
variable (V : (c : Dev nD) → (b : Ref sig .tc) → Buf (Elt Ideal) ((c : Thread nD τ).loc b))

/-- The printed index maps over the grid: the row-blocked windows sit at block `t`, the whole ones at block 0. -/
theorem idxF0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem tlt (t : Fin cfg0.N) : t.val < 6 := lt_of_lt_of_eq t.isLt (show cfg0.N = 6 from N_0)

/-- The blocks of the three inputs at an entry. -/
theorem blkH_apply (c : Dev nD) (t : Fin cfg0.N) (p : Fin 2048) (k : Fin 128) :
    blk0 V c 0 t (ix2 p k) = V c main_arg0 (ix2 (⟨2048 * t.val + p.val, by have := tlt t; omega⟩ : Fin 12288) k) := by
  obtain ⟨e0, e1, -⟩ := idxF0 t
  show V c main_arg0 (((cfg0.win 0).blk t).view.emb (ix2 p k)) = _
  refine congrArg _ (idx2_ext _ _ _ ?_ ?_)
  · show win0_0.index t (0 : Fin 2) * 2048 + 1 * p.val = 2048 * t.val + p.val
    omega
  · show win0_0.index t (1 : Fin 2) * 128 + 1 * k.val = k.val
    omega
theorem blkW_apply (c : Dev nD) (t : Fin cfg0.N) (k : Fin 128) (q : Fin 64) :
    blk0 V c 1 t (ix2 k q) = V c main_arg1 (ix2 k q) := by
  obtain ⟨-, -, e0, e1, -⟩ := idxF0 t
  show V c main_arg1 (((cfg0.win 1).blk t).view.emb (ix2 k q)) = _
  refine congrArg _ (idx2_ext _ _ _ ?_ ?_)
  · show win0_1.index t (0 : Fin 2) * 128 + 1 * k.val = k.val
    omega
  · show win0_1.index t (1 : Fin 2) * 64 + 1 * q.val = q.val
    omega
theorem blkA_apply (c : Dev nD) (t : Fin cfg0.N) (d : Fin 64) (u : Fin 2) :
    blk0 V c 2 t (ix2 d u) = V c main_v2 (ix2 d u) := by
  obtain ⟨-, -, -, -, e0, e1, -⟩ := idxF0 t
  show V c main_v2 (((cfg0.win 2).blk t).view.emb (ix2 d u)) = _
  refine congrArg _ (idx2_ext _ _ _ ?_ ?_)
  · show win0_2.index t (0 : Fin 2) * 64 + 1 * d.val = d.val
    omega
  · show win0_2.index t (1 : Fin 2) * 2 + 1 * u.val = u.val
    omega

/-- What point `t` writes back into `Wh` is block `t` of the closed form. -/
theorem flushedWh_eq (c : Dev nD) (t : Fin cfg0.N) :
    (dat0 V c).flushed 3 t = ((cfg0.win 3).blk t).view.read (Elt Ideal) (GWh (V c main_arg0) (V c main_arg1)) := by
  obtain ⟨-, -, -, -, -, -, e0, e1, -⟩ := idxF0 t
  show (cfg0.win 3).cut (grid0.coords t) ((dat0 V c).after 3 t) = _
  rw [after0_3]
  unfold outWh
  rw [View.canon_unit_zero hz0]
  simp only [View.ld_unit_zero (S := S2048x128) hz0, View.ld_unit_zero (S := S128x64) hz0]
  funext j
  show k0_pay3 (F := Ideal) (blk0 V c 0 t) (blk0 V c 1 t) j = GWh (V c main_arg0) (V c main_arg1) (((cfg0.win 3).blk t).view.emb j)
  have hj : j = ix2 (⟨(j 0).val, idx2_lt0 j⟩ : Fin 2048) (⟨(j 1).val, idx2_lt1 j⟩ : Fin 64) := idx2_ext j _ _ rfl rfl
  rw [hj, pay3_apply0]
  unfold GWh
  refine Finset.sum_congr rfl fun k _ => ?_
  rw [blkH_apply, blkW_apply]
  refine congrArg₂ (· * ·) (congrArg _ (idx2_ext _ _ _ ?_ rfl)) (congrArg _ (idx2_ext _ _ _ rfl ?_))
  · show 2048 * t.val + (j 0).val = win0_3.index t (0 : Fin 2) * 2048 + 1 * (j 0).val
    omega
  · show (j 1).val = win0_3.index t (1 : Fin 2) * 64 + 1 * (j 1).val
    omega

/-- What point `t` writes back into `E` is block `t` of the closed form. -/
theorem flushedE_eq (c : Dev nD) (t : Fin cfg0.N) :
    (dat0 V c).flushed 4 t = ((cfg0.win 4).blk t).view.read (Elt Ideal) (GE (V c main_arg0) (V c main_arg1) (V c main_v2)) := by
  obtain ⟨-, -, -, -, -, -, -, -, e0, e1⟩ := idxF0 t
  show (cfg0.win 4).cut (grid0.coords t) ((dat0 V c).after 4 t) = _
  rw [after0_4]
  unfold outE
  rw [View.canon_unit_zero hz0]
  simp only [View.ld_unit_zero (S := S2048x128) hz0, View.ld_unit_zero (S := S128x64) hz0, View.ld_unit_zero (S := S64x2) hz0]
  funext j
  show k0_pay2 (F := Ideal) (blk0 V c 0 t) (blk0 V c 1 t) (blk0 V c 2 t) j = GE (V c main_arg0) (V c main_arg1) (V c main_v2) (((cfg0.win 4).blk t).view.emb j)
  have hj : j = ix2 (⟨(j 0).val, idx2_lt0 j⟩ : Fin 2048) (⟨(j 1).val, idx2_lt1 j⟩ : Fin 2) := idx2_ext j _ _ rfl rfl
  rw [hj, pay2_apply0]
  unfold GE GWh
  refine Finset.sum_congr rfl fun d _ => ?_
  rw [blkA_apply]
  refine congrArg₂ (· * ·) (Finset.sum_congr rfl fun k _ => ?_) (congrArg _ (idx2_ext _ _ _ rfl ?_))
  · rw [blkH_apply, blkW_apply]
    refine congrArg₂ (· * ·) (congrArg _ (idx2_ext _ _ _ ?_ rfl)) rfl
    show 2048 * t.val + (j 0).val = win0_4.index t (0 : Fin 2) * 2048 + 1 * (j 0).val
    omega
  · show (j 1).val = win0_4.index t (1 : Fin 2) * 2 + 1 * (j 1).val
    omega

theorem mem_blkWh (t : Fin cfg0.N) (i : S12288x64.Idx) :
    i ∈ ((cfg0.win 3).blk t).view.set ↔ ∀ a : Fin 2, win0_3.index t a * S2048x64.size a ≤ (i a).val ∧ (i a).val < win0_3.index t a * S2048x64.size a + S2048x64.size a := by
  show i ∈ ((View.whole main_v3_0).slice (win0_3.rect t)).set ↔ _
  rw [View.set_slice_whole, Rect.mem_set_unit]
  exact Iff.rfl
theorem mem_blkE (t : Fin cfg0.N) (i : S12288x2.Idx) :
    i ∈ ((cfg0.win 4).blk t).view.set ↔ ∀ a : Fin 2, win0_4.index t a * S2048x2.size a ≤ (i a).val ∧ (i a).val < win0_4.index t a * S2048x2.size a + S2048x2.size a := by
  show i ∈ ((View.whole main_v3_1).slice (win0_4.rect t)).set ↔ _
  rw [View.set_slice_whole, Rect.mem_set_unit]
  exact Iff.rfl

/-- The array `Wh` after the region. -/
theorem finalWh (c : Dev nD) : (dat0 V c).arrAt 3 cfg0.N = GWh (V c main_arg0) (V c main_arg1) :=
  (dat0 V c).arrAt_eq_of_cover 3 _ (fun t _ => flushedWh_eq V c t) fun i => by
    have h0 : (i 0).val < 12288 := idx2_lt0 i
    have h1 : (i 1).val < 64 := idx2_lt1 i
    let t : Fin cfg0.N := ⟨(i 0).val / 2048, by rw [show cfg0.N = 6 from N_0]; omega⟩
    obtain ⟨-, -, -, -, -, -, e0, e1, -⟩ := idxF0 t
    refine ⟨t, flush0_3 t, ?_⟩
    rw [mem_blkWh]
    intro a
    match a with
    | ⟨0, _⟩ => show win0_3.index t (0 : Fin 2) * 2048 ≤ (i 0).val ∧ (i 0).val < win0_3.index t (0 : Fin 2) * 2048 + 2048
                have : t.val = (i 0).val / 2048 := rfl
                omega
    | ⟨1, _⟩ => show win0_3.index t (1 : Fin 2) * 64 ≤ (i 1).val ∧ (i 1).val < win0_3.index t (1 : Fin 2) * 64 + 64
                omega

/-- The array `E` after the region. -/
theorem finalE (c : Dev nD) : (dat0 V c).arrAt 4 cfg0.N = GE (V c main_arg0) (V c main_arg1) (V c main_v2) :=
  (dat0 V c).arrAt_eq_of_cover 4 _ (fun t _ => flushedE_eq V c t) fun i => by
    have h0 : (i 0).val < 12288 := idx2_lt0 i
    have h1 : (i 1).val < 2 := idx2_lt1 i
    let t : Fin cfg0.N := ⟨(i 0).val / 2048, by rw [show cfg0.N = 6 from N_0]; omega⟩
    obtain ⟨-, -, -, -, -, -, -, -, e0, e1⟩ := idxF0 t
    refine ⟨t, flush0_4 t, ?_⟩
    rw [mem_blkE]
    intro a
    match a with
    | ⟨0, _⟩ => show win0_4.index t (0 : Fin 2) * 2048 ≤ (i 0).val ∧ (i 0).val < win0_4.index t (0 : Fin 2) * 2048 + 2048
                have : t.val = (i 0).val / 2048 := rfl
                omega
    | ⟨1, _⟩ => show win0_4.index t (1 : Fin 2) * 2 ≤ (i 1).val ∧ (i 1).val < win0_4.index t (1 : Fin 2) * 2 + 2
                omega

end

end Cert.KernelIdeal.Frame

end
-- ==== Proof.KValue.Host.lean ====
/-
  The host lines around the two regions, read at entries: the two-column matrix `A = [a₁ | a₂]` built before the
  projection; after it the two logit columns cut out of `E = Wh·A`, the second laid out as a row, and its largest
  entry (a maximum folded from −∞ over all of it) as a one-element array.
-/
import proofs.«107845_j2010044695310_2_alg».proof.Proof.KernelIdeal.Run
import proofs.«107845_j2010044695310_2_alg».proof.Proof.KValue.R0
import Idealize.ShloMosaic.Lib.ValueLayout

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-! ## Before the projection -/

theorem V1_arg0 (c : Dev nD) : V1 m ρ c main_arg0 = m ((c : Thread nD τ).loc main_arg0) :=
  StableHlo.after_of_writes_sub hostOps0 _ hostOps0_writes (by decide)
theorem V1_arg1 (c : Dev nD) : V1 m ρ c main_arg1 = m ((c : Thread nD τ).loc main_arg1) :=
  StableHlo.after_of_writes_sub hostOps0 _ hostOps0_writes (by decide)

/-- `A` as the concatenation of the two halves of `a`. -/
theorem V1_A (c : Dev nD) : (V1 m ρ c main_v2 : S64x2.Idx → EReal)
    = concatenate S64x2 1 [⟨S64x1, extractStridedSlice S64x1 ![0, 0] (m ((c : Thread nD τ).loc main_arg2)) slices_S128x1_S64x1_0_0⟩,
        ⟨S64x1, extractStridedSlice S64x1 ![64, 0] (m ((c : Thread nD τ).loc main_arg2)) slices_S128x1_S64x1_64_0⟩] concatenates_S64x1_S64x1_S64x2_d1 := by
  dsimp only [V1, W1]
  after_results
  try rfl

/-- Its first column is the upper half of `a`, -/
theorem V1_A_left (c : Dev nD) (d : Fin 64) :
    V1 m ρ c main_v2 (ix2 d (0 : Fin 2)) = m ((c : Thread nD τ).loc main_arg2) (ix2 (⟨d.val, by omega⟩ : Fin 128) (0 : Fin 1)) := by
  rw [V1_A]
  rw [concatenate_pair_apply_left (t := S64x2) (s₁ := S64x1) (s₂ := S64x1) (1 : Fin 2) _ _ _ (ix2 d (0 : Fin 2)) rfl (ix2 d (0 : Fin 1)) (fun b => by
    match b with
    | ⟨0, _⟩ => rfl
    | ⟨1, _⟩ => rfl)]
  exact slice2_axis0_apply 0 _ _ d (0 : Fin 1) _ (by simp)

/-- its second column the lower half. -/
theorem V1_A_right (c : Dev nD) (d : Fin 64) :
    V1 m ρ c main_v2 (ix2 d (1 : Fin 2)) = m ((c : Thread nD τ).loc main_arg2) (ix2 (⟨64 + d.val, by omega⟩ : Fin 128) (0 : Fin 1)) := by
  rw [V1_A]
  rw [concatenate_pair_apply_right (t := S64x2) (s₁ := S64x1) (s₂ := S64x1) (1 : Fin 2) _ _ _ (ix2 d (1 : Fin 2)) rfl rfl (ix2 d (0 : Fin 1)) (fun b hb => by
    match b with
    | ⟨0, _⟩ => rfl
    | ⟨1, _⟩ => exact absurd rfl hb) rfl]
  exact slice2_axis0_apply 64 _ _ d (0 : Fin 1) _ rfl

/-! ## Between the regions -/

/-- The projection's outputs as the second host stretch finds them. -/
theorem W2_Wh (c : Dev nD) : (W2 m ρ c (Proc.devRef .tc main_v3_0) : S12288x64.Idx → EReal)
    = GWh (V1 m ρ c main_arg0) (V1 m ρ c main_arg1) :=
  (W2_arr m ρ c 3).trans (finalWh (V1 m ρ) c)
theorem W2_E (c : Dev nD) : (W2 m ρ c (Proc.devRef .tc main_v3_1) : S12288x2.Idx → EReal)
    = GE (V1 m ρ c main_arg0) (V1 m ρ c main_arg1) (V1 m ρ c main_v2) :=
  (W2_arr m ρ c 4).trans (finalE (V1 m ρ) c)

theorem V3_Wh (c : Dev nD) : V3 m ρ c main_v3_0 = W2 m ρ c (Proc.devRef .tc main_v3_0) :=
  StableHlo.after_of_writes_sub hostOps1 _ hostOps1_writes (by decide)

theorem V3_s1 (c : Dev nD) : (V3 m ρ c main_v4 : S12288x1.Idx → EReal)
    = extractStridedSlice S12288x1 ![0, 0] (W2 m ρ c (Proc.devRef .tc main_v3_1)) slices_S12288x2_S12288x1_0_0 := by
  dsimp only [V3, W3]
  after_results
  try rfl
theorem V3_s2row (c : Dev nD) : (V3 m ρ c main_v6 : S1x12288.Idx → EReal)
    = transpose S1x12288 [1, 0] (extractStridedSlice S12288x1 ![0, 1] (W2 m ρ c (Proc.devRef .tc main_v3_1)) slices_S12288x2_S12288x1_0_1) transposes_S12288x1_S1x12288_1_0 := by
  dsimp only [V3, W3]
  after_results
  try rfl
theorem V3_mx (c : Dev nD) : (V3 m ρ c main_v8 : S1x1.Idx → EReal)
    = shapeCast S1x1 (Host.reduce FloatOps.maximumf (extractStridedSlice S12288x1 ![0, 1] (W2 m ρ c (Proc.devRef .tc main_v3_1)) slices_S12288x2_S12288x1_0_1)
        (constant (F := Ideal) S_ .f32 0xFF800000#32) reducesTo_S12288x1_S_d0_1 h_S_) shapeCasts_S_S1x1 := by
  dsimp only [V3, W3]
  after_results
  try rfl

/-- The first logit column at row `i`. -/
theorem V3_s1_apply (c : Dev nD) (i : Fin 12288) :
    V3 m ρ c main_v4 (ix2 i (0 : Fin 1)) = GE (V1 m ρ c main_arg0) (V1 m ρ c main_arg1) (V1 m ρ c main_v2) (ix2 i (0 : Fin 2)) := by
  rw [V3_s1, W2_E]
  exact slice2_axis1_apply 0 _ _ i (0 : Fin 1) (0 : Fin 2) rfl
/-- The second logit column, as a row, at column `j`. -/
theorem V3_s2row_apply (c : Dev nD) (j : Fin 12288) :
    V3 m ρ c main_v6 (ix2 (0 : Fin 1) j) = GE (V1 m ρ c main_arg0) (V1 m ρ c main_arg1) (V1 m ρ c main_v2) (ix2 j (1 : Fin 2)) := by
  rw [V3_s2row, W2_E, transpose_ix2_apply]
  exact slice2_axis1_apply 1 _ _ j (0 : Fin 1) (1 : Fin 2) rfl

end Cert.KernelIdeal.Frame

end
-- ==== Proof.KValue.Steps.lean ====
/-
  What one column step leaves, read as values: each accumulator after the step is the step's arithmetic applied to
  the row block of the first logit column, the step's 2048 entries of the second, the step's 2048 value rows and
  the accumulators before it; the result block written at a last step is `elu` of the quotient of the two sums.
-/
import proofs.«107845_j2010044695310_2_alg».proof.Proof.KernelIdeal.RunA
import proofs.«107845_j2010044695310_2_alg».proof.Proof.KernelIdeal.RunB
import proofs.«107845_j2010044695310_2_alg».proof.Proof.KernelIdeal.RunC
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The step's 2048 entries of the second logit column. -/
def colTile (i : grid1.Coords) (x1 : Vec F S1x12288 .f32) : Vec F S1x2048 .f32 :=
  View.ld x1 (Rect.unit (s := S1x12288) (k1_off1 i) S1x2048.size (k1_off1_inb i))
/-- The step's 2048 value rows. -/
def rowTile (i : grid1.Coords) (x2 : Vec F S12288x64 .bf16) : Vec F S2048x64 .bf16 :=
  View.ld x2 (Rect.unit (s := S12288x64) (k1_off2 i) S2048x64.size (k1_off2_inb i))

/-- The running sum after a step, from the row shift `m` and the sum `l` before it. -/
def nextL (i : grid1.Coords) (x0 : Vec F S1024x1 .f32) (x1 : Vec F S1x12288 .f32) (m l : Vec F S1024x1 .f32) : Vec F S1024x1 .f32 :=
  k1_pay8 (colTile i x1) x0 m l
/-- The running weighted sum after a step. -/
def nextAcc (i : grid1.Coords) (x0 : Vec F S1024x1 .f32) (x1 : Vec F S1x12288 .f32) (x2 : Vec F S12288x64 .bf16) (m : Vec F S1024x1 .f32) (acc : Vec F S1024x64 .f32) : Vec F S1024x64 .f32 :=
  k1_pay1 (k1_pay6 (rowTile i x2)) acc (k1_pay9 (colTile i x1) x0 m) (constant S1024x64 .f32 0x00000000#32)

/-! ## A middle step -/

theorem coverB_L' (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x12288 .f32) (x2 : Vec F S12288x64 .bf16) (x3 : Vec F S1x1 .f32) (xs7 : Vec F S1024x1 .f32) (xs8 : Vec F S1024x1 .f32) (xs9 : Vec F S1024x64 .f32) (y : S1024x1.Idx) : ∃ pc ∈ (runB (F := F) c i arg2 harg2 arg3 harg3 arg4 harg4 arg5 harg5 arg6 harg6 arg7 harg7 arg8 harg8 arg9 harg9 hc0 hc1 x0 x1 x2 x3 xs7 xs8 xs9).1, y ∈ pc.1.set :=
  View.cover_of_tiledL (runB (F := F) c i arg2 harg2 arg3 harg3 arg4 harg4 arg5 harg5 arg6 harg6 arg7 harg7 arg8 harg8 arg9 harg9 hc0 hc1 x0 x1 x2 x3 xs7 xs8 xs9).1 S1024x1.size (by sl_kernel_rfl) y
theorem coverB_Acc' (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x12288 .f32) (x2 : Vec F S12288x64 .bf16) (x3 : Vec F S1x1 .f32) (xs7 : Vec F S1024x1 .f32) (xs8 : Vec F S1024x1 .f32) (xs9 : Vec F S1024x64 .f32) (y : S1024x64.Idx) : ∃ pc ∈ (runB (F := F) c i arg2 harg2 arg3 harg3 arg4 harg4 arg5 harg5 arg6 harg6 arg7 harg7 arg8 harg8 arg9 harg9 hc0 hc1 x0 x1 x2 x3 xs7 xs8 xs9).2.1, y ∈ pc.1.set :=
  View.cover_of_tiledL (runB (F := F) c i arg2 harg2 arg3 harg3 arg4 harg4 arg5 harg5 arg6 harg6 arg7 harg7 arg8 harg8 arg9 harg9 hc0 hc1 x0 x1 x2 x3 xs7 xs8 xs9).2.1 S1024x64.size (by sl_kernel_rfl) y

theorem runB_L (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x12288 .f32) (x2 : Vec F S12288x64 .bf16) (x3 : Vec F S1x1 .f32) (xs7 : Vec F S1024x1 .f32) (xs8 : Vec F S1024x1 .f32) (xs9 : Vec F S1024x64 .f32) (v : View sig .tc .vmem S1024x1 .f32) (f) :
    v.read (Elt F) (v.writes (Elt F) f (runB (F := F) c i arg2 harg2 arg3 harg3 arg4 harg4 arg5 harg5 arg6 harg6 arg7 harg7 arg8 harg8 arg9 harg9 hc0 hc1 x0 x1 x2 x3 xs7 xs8 xs9).1) = nextL i x0 x1 xs7 xs8 := by
  rw [View.read_writes_eq_canon _ _ _ (coverB_L' c i arg2 harg2 arg3 harg3 arg4 harg4 arg5 harg5 arg6 harg6 arg7 harg7 arg8 harg8 arg9 harg9 hc0 hc1 x0 x1 x2 x3 xs7 xs8 xs9)]
  unfold runB
  dsimp only
  sl_unfold_words
  rw [View.canon_unit_zero hz2]
  unfold nextL colTile
  simp only [View.readCov_unit_zero (S := S1024x1) _ hz2, View.readCov_unit_zero (S := S1024x64) _ hz2, View.readAt_eq_ld, harg2.read_unread, harg3.read_unread, harg4.read_unread, harg5.read_unread, harg7.read_unread, harg8.read_unread, harg9.read_unread, View.ld_unit_zero (S := S1024x1) hz2, View.ld_unit_zero (S := S1024x64) hz2, View.ld_unit_zero (S := S1x1) hz2]
  try rfl

theorem runB_Acc (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i)
    (x0 : Vec F S1024x1 .f32) (x1 : Vec F S1x12288 .f32) (x2 : Vec F S12288x64 .bf16) (x3 : Vec F S1x1 .f32) (xs7 : Vec F S1024x1 .f32) (xs8 : Vec F S1024x1 .f32) (xs9 : Vec F S1024x64 .f32) (v : View sig .tc .vmem S1024x64 .f32) (f) :
    v.read (Elt F) (v.writes (Elt F) f (runB (F := F) c i arg2 harg2 arg3 harg3 arg4 harg4 arg5 harg5 arg6 harg6 arg7 harg7 arg8 harg8 arg9 harg9 hc0 hc1 x0 x1 x2 x3 xs7 xs8 xs9).2.1) = nextAcc i x0 x1 x2 xs7 xs9 := by
  rw [View.read_writes_eq_canon _ _ _ (coverB_Acc' c i arg2 harg2 arg3 harg3 arg4 harg4 arg5 harg5 arg6 harg6 arg7 harg7 arg8 harg8 arg9 harg9 hc0 hc1 x0 x1 x2 x3 xs7 xs8 xs9)]
  unfold runB
  dsimp only
  sl_unfold_words
  rw [View.canon_unit_zero hz2]
  unfold nextAcc colTile rowTile
  simp only [View.readCov_unit_zero (S := S1024x1) _ hz2, View.readCov_unit_zero (S := S1024x64) _ hz2, View.readAt_eq_ld, harg2.read_unread, harg3.read_unread, harg4.read_unread, harg5.read_unread, harg7.read_unread, harg8.read_unread, harg9.read_unread, View.ld_unit_zero (S := S1024x1) hz2, View.ld_unit_zero (S := S1024x64) hz2, View.ld_unit_zero (S := S1x1) hz2]
  try rfl

/-! ## A last step -/

theorem coverC_Out' (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x12288 .f32) (x2 : Vec F S12288x64 .bf16) (x3 : Vec F S1x1 .f32) (xs7 : Vec F S1024x1 .f32) (xs8 : Vec F S1024x1 .f32) (xs9 : Vec F S1024x64 .f32) (y : S1024x64.Idx) : ∃ pc ∈ (runC (F := F) c i arg2 harg2 arg3 harg3 arg4 harg4 arg5 harg5 arg6 harg6 arg7 harg7 arg8 harg8 arg9 harg9 hc0 hc1 x0 x1 x2 x3 xs7 xs8 xs9).1, y ∈ pc.1.set :=
  View.cover_of_tiledL (runC (F := F) c i arg2 harg2 arg3 harg3 arg4 harg4 arg5 harg5 arg6 harg6 arg7 harg7 arg8 harg8 arg9 harg9 hc0 hc1 x0 x1 x2 x3 xs7 xs8 xs9).1 S1024x64.size (by sl_kernel_rfl) y
theorem coverC_L' (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x12288 .f32) (x2 : Vec F S12288x64 .bf16) (x3 : Vec F S1x1 .f32) (xs7 : Vec F S1024x1 .f32) (xs8 : Vec F S1024x1 .f32) (xs9 : Vec F S1024x64 .f32) (y : S1024x1.Idx) : ∃ pc ∈ (runC (F := F) c i arg2 harg2 arg3 harg3 arg4 harg4 arg5 harg5 arg6 harg6 arg7 harg7 arg8 harg8 arg9 harg9 hc0 hc1 x0 x1 x2 x3 xs7 xs8 xs9).2.1, y ∈ pc.1.set :=
  View.cover_of_tiledL (runC (F := F) c i arg2 harg2 arg3 harg3 arg4 harg4 arg5 harg5 arg6 harg6 arg7 harg7 arg8 harg8 arg9 harg9 hc0 hc1 x0 x1 x2 x3 xs7 xs8 xs9).2.1 S1024x1.size (by sl_kernel_rfl) y
theorem coverC_Acc' (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x12288 .f32) (x2 : Vec F S12288x64 .bf16) (x3 : Vec F S1x1 .f32) (xs7 : Vec F S1024x1 .f32) (xs8 : Vec F S1024x1 .f32) (xs9 : Vec F S1024x64 .f32) (y : S1024x64.Idx) : ∃ pc ∈ (runC (F := F) c i arg2 harg2 arg3 harg3 arg4 harg4 arg5 harg5 arg6 harg6 arg7 harg7 arg8 harg8 arg9 harg9 hc0 hc1 x0 x1 x2 x3 xs7 xs8 xs9).2.2.1, y ∈ pc.1.set :=
  View.cover_of_tiledL (runC (F := F) c i arg2 harg2 arg3 harg3 arg4 harg4 arg5 harg5 arg6 harg6 arg7 harg7 arg8 harg8 arg9 harg9 hc0 hc1 x0 x1 x2 x3 xs7 xs8 xs9).2.2.1 S1024x64.size (by sl_kernel_rfl) y

theorem runC_L (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x12288 .f32) (x2 : Vec F S12288x64 .bf16) (x3 : Vec F S1x1 .f32) (xs7 : Vec F S1024x1 .f32) (xs8 : Vec F S1024x1 .f32) (xs9 : Vec F S1024x64 .f32) (v : View sig .tc .vmem S1024x1 .f32) (f) :
    v.read (Elt F) (v.writes (Elt F) f (runC (F := F) c i arg2 harg2 arg3 harg3 arg4 harg4 arg5 harg5 arg6 harg6 arg7 harg7 arg8 harg8 arg9 harg9 hc0 hc1 x0 x1 x2 x3 xs7 xs8 xs9).2.1) = nextL i x0 x1 xs7 xs8 := by
  rw [View.read_writes_eq_canon _ _ _ (coverC_L' c i arg2 harg2 arg3 harg3 arg4 harg4 arg5 harg5 arg6 harg6 arg7 harg7 arg8 harg8 arg9 harg9 hc0 hc1 x0 x1 x2 x3 xs7 xs8 xs9)]
  unfold runC
  dsimp only
  sl_unfold_words
  rw [View.canon_unit_zero hz2]
  unfold nextL colTile
  simp only [View.readCov_unit_zero (S := S1024x1) _ hz2, View.readCov_unit_zero (S := S1024x64) _ hz2, View.readAt_eq_ld, harg2.read_unread, harg3.read_unread, harg4.read_unread, harg5.read_unread, harg7.read_unread, harg8.read_unread, harg9.read_unread, View.ld_unit_zero (S := S1024x1) hz2, View.ld_unit_zero (S := S1024x64) hz2, View.ld_unit_zero (S := S1x1) hz2]
  try rfl

theorem runC_Acc (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x12288 .f32) (x2 : Vec F S12288x64 .bf16) (x3 : Vec F S1x1 .f32) (xs7 : Vec F S1024x1 .f32) (xs8 : Vec F S1024x1 .f32) (xs9 : Vec F S1024x64 .f32) (v : View sig .tc .vmem S1024x64 .f32) (f) :
    v.read (Elt F) (v.writes (Elt F) f (runC (F := F) c i arg2 harg2 arg3 harg3 arg4 harg4 arg5 harg5 arg6 harg6 arg7 harg7 arg8 harg8 arg9 harg9 hc0 hc1 x0 x1 x2 x3 xs7 xs8 xs9).2.2.1) = nextAcc i x0 x1 x2 xs7 xs9 := by
  rw [View.read_writes_eq_canon _ _ _ (coverC_Acc' c i arg2 harg2 arg3 harg3 arg4 harg4 arg5 harg5 arg6 harg6 arg7 harg7 arg8 harg8 arg9 harg9 hc0 hc1 x0 x1 x2 x3 xs7 xs8 xs9)]
  unfold runC
  dsimp only
  sl_unfold_words
  rw [View.canon_unit_zero hz2]
  unfold nextAcc colTile rowTile
  simp only [View.readCov_unit_zero (S := S1024x1) _ hz2, View.readCov_unit_zero (S := S1024x64) _ hz2, View.readAt_eq_ld, harg2.read_unread, harg3.read_unread, harg4.read_unread, harg5.read_unread, harg7.read_unread, harg8.read_unread, harg9.read_unread, View.ld_unit_zero (S := S1024x1) hz2, View.ld_unit_zero (S := S1024x64) hz2, View.ld_unit_zero (S := S1x1) hz2]
  try rfl

/-- The result block written at a last step: `elu` of the weighted sum over the sum, both as they stand after this step. -/
theorem runC_Out (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i)
    (x0 : Vec F S1024x1 .f32) (x1 : Vec F S1x12288 .f32) (x2 : Vec F S12288x64 .bf16) (x3 : Vec F S1x1 .f32) (xs7 : Vec F S1024x1 .f32) (xs8 : Vec F S1024x1 .f32) (xs9 : Vec F S1024x64 .f32) (v : View sig .tc .vmem S1024x64 .f32) (f) :
    v.read (Elt F) (v.writes (Elt F) f (runC (F := F) c i arg2 harg2 arg3 harg3 arg4 harg4 arg5 harg5 arg6 harg6 arg7 harg7 arg8 harg8 arg9 harg9 hc0 hc1 x0 x1 x2 x3 xs7 xs8 xs9).1) = k1_pay2 (nextAcc i x0 x1 x2 xs7 xs9) (nextL i x0 x1 xs7 xs8) := by
  rw [View.read_writes_eq_canon _ _ _ (coverC_Out' c i arg2 harg2 arg3 harg3 arg4 harg4 arg5 harg5 arg6 harg6 arg7 harg7 arg8 harg8 arg9 harg9 hc0 hc1 x0 x1 x2 x3 xs7 xs8 xs9)]
  unfold runC
  dsimp only
  sl_unfold_words
  rw [View.canon_unit_zero hz2]
  unfold nextAcc nextL colTile rowTile
  simp only [View.readCov_unit_zero (S := S1024x1) _ hz2, View.readCov_unit_zero (S := S1024x64) _ hz2, View.readAt_eq_ld, harg2.read_unread, harg3.read_unread, harg4.read_unread, harg5.read_unread, harg7.read_unread, harg8.read_unread, harg9.read_unread, View.ld_unit_zero (S := S1024x1) hz2, View.ld_unit_zero (S := S1024x64) hz2, View.ld_unit_zero (S := S1x1) hz2]
  try rfl

/-! ## A first step -/

theorem coverA_M' (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x12288 .f32) (x2 : Vec F S12288x64 .bf16) (x3 : Vec F S1x1 .f32) (y : S1024x1.Idx) : ∃ pc ∈ (runA (F := F) c i arg2 harg2 arg3 harg3 arg4 harg4 arg5 harg5 arg6 harg6 arg7 harg7 arg8 harg8 arg9 harg9 hc0 hc1 x0 x1 x2 x3).1, y ∈ pc.1.set :=
  View.cover_of_tiledL (runA (F := F) c i arg2 harg2 arg3 harg3 arg4 harg4 arg5 harg5 arg6 harg6 arg7 harg7 arg8 harg8 arg9 harg9 hc0 hc1 x0 x1 x2 x3).1 S1024x1.size (by sl_kernel_rfl) y
theorem coverA_L' (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x12288 .f32) (x2 : Vec F S12288x64 .bf16) (x3 : Vec F S1x1 .f32) (y : S1024x1.Idx) : ∃ pc ∈ (runA (F := F) c i arg2 harg2 arg3 harg3 arg4 harg4 arg5 harg5 arg6 harg6 arg7 harg7 arg8 harg8 arg9 harg9 hc0 hc1 x0 x1 x2 x3).2.1, y ∈ pc.1.set :=
  View.cover_of_tiledL (runA (F := F) c i arg2 harg2 arg3 harg3 arg4 harg4 arg5 harg5 arg6 harg6 arg7 harg7 arg8 harg8 arg9 harg9 hc0 hc1 x0 x1 x2 x3).2.1 S1024x1.size (by sl_kernel_rfl) y
theorem coverA_Acc' (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x12288 .f32) (x2 : Vec F S12288x64 .bf16) (x3 : Vec F S1x1 .f32) (y : S1024x64.Idx) : ∃ pc ∈ (runA (F := F) c i arg2 harg2 arg3 harg3 arg4 harg4 arg5 harg5 arg6 harg6 arg7 harg7 arg8 harg8 arg9 harg9 hc0 hc1 x0 x1 x2 x3).2.2.1, y ∈ pc.1.set :=
  View.cover_of_tiledL (runA (F := F) c i arg2 harg2 arg3 harg3 arg4 harg4 arg5 harg5 arg6 harg6 arg7 harg7 arg8 harg8 arg9 harg9 hc0 hc1 x0 x1 x2 x3).2.2.1 S1024x64.size (by sl_kernel_rfl) y

/-- The row shift set at a first step. -/
theorem runA_M (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x12288 .f32) (x2 : Vec F S12288x64 .bf16) (x3 : Vec F S1x1 .f32) (v : View sig .tc .vmem S1024x1 .f32) (f) :
    v.read (Elt F) (v.writes (Elt F) f (runA (F := F) c i arg2 harg2 arg3 harg3 arg4 harg4 arg5 harg5 arg6 harg6 arg7 harg7 arg8 harg8 arg9 harg9 hc0 hc1 x0 x1 x2 x3).1) = k1_pay3 x0 x3 := by
  rw [View.read_writes_eq_canon _ _ _ (coverA_M' c i arg2 harg2 arg3 harg3 arg4 harg4 arg5 harg5 arg6 harg6 arg7 harg7 arg8 harg8 arg9 harg9 hc0 hc1 x0 x1 x2 x3)]
  unfold runA
  dsimp only
  sl_unfold_words
  rw [View.canon_unit_zero hz2]
  unfold k1_pay3
  simp only [View.readCov_unit_zero (S := S1024x1) _ hz2, View.readCov_unit_zero (S := S1024x64) _ hz2, View.readAt_eq_ld, harg2.read_unread, harg3.read_unread, harg4.read_unread, harg5.read_unread, harg7.read_unread, harg8.read_unread, harg9.read_unread, View.ld_unit_zero (S := S1024x1) hz2, View.ld_unit_zero (S := S1024x64) hz2, View.ld_unit_zero (S := S1x1) hz2]
  try rfl

theorem runA_L (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x12288 .f32) (x2 : Vec F S12288x64 .bf16) (x3 : Vec F S1x1 .f32) (v : View sig .tc .vmem S1024x1 .f32) (f) :
    v.read (Elt F) (v.writes (Elt F) f (runA (F := F) c i arg2 harg2 arg3 harg3 arg4 harg4 arg5 harg5 arg6 harg6 arg7 harg7 arg8 harg8 arg9 harg9 hc0 hc1 x0 x1 x2 x3).2.1) = nextL i x0 x1 (k1_pay3 x0 x3) (k1_pay4 (F := F)) := by
  rw [View.read_writes_eq_canon _ _ _ (coverA_L' c i arg2 harg2 arg3 harg3 arg4 harg4 arg5 harg5 arg6 harg6 arg7 harg7 arg8 harg8 arg9 harg9 hc0 hc1 x0 x1 x2 x3)]
  unfold runA
  dsimp only
  sl_unfold_words
  rw [View.canon_cons_unit_zero (S := S1024x1) hz2]
  unfold nextL colTile
  simp only [View.readCov_unit_zero (S := S1024x1) _ hz2, View.readCov_unit_zero (S := S1024x64) _ hz2, View.readAt_eq_ld, harg2.read_unread, harg3.read_unread, harg4.read_unread, harg5.read_unread, harg7.read_unread, harg8.read_unread, harg9.read_unread, View.ld_unit_zero (S := S1024x1) hz2, View.ld_unit_zero (S := S1024x64) hz2, View.ld_unit_zero (S := S1x1) hz2]
  try rfl

theorem runA_Acc (c : Dev nD) (i : grid1.Coords) (arg2 : Memref sig .tc .vmem S1024x1 .f32) (harg2 : arg2.IsWhole) (arg3 : Memref sig .tc .vmem S1x12288 .f32) (harg3 : arg3.IsWhole) (arg4 : Memref sig .tc .vmem S12288x64 .bf16) (harg4 : arg4.IsWhole) (arg5 : Memref sig .tc .vmem S1x1 .f32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : ¬cond1_1 i)
    (x0 : Vec F S1024x1 .f32) (x1 : Vec F S1x12288 .f32) (x2 : Vec F S12288x64 .bf16) (x3 : Vec F S1x1 .f32) (v : View sig .tc .vmem S1024x64 .f32) (f) :
    v.read (Elt F) (v.writes (Elt F) f (runA (F := F) c i arg2 harg2 arg3 harg3 arg4 harg4 arg5 harg5 arg6 harg6 arg7 harg7 arg8 harg8 arg9 harg9 hc0 hc1 x0 x1 x2 x3).2.2.1) = nextAcc i x0 x1 x2 (k1_pay3 x0 x3) (k1_pay5 (F := F)) := by
  rw [View.read_writes_eq_canon _ _ _ (coverA_Acc' c i arg2 harg2 arg3 harg3 arg4 harg4 arg5 harg5 arg6 harg6 arg7 harg7 arg8 harg8 arg9 harg9 hc0 hc1 x0 x1 x2 x3)]
  unfold runA
  dsimp only
  sl_unfold_words
  rw [View.canon_cons_unit_zero (S := S1024x64) hz2]
  unfold nextAcc colTile rowTile
  simp only [View.readCov_unit_zero (S := S1024x1) _ hz2, View.readCov_unit_zero (S := S1024x64) _ hz2, View.readAt_eq_ld, harg2.read_unread, harg3.read_unread, harg4.read_unread, harg5.read_unread, harg7.read_unread, harg8.read_unread, harg9.read_unread, View.ld_unit_zero (S := S1024x1) hz2, View.ld_unit_zero (S := S1024x64) hz2, View.ld_unit_zero (S := S1x1) hz2]
  try rfl

end Cert.KernelIdeal.Frame

end
-- ==== Proof.Gat.Scalar.lean ====
/-
  The scalar functions both programs apply entrywise, on the extended reals: the leaky rectifier with the slope the
  programs share (the float nearest 0.2, never evaluated), and `elu` in the two spellings the programs use —
  `exp x − 1` below zero, against `1 · (exp y − 1)` of `y = x` below zero — which are one function.
-/
import Idealize.ShloMosaic.PureOps.Ideal.Laws
import Idealize.ShloMosaic.Lib.IdealHost

noncomputable section

namespace Cert.Gat

open Idealize.ShloMosaic

/-- The slope below zero: the value of the shared literal. -/
def c02 : EReal := Ideal.ofBits .f32 0x3E4CCCCD#32

/-- The leaky rectifier. -/
def lrelu (x : EReal) : EReal := if 0 ≤ x then x else c02 * x

/-- `elu` as the kernel spells it. -/
def eluK (x : EReal) : EReal := if 0 < x then x else Ideal.exp x - 1
/-- `elu` as the reference spells it. -/
def eluR (x : EReal) : EReal := if 0 < x then x else 1 * (Ideal.exp (if 0 < x then 0 else x) - 1)

theorem eluR_eq (x : EReal) : eluR x = eluK x := by
  unfold eluR eluK
  by_cases h : 0 < x
  · rw [if_pos h, if_pos h]
  · rw [if_neg h, if_neg h, if_neg h, one_mul]

/-- The slope is a real number. -/
theorem c02_real : ∃ c : ℝ, c02 = (c : EReal) := by
  unfold c02
  simp [Ideal.ofBits, Ideal.ieee, -EReal.coe_mul]

/-- The rectifier of a real is a real. -/
theorem lrelu_real (x : ℝ) : ∃ y : ℝ, lrelu (x : EReal) = (y : EReal) := by
  obtain ⟨c, hc⟩ := c02_real
  unfold lrelu
  by_cases h : (0 : EReal) ≤ (x : EReal)
  · exact ⟨x, by rw [if_pos h]⟩
  · exact ⟨c * x, by rw [if_neg h, hc, EReal.coe_mul]⟩

/-- A select on an ordered comparison `a ≥ z` is the choice by `z ≤ a`. -/
theorem select_oge (a z b c : EReal) : Scalar.select (Ideal.cmp .oge a z) b c = if z ≤ a then b else c := by
  unfold Scalar.select Ideal.cmp
  by_cases h : z ≤ a <;> simp [h]
/-- A select on an ordered comparison `a > z` is the choice by `z < a`. -/
theorem select_ogt (a z b c : EReal) : Scalar.select (Ideal.cmp .ogt a z) b c = if z < a then b else c := by
  unfold Scalar.select Ideal.cmp
  by_cases h : z < a <;> simp [h]

end Cert.Gat

end
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KValue.StepsIdx.lean ====
/-
  One column step read entry by entry over the extended reals: the row shift is the rectified sum of the row's first
  logit and the largest second logit; a step's weight for row `r` and column `j` is the exponential of the rectified
  sum of the two logits less the row shift; the running sum gains the step's 2048 weights, the running weighted sum
  gains their products with the step's value rows; the result entry is `elu` of the quotient of the two sums.
-/
import proofs.«107845_j2010044695310_2_alg».proof.Proof.KValue.Steps
import proofs.«107845_j2010044695310_2_alg».proof.Proof.Gat.Scalar
import proofs.«107845_j2010044695310_2_alg».proof.Proof.LibRowSum
import proofs.«107845_j2010044695310_2_alg».proof.Proof.LibColumn
import proofs.«107845_j2010044695310_2_alg».proof.Proof.LibDot
import Idealize.ShloMosaic.Lib.ValueLayout

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Gat

theorem exp_apply {s : Shape} {φ : FTy} (v : FVec Ideal s φ) (i : s.Idx) : exp v i = Ideal.exp (v i) := rfl

/-- The printed rectifier at an entry. -/
theorem lrelu_select (a : EReal) :
    Scalar.select (FloatOps.cmpf (F := Ideal) (φ := .f32) .oge a (FloatOps.ofBits .f32 0x00000000#32)) a
      (FloatOps.ofBits (F := Ideal) .f32 0x3E4CCCCD#32 * a) = lrelu a :=
  (select_oge _ _ _ _).trans (by simp only [lrelu, c02, Ideal.ofBits_def, Ideal.ofBits_zero_f32])

/-- The printed `elu` at an entry. -/
theorem elu_select (a : EReal) :
    Scalar.select (FloatOps.cmpf (F := Ideal) (φ := .f32) .ogt a (FloatOps.ofBits .f32 0x00000000#32)) a
      (Ideal.exp a - FloatOps.ofBits (F := Ideal) .f32 0x3F800000#32) = eluK a :=
  (select_ogt _ _ _ _).trans (by simp only [eluK, Ideal.ofBits_def, Ideal.ofBits_zero_f32, Ideal.ofBits_one_f32])

/-- The row shift at row `r`. -/
theorem pay3_apply (x0 : Vec Ideal S1024x1 .f32) (x3 : Vec Ideal S1x1 .f32) (r : Fin 1024) :
    k1_pay3 (F := Ideal) x0 x3 (ix2 r (0 : Fin 1)) = lrelu (x0 (ix2 r (0 : Fin 1)) + x3 (ix2 (0 : Fin 1) (0 : Fin 1))) := by
  unfold k1_pay3
  simp only [shapeCast_self, select_apply, cmpf_apply, mulf_apply, addf_apply, broadcast_apply]
  rw [broadcastTo_1b_ab_apply]
  exact lrelu_select _

/-- A step's weight at row `r`, column `j` of the step. -/
theorem pay7_apply (v6 : Vec Ideal S1x2048 .f32) (v13 v23 : Vec Ideal S1024x1 .f32) (r : Fin 1024) (j : Fin 2048) :
    k1_pay7 (F := Ideal) v6 v13 v23 (ix2 r j)
      = Ideal.exp (lrelu (v13 (ix2 r (0 : Fin 1)) + v6 (ix2 (0 : Fin 1) j)) - v23 (ix2 r (0 : Fin 1))) := by
  unfold k1_pay7
  simp only [shapeCast_self, exp_apply, select_apply, cmpf_apply, mulf_apply, addf_apply, subf_apply, broadcast_apply]
  rw [broadcastTo_a1_ab_apply, broadcastTo_1b_ab_apply, broadcastTo_a1_ab_apply]
  rw [lrelu_select]

/-- The running sum after a step, at row `r`: what it was plus the step's 2048 weights. -/
theorem pay8_apply (v6 : Vec Ideal S1x2048 .f32) (v13 v23 v27 : Vec Ideal S1024x1 .f32) (r : Fin 1024) :
    k1_pay8 (F := Ideal) v6 v13 v23 v27 (ix2 r (0 : Fin 1))
      = v27 (ix2 r (0 : Fin 1)) + ∑ j : Fin 2048, k1_pay7 (F := Ideal) v6 v13 v23 (ix2 r j) := by
  unfold k1_pay8
  simp only [shapeCast_self, addf_apply]
  rw [shapeCast_a_a1_apply]
  exact congrArg (v27 (ix2 r (0 : Fin 1)) + ·) (multiReduction_add_rows_apply (k1_pay7 (F := Ideal) v6 v13 v23) _ _ _ r)

theorem plain_pv : Cert.LibDot.Plain (dot_S1024x2048_S2048x64_S1024x64_1_0_0_1_n_n) :=
  ⟨rfl, rfl, fun _ _ => rfl, fun _ _ => rfl, fun _ _ => rfl, fun _ _ => rfl⟩

/-- The running weighted sum after a step, at row `r`, feature `d`: what it was plus the weights' products with the
    step's value rows (from a zero accumulator). -/
theorem pay1_apply1 (v12 : FVec Ideal S2048x64 .bf16) (v34 : Vec Ideal S1024x64 .f32) (v35 : FVec Ideal S1024x2048 .bf16) (r : Fin 1024) (d : Fin 64) :
    k1_pay1 (F := Ideal) v12 v34 v35 (constant S1024x64 .f32 0x00000000#32) (ix2 r d)
      = v34 (ix2 r d) + ∑ j : Fin 2048, v35 (ix2 r j) * v12 (ix2 j d) := by
  unfold k1_pay1
  simp only [shapeCast_self, addf_apply]
  rw [Cert.LibDot.matmul_ix2 plain_pv]

/-- The result entry: `elu` of the weighted sum over the sum. -/
theorem pay2_apply1 (v44 : Vec Ideal S1024x64 .f32) (v45 : Vec Ideal S1024x1 .f32) (r : Fin 1024) (d : Fin 64) :
    k1_pay2 (F := Ideal) v44 v45 (ix2 r d) = eluK (Ideal.div (v44 (ix2 r d)) (v45 (ix2 r (0 : Fin 1)))) := by
  unfold k1_pay2
  simp only [select_apply, cmpf_apply, subf_apply, divf_apply, exp_apply, broadcast_apply]
  rw [broadcastTo_a1_ab_apply]
  exact elu_select _

end Cert.KernelIdeal.Frame

end
-- ==== Proof.KValue.R1.lean ====
/-
  The attention region's result array, entry by entry over the extended reals. Write `w₁(i)`, `w₂(j)` for the two
  logit columns, `v(j, d)` for the value rows, `μ` for the largest second logit, `M(i) = lrelu(w₁(i) + μ)` for the
  row shift and `P(i, j) = exp(lrelu(w₁(i) + w₂(j)) − M(i))` for the weights. By induction over the grid points: after
  the point of row block `q` and column step `k` the accumulators of row `i = 1024·q + r` hold `M(i)`,
  `0 + Σ_{k' ≤ k} Σ_{j < 2048} P(i, 2048·k' + j)` and the same sum of `P·v`. So the block written at step 5 holds
  `elu` of the quotient of the two six-run sums, and the twelve blocks tile the array.
-/
import proofs.«107845_j2010044695310_2_alg».proof.Proof.KernelIdeal.Region1
import proofs.«107845_j2010044695310_2_alg».proof.Proof.KValue.StepsIdx

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

open Cert.Gat

section
variable (V : (c : Dev nD) → (b : Ref sig .tc) → Buf (Elt Ideal) ((c : Thread nD τ).loc b))

theorem tlt1 (t : Fin cfg1.N) : t.val < 72 := lt_of_lt_of_eq t.isLt (show cfg1.N = 72 from N_1)

/-- The printed index maps and the step's two offsets, decided over the grid. -/
theorem idxF1 : ∀ t : Fin cfg1.N, win1_0.index t (0 : Fin 2) = t.val / 6 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 6 ∧ win1_4.index t (1 : Fin 2) = 0
    ∧ k1_off1 (grid1.coords t) (0 : Fin 2) = 0 ∧ k1_off1 (grid1.coords t) (1 : Fin 2) = 2048 * (t.val % 6)
    ∧ k1_off2 (grid1.coords t) (0 : Fin 2) = 2048 * (t.val % 6) ∧ k1_off2 (grid1.coords t) (1 : Fin 2) = 0 :=
  (by decide +kernel : ∀ t : Fin grid1.N, _)

/-! ## The arrays the region is entered with, by entry -/

def w1 (c : Dev nD) (i : Fin 12288) : EReal := V c main_v4 (ix2 i (0 : Fin 1))
def w2 (c : Dev nD) (j : Fin 12288) : EReal := V c main_v6 (ix2 (0 : Fin 1) j)
def wv (c : Dev nD) (j : Fin 12288) (d : Fin 64) : EReal := V c main_v3_0 (ix2 j d)
def mxv (c : Dev nD) : EReal := V c main_v8 (ix2 (0 : Fin 1) (0 : Fin 1))

/-- The row shift of row `i`. -/
def Msp (c : Dev nD) (i : Fin 12288) : EReal := lrelu (w1 V c i + mxv V c)
/-- The weight of row `i` at column `n` (zero past the last column). -/
def Pn (c : Dev nD) (i : Fin 12288) (n : ℕ) : EReal :=
  if h : n < 12288 then Ideal.exp (lrelu (w1 V c i + w2 V c ⟨n, h⟩) - Msp V c i) else 0
/-- The weight times the value entry. -/
def PVn (c : Dev nD) (i : Fin 12288) (d : Fin 64) (n : ℕ) : EReal :=
  if h : n < 12288 then Ideal.exp (lrelu (w1 V c i + w2 V c ⟨n, h⟩) - Msp V c i) * wv V c ⟨n, h⟩ d else 0
/-- The running sum after column step `k`. -/
def Lk (c : Dev nD) (i : Fin 12288) (k : ℕ) : EReal :=
  0 + ∑ k' ∈ Finset.range (k + 1), ∑ j ∈ Finset.range 2048, Pn V c i (2048 * k' + j)
/-- The running weighted sum after column step `k`. -/
def Ak (c : Dev nD) (i : Fin 12288) (d : Fin 64) (k : ℕ) : EReal :=
  0 + ∑ k' ∈ Finset.range (k + 1), ∑ j ∈ Finset.range 2048, PVn V c i d (2048 * k' + j)

/-- The array row of local row `r` at point `t`. -/
def rowOf (t : Fin cfg1.N) (r : Fin 1024) : Fin 12288 := ⟨1024 * (t.val / 6) + r.val, by have := tlt1 t; omega⟩

/-! ## The blocks at a point, by entry -/

theorem blkS1_apply (c : Dev nD) (t : Fin cfg1.N) (r : Fin 1024) :
    blk1 V c 0 t (ix2 r (0 : Fin 1)) = w1 V c (rowOf t r) := by
  obtain ⟨e0, e1, -⟩ := idxF1 t
  show V c main_v4 (((cfg1.win 0).blk t).view.emb (ix2 r (0 : Fin 1))) = _
  refine congrArg _ (idx2_ext _ _ _ ?_ ?_)
  · show win1_0.index t (0 : Fin 2) * 1024 + 1 * r.val = 1024 * (t.val / 6) + r.val
    omega
  · show win1_0.index t (1 : Fin 2) * 1 + 1 * 0 = 0
    omega
theorem blkMx_apply (c : Dev nD) (t : Fin cfg1.N) :
    blk1 V c 3 t (ix2 (0 : Fin 1) (0 : Fin 1)) = mxv V c := by
  obtain ⟨-, -, -, -, -, -, e0, e1, -⟩ := idxF1 t
  show V c main_v8 (((cfg1.win 3).blk t).view.emb (ix2 (0 : Fin 1) (0 : Fin 1))) = _
  refine congrArg _ (idx2_ext _ _ _ ?_ ?_)
  · show win1_3.index t (0 : Fin 2) * 1 + 1 * 0 = 0
    omega
  · show win1_3.index t (1 : Fin 2) * 1 + 1 * 0 = 0
    omega
theorem colTile_apply (c : Dev nD) (t : Fin cfg1.N) (j : Fin 2048) :
    colTile (grid1.coords t) (blk1 V c 1 t) (ix2 (0 : Fin 1) j) = w2 V c ⟨2048 * (t.val % 6) + j.val, by omega⟩ := by
  obtain ⟨-, -, e0, e1, -, -, -, -, -, -, o0, o1, -⟩ := idxF1 t
  show V c main_v6 (((cfg1.win 1).blk t).view.emb ((Rect.unit (s := S1x12288) (k1_off1 (grid1.coords t)) S1x2048.size (k1_off1_inb (grid1.coords t))).idx (ix2 (0 : Fin 1) j))) = _
  refine congrArg _ (idx2_ext _ _ _ ?_ ?_)
  · show win1_1.index t (0 : Fin 2) * 1 + 1 * (k1_off1 (grid1.coords t) (0 : Fin 2) + 1 * 0) = 0
    omega
  · show win1_1.index t (1 : Fin 2) * 12288 + 1 * (k1_off1 (grid1.coords t) (1 : Fin 2) + 1 * j.val) = 2048 * (t.val % 6) + j.val
    omega
theorem rowTile_apply (c : Dev nD) (t : Fin cfg1.N) (j : Fin 2048) (d : Fin 64) :
    rowTile (grid1.coords t) (blk1 V c 2 t) (ix2 j d) = wv V c ⟨2048 * (t.val % 6) + j.val, by omega⟩ d := by
  obtain ⟨-, -, -, -, e0, e1, -, -, -, -, -, -, o0, o1⟩ := idxF1 t
  show V c main_v3_0 (((cfg1.win 2).blk t).view.emb ((Rect.unit (s := S12288x64) (k1_off2 (grid1.coords t)) S2048x64.size (k1_off2_inb (grid1.coords t))).idx (ix2 j d))) = _
  refine congrArg _ (idx2_ext _ _ _ ?_ ?_)
  · show win1_2.index t (0 : Fin 2) * 12288 + 1 * (k1_off2 (grid1.coords t) (0 : Fin 2) + 1 * j.val) = 2048 * (t.val % 6) + j.val
    omega
  · show win1_2.index t (1 : Fin 2) * 64 + 1 * (k1_off2 (grid1.coords t) (1 : Fin 2) + 1 * d.val) = d.val
    omega

/-! ## One step, by entry -/

theorem pay4_apply (r : Fin 1024) : k1_pay4 (F := Ideal) (ix2 r (0 : Fin 1)) = 0 := by
  unfold k1_pay4
  simp only [shapeCast_self, broadcast_apply]
  exact Ideal.ofBits_zero_f32
theorem pay5_apply (r : Fin 1024) (d : Fin 64) : k1_pay5 (F := Ideal) (ix2 r d) = 0 := by
  unfold k1_pay5
  simp only [shapeCast_self, broadcast_apply]
  exact Ideal.ofBits_zero_f32

/-- The step's weights of row `r`, as the run of 2048 columns starting at `2048·k`. -/
theorem step_weights (c : Dev nD) (t : Fin cfg1.N) (r : Fin 1024) (m : Vec Ideal S1024x1 .f32)
    (hm : m (ix2 r (0 : Fin 1)) = Msp V c (rowOf t r)) :
    ∑ j : Fin 2048, k1_pay7 (F := Ideal) (colTile (grid1.coords t) (blk1 V c 1 t)) (blk1 V c 0 t) m (ix2 r j)
      = ∑ j ∈ Finset.range 2048, Pn V c (rowOf t r) (2048 * (t.val % 6) + j) := by
  rw [Finset.sum_range]
  refine Finset.sum_congr rfl fun j _ => ?_
  have hlt : 2048 * (t.val % 6) + j.val < 12288 := by omega
  rw [pay7_apply, colTile_apply, blkS1_apply, hm]
  unfold Pn
  rw [dif_pos hlt]

theorem step_weighted (c : Dev nD) (t : Fin cfg1.N) (r : Fin 1024) (d : Fin 64) (m : Vec Ideal S1024x1 .f32)
    (hm : m (ix2 r (0 : Fin 1)) = Msp V c (rowOf t r)) :
    ∑ j : Fin 2048, k1_pay9 (F := Ideal) (colTile (grid1.coords t) (blk1 V c 1 t)) (blk1 V c 0 t) m (ix2 r j)
        * k1_pay6 (F := Ideal) (rowTile (grid1.coords t) (blk1 V c 2 t)) (ix2 j d)
      = ∑ j ∈ Finset.range 2048, PVn V c (rowOf t r) d (2048 * (t.val % 6) + j) := by
  rw [Finset.sum_range]
  refine Finset.sum_congr rfl fun j _ => ?_
  have hlt : 2048 * (t.val % 6) + j.val < 12288 := by omega
  unfold k1_pay9 k1_pay6
  rw [shapeCast_self]
  show k1_pay7 (F := Ideal) _ _ m (ix2 r j) * _ = _
  rw [pay7_apply, colTile_apply, blkS1_apply, hm, rowTile_apply]
  unfold PVn
  rw [dif_pos hlt]

/-! ## The runs' values at a point's memrefs and blocks -/

theorem resA_M (c : Dev nD) (t : Fin cfg1.N) (hc0) (hc1) :
    VM.read (Elt Ideal) (VM.writes (Elt Ideal) VM.junk (resA V c t hc0 hc1).1) = k1_pay3 (F := Ideal) (blk1 V c 0 t) (blk1 V c 3 t) :=
  runA_M c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scAcc (Memref.isWhole_whole _) hc0 hc1 (blk1 V c 0 t) (blk1 V c 1 t) (blk1 V c 2 t) (blk1 V c 3 t) VM VM.junk
theorem resA_L (c : Dev nD) (t : Fin cfg1.N) (hc0) (hc1) :
    VL.read (Elt Ideal) (VL.writes (Elt Ideal) VL.junk (resA V c t hc0 hc1).2.1)
      = nextL (grid1.coords t) (blk1 V c 0 t) (blk1 V c 1 t) (k1_pay3 (F := Ideal) (blk1 V c 0 t) (blk1 V c 3 t)) (k1_pay4 (F := Ideal)) :=
  runA_L c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scAcc (Memref.isWhole_whole _) hc0 hc1 (blk1 V c 0 t) (blk1 V c 1 t) (blk1 V c 2 t) (blk1 V c 3 t) VL VL.junk
theorem resA_Acc (c : Dev nD) (t : Fin cfg1.N) (hc0) (hc1) :
    VAcc.read (Elt Ideal) (VAcc.writes (Elt Ideal) VAcc.junk (resA V c t hc0 hc1).2.2.1)
      = nextAcc (grid1.coords t) (blk1 V c 0 t) (blk1 V c 1 t) (blk1 V c 2 t) (k1_pay3 (F := Ideal) (blk1 V c 0 t) (blk1 V c 3 t)) (k1_pay5 (F := Ideal)) :=
  runA_Acc c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scAcc (Memref.isWhole_whole _) hc0 hc1 (blk1 V c 0 t) (blk1 V c 1 t) (blk1 V c 2 t) (blk1 V c 3 t) VAcc VAcc.junk
theorem resB_L (c : Dev nD) (t : Fin cfg1.N) (hc0) (hc1) (p : Acc3 Ideal) :
    VL.read (Elt Ideal) (VL.writes (Elt Ideal) VL.junk (resB V c t hc0 hc1 p).1)
      = nextL (grid1.coords t) (blk1 V c 0 t) (blk1 V c 1 t) p.1 p.2.1 :=
  runB_L c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scAcc (Memref.isWhole_whole _) hc0 hc1 (blk1 V c 0 t) (blk1 V c 1 t) (blk1 V c 2 t) (blk1 V c 3 t) p.1 p.2.1 p.2.2 VL VL.junk
theorem resB_Acc (c : Dev nD) (t : Fin cfg1.N) (hc0) (hc1) (p : Acc3 Ideal) :
    VAcc.read (Elt Ideal) (VAcc.writes (Elt Ideal) VAcc.junk (resB V c t hc0 hc1 p).2.1)
      = nextAcc (grid1.coords t) (blk1 V c 0 t) (blk1 V c 1 t) (blk1 V c 2 t) p.1 p.2.2 :=
  runB_Acc c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scAcc (Memref.isWhole_whole _) hc0 hc1 (blk1 V c 0 t) (blk1 V c 1 t) (blk1 V c 2 t) (blk1 V c 3 t) p.1 p.2.1 p.2.2 VAcc VAcc.junk
theorem resC_L (c : Dev nD) (t : Fin cfg1.N) (hc0) (hc1) (p : Acc3 Ideal) :
    VL.read (Elt Ideal) (VL.writes (Elt Ideal) VL.junk (resC V c t hc0 hc1 p).2.1)
      = nextL (grid1.coords t) (blk1 V c 0 t) (blk1 V c 1 t) p.1 p.2.1 :=
  runC_L c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scAcc (Memref.isWhole_whole _) hc0 hc1 (blk1 V c 0 t) (blk1 V c 1 t) (blk1 V c 2 t) (blk1 V c 3 t) p.1 p.2.1 p.2.2 VL VL.junk
theorem resC_Acc (c : Dev nD) (t : Fin cfg1.N) (hc0) (hc1) (p : Acc3 Ideal) :
    VAcc.read (Elt Ideal) (VAcc.writes (Elt Ideal) VAcc.junk (resC V c t hc0 hc1 p).2.2.1)
      = nextAcc (grid1.coords t) (blk1 V c 0 t) (blk1 V c 1 t) (blk1 V c 2 t) p.1 p.2.2 :=
  runC_Acc c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scAcc (Memref.isWhole_whole _) hc0 hc1 (blk1 V c 0 t) (blk1 V c 1 t) (blk1 V c 2 t) (blk1 V c 3 t) p.1 p.2.1 p.2.2 VAcc VAcc.junk
theorem resC_Out (c : Dev nD) (t : Fin cfg1.N) (hc0) (hc1) (p : Acc3 Ideal) :
    VOut.read (Elt Ideal) (VOut.writes (Elt Ideal) VOut.junk (resC V c t hc0 hc1 p).1)
      = k1_pay2 (F := Ideal) (nextAcc (grid1.coords t) (blk1 V c 0 t) (blk1 V c 1 t) (blk1 V c 2 t) p.1 p.2.2)
          (nextL (grid1.coords t) (blk1 V c 0 t) (blk1 V c 1 t) p.1 p.2.1) :=
  runC_Out c (grid1.coords t) (ms1_0 t) (hs1_0 t) (ms1_1 t) (hs1_1 t) (ms1_2 t) (hs1_2 t) (ms1_3 t) (hs1_3 t) (ms1_4 t) (hs1_4 t) scM (Memref.isWhole_whole _) scL (Memref.isWhole_whole _) scAcc (Memref.isWhole_whole _) hc0 hc1 (blk1 V c 0 t) (blk1 V c 1 t) (blk1 V c 2 t) (blk1 V c 3 t) p.1 p.2.1 p.2.2 VOut VOut.junk

/-- THE INVARIANT: what the accumulators hold after the point `t`. -/
def Inv (c : Dev nD) (t : Fin cfg1.N) (p : Acc3 Ideal) : Prop :=
  ∀ r : Fin 1024, p.1 (ix2 r (0 : Fin 1)) = Msp V c (rowOf t r)
    ∧ p.2.1 (ix2 r (0 : Fin 1)) = Lk V c (rowOf t r) (t.val % 6)
    ∧ ∀ d : Fin 64, p.2.2 (ix2 r d) = Ak V c (rowOf t r) d (t.val % 6)

/-- A later step carries the invariant on: the sums gain the step's run. -/
theorem inv_next (c : Dev nD) (t : Fin cfg1.N) (k : ℕ) (hk : t.val % 6 = k + 1) (p : Acc3 Ideal)
    (hp : ∀ r : Fin 1024, p.1 (ix2 r (0 : Fin 1)) = Msp V c (rowOf t r) ∧ p.2.1 (ix2 r (0 : Fin 1)) = Lk V c (rowOf t r) k
      ∧ ∀ d : Fin 64, p.2.2 (ix2 r d) = Ak V c (rowOf t r) d k) :
    Inv V c t (p.1, nextL (grid1.coords t) (blk1 V c 0 t) (blk1 V c 1 t) p.1 p.2.1,
      nextAcc (grid1.coords t) (blk1 V c 0 t) (blk1 V c 1 t) (blk1 V c 2 t) p.1 p.2.2) := by
  intro r
  obtain ⟨hm, hl, ha⟩ := hp r
  refine ⟨hm, ?_, fun d => ?_⟩
  · show nextL _ _ _ p.1 p.2.1 (ix2 r (0 : Fin 1)) = _
    unfold nextL
    rw [pay8_apply, step_weights V c t r p.1 hm, hl, hk]
    unfold Lk
    rw [Finset.sum_range_succ _ (k + 1), add_assoc]
  · show nextAcc _ _ _ _ p.1 p.2.2 (ix2 r d) = _
    unfold nextAcc
    rw [pay1_apply1, step_weighted V c t r d p.1 hm, ha d, hk]
    unfold Ak
    rw [Finset.sum_range_succ _ (k + 1), add_assoc]

/-- A first step establishes it. -/
theorem inv_first (c : Dev nD) (t : Fin cfg1.N) (hk : t.val % 6 = 0) :
    Inv V c t (k1_pay3 (F := Ideal) (blk1 V c 0 t) (blk1 V c 3 t),
      nextL (grid1.coords t) (blk1 V c 0 t) (blk1 V c 1 t) (k1_pay3 (F := Ideal) (blk1 V c 0 t) (blk1 V c 3 t)) (k1_pay4 (F := Ideal)),
      nextAcc (grid1.coords t) (blk1 V c 0 t) (blk1 V c 1 t) (blk1 V c 2 t) (k1_pay3 (F := Ideal) (blk1 V c 0 t) (blk1 V c 3 t)) (k1_pay5 (F := Ideal))) := by
  intro r
  have hm : k1_pay3 (F := Ideal) (blk1 V c 0 t) (blk1 V c 3 t) (ix2 r (0 : Fin 1)) = Msp V c (rowOf t r) := by
    rw [pay3_apply, blkS1_apply, blkMx_apply]; rfl
  refine ⟨hm, ?_, fun d => ?_⟩
  · show nextL _ _ _ _ _ (ix2 r (0 : Fin 1)) = _
    unfold nextL
    rw [pay8_apply, step_weights V c t r _ hm, pay4_apply, hk]
    unfold Lk
    rw [Finset.sum_range_one]
  · show nextAcc _ _ _ _ _ _ (ix2 r d) = _
    unfold nextAcc
    rw [pay1_apply1, step_weighted V c t r d _ hm, pay5_apply, hk]
    unfold Ak
    rw [Finset.sum_range_one]

/-! ## One grid point, by cases -/

theorem step1_first (c : Dev nD) (t : Fin cfg1.N) (h0 : t.val % 6 = 0) (p : Acc3 Ideal) :
    (step1 V c t p).2 = (k1_pay3 (F := Ideal) (blk1 V c 0 t) (blk1 V c 3 t),
      nextL (grid1.coords t) (blk1 V c 0 t) (blk1 V c 1 t) (k1_pay3 (F := Ideal) (blk1 V c 0 t) (blk1 V c 3 t)) (k1_pay4 (F := Ideal)),
      nextAcc (grid1.coords t) (blk1 V c 0 t) (blk1 V c 1 t) (blk1 V c 2 t) (k1_pay3 (F := Ideal) (blk1 V c 0 t) (blk1 V c 3 t)) (k1_pay5 (F := Ideal))) := by
  have e : step1 V c t p = _ := dif_pos h0
  rw [e]
  show (_, _, _) = _
  rw [resA_M V c t (condA0 t h0) (condA1 t h0), resA_L V c t (condA0 t h0) (condA1 t h0), resA_Acc V c t (condA0 t h0) (condA1 t h0)]

theorem step1_mid (c : Dev nD) (t : Fin cfg1.N) (h0 : ¬t.val % 6 = 0) (h1 : ¬t.val % 6 = 5) (p : Acc3 Ideal) :
    (step1 V c t p).2 = (p.1, nextL (grid1.coords t) (blk1 V c 0 t) (blk1 V c 1 t) p.1 p.2.1,
      nextAcc (grid1.coords t) (blk1 V c 0 t) (blk1 V c 1 t) (blk1 V c 2 t) p.1 p.2.2) := by
  have e : step1 V c t p = _ := (dif_neg h0).trans (dif_neg h1)
  rw [e]
  show (_, _, _) = _
  rw [resB_L V c t (condN0 t h0) (condN1 t h1) p, resB_Acc V c t (condN0 t h0) (condN1 t h1) p]

theorem step1_last (c : Dev nD) (t : Fin cfg1.N) (h0 : ¬t.val % 6 = 0) (h1 : t.val % 6 = 5) (p : Acc3 Ideal) :
    step1 V c t p = (k1_pay2 (F := Ideal) (nextAcc (grid1.coords t) (blk1 V c 0 t) (blk1 V c 1 t) (blk1 V c 2 t) p.1 p.2.2)
        (nextL (grid1.coords t) (blk1 V c 0 t) (blk1 V c 1 t) p.1 p.2.1),
      p.1, nextL (grid1.coords t) (blk1 V c 0 t) (blk1 V c 1 t) p.1 p.2.1,
      nextAcc (grid1.coords t) (blk1 V c 0 t) (blk1 V c 1 t) (blk1 V c 2 t) p.1 p.2.2) := by
  have e : step1 V c t p = _ := (dif_neg h0).trans (dif_pos h1)
  rw [e, resC_Out V c t (condN0 t h0) (condC1 t h1) p, resC_L V c t (condN0 t h0) (condC1 t h1) p, resC_Acc V c t (condN0 t h0) (condC1 t h1) p]

/-- The invariant holds after every point. -/
theorem inv_all (c : Dev nD) : ∀ (n : ℕ) (h : n < cfg1.N), Inv V c ⟨n, h⟩ (outsAt1 V c n h).2
  | 0, h => by
    show Inv V c ⟨0, h⟩ (step1 V c ⟨0, h⟩ junkAcc).2
    rw [step1_first V c ⟨0, h⟩ rfl junkAcc]
    exact inv_first V c ⟨0, h⟩ rfl
  | n + 1, h => by
    have ih := inv_all c n (Nat.lt_of_succ_lt h)
    have hN : n + 1 < 72 := tlt1 ⟨n + 1, h⟩
    show Inv V c ⟨n + 1, h⟩ (step1 V c ⟨n + 1, h⟩ (outsAt1 V c n (Nat.lt_of_succ_lt h)).2).2
    by_cases h0 : (n + 1) % 6 = 0
    · rw [step1_first V c ⟨n + 1, h⟩ h0 _]
      exact inv_first V c ⟨n + 1, h⟩ h0
    · have hk : (⟨n + 1, h⟩ : Fin cfg1.N).val % 6 = (n % 6) + 1 := by show (n + 1) % 6 = n % 6 + 1; omega
      have hq : (n + 1) / 6 = n / 6 := by omega
      have hp : ∀ r : Fin 1024, (outsAt1 V c n (Nat.lt_of_succ_lt h)).2.1 (ix2 r (0 : Fin 1)) = Msp V c (rowOf ⟨n + 1, h⟩ r)
          ∧ (outsAt1 V c n (Nat.lt_of_succ_lt h)).2.2.1 (ix2 r (0 : Fin 1)) = Lk V c (rowOf ⟨n + 1, h⟩ r) (n % 6)
          ∧ ∀ d : Fin 64, (outsAt1 V c n (Nat.lt_of_succ_lt h)).2.2.2 (ix2 r d) = Ak V c (rowOf ⟨n + 1, h⟩ r) d (n % 6) := fun r => by
        have hrow : rowOf ⟨n + 1, h⟩ r = rowOf ⟨n, Nat.lt_of_succ_lt h⟩ r := Fin.ext (by show 1024 * ((n + 1) / 6) + r.val = 1024 * (n / 6) + r.val; rw [hq])
        rw [hrow]
        exact ih r
      by_cases h1 : (n + 1) % 6 = 5
      · rw [step1_last V c ⟨n + 1, h⟩ h0 h1 _]
        exact inv_next V c ⟨n + 1, h⟩ (n % 6) hk _ hp
      · rw [step1_mid V c ⟨n + 1, h⟩ h0 h1 _]
        exact inv_next V c ⟨n + 1, h⟩ (n % 6) hk _ hp

/-! ## The result array -/

/-- The result's closed form: `elu` of the quotient of the two six-run sums of the row. -/
def GOut (c : Dev nD) : S12288x64.Idx → EReal := fun i =>
  eluK (Ideal.div (Ak V c (⟨(i 0).val, idx2_lt0 i⟩ : Fin 12288) (⟨(i 1).val, idx2_lt1 i⟩ : Fin 64) 5) (Lk V c (⟨(i 0).val, idx2_lt0 i⟩ : Fin 12288) 5))

/-- The block a last step leaves, by entry. -/
theorem out_last (c : Dev nD) (t : Fin cfg1.N) (h5 : t.val % 6 = 5) (r : Fin 1024) (d : Fin 64) :
    (outsAt1 V c t.val t.isLt).1 (ix2 r d) = eluK (Ideal.div (Ak V c (rowOf t r) d 5) (Lk V c (rowOf t r) 5)) := by
  have hinv := inv_all V c t.val t.isLt r
  have h0 : ¬t.val % 6 = 0 := by omega
  rw [outsAt1_eq V c t, step1_last V c t h0 h5 _] at hinv
  rw [outsAt1_eq V c t, step1_last V c t h0 h5 _]
  have hl : nextL (grid1.coords t) (blk1 V c 0 t) (blk1 V c 1 t) (prevAcc V c t).1 (prevAcc V c t).2.1 (ix2 r (0 : Fin 1))
      = Lk V c (rowOf t r) (t.val % 6) := hinv.2.1
  have ha : nextAcc (grid1.coords t) (blk1 V c 0 t) (blk1 V c 1 t) (blk1 V c 2 t) (prevAcc V c t).1 (prevAcc V c t).2.2 (ix2 r d)
      = Ak V c (rowOf t r) d (t.val % 6) := hinv.2.2 d
  show k1_pay2 (F := Ideal) _ _ (ix2 r d) = _
  rw [pay2_apply1, hl, ha, h5]

theorem mem_blkOut (t : Fin cfg1.N) (i : S12288x64.Idx) :
    i ∈ ((cfg1.win 4).blk t).view.set ↔ ∀ a : Fin 2, win1_4.index t a * S1024x64.size a ≤ (i a).val ∧ (i a).val < win1_4.index t a * S1024x64.size a + S1024x64.size a := by
  show i ∈ ((View.whole main_v9).slice (win1_4.rect t)).set ↔ _
  rw [View.set_slice_whole, Rect.mem_set_unit]
  exact Iff.rfl

/-- What a flushing point writes back is its block of the closed form. -/
theorem flushedOut_eq (c : Dev nD) (t : Fin cfg1.N) (hf : (cfg1.win 4).flush t = true) :
    (dat1 V c).flushed 4 t = ((cfg1.win 4).blk t).view.read (Elt Ideal) (GOut V c) := by
  have h5 : t.val % 6 = 5 := (flush1_4 t).mp hf
  obtain ⟨-, -, -, -, -, -, -, -, e0, e1, -⟩ := idxF1 t
  show (cfg1.win 4).cut (grid1.coords t) ((dat1 V c).after 4 t) = _
  rw [after1_4]
  funext j
  show (outsAt1 V c t.val t.isLt).1 j = GOut V c (((cfg1.win 4).blk t).view.emb j)
  have hj : j = ix2 (⟨(j 0).val, idx2_lt0 j⟩ : Fin 1024) (⟨(j 1).val, idx2_lt1 j⟩ : Fin 64) := idx2_ext j _ _ rfl rfl
  rw [hj, out_last V c t h5]
  unfold GOut
  have er : rowOf t ⟨(j 0).val, idx2_lt0 j⟩ = (⟨((((cfg1.win 4).blk t).view.emb (ix2 (⟨(j 0).val, idx2_lt0 j⟩ : Fin 1024) (⟨(j 1).val, idx2_lt1 j⟩ : Fin 64))) 0).val, idx2_lt0 _⟩ : Fin 12288) :=
    Fin.ext (by
      show 1024 * (t.val / 6) + (j 0).val = win1_4.index t (0 : Fin 2) * 1024 + 1 * (j 0).val
      omega)
  have ed : (⟨(j 1).val, idx2_lt1 j⟩ : Fin 64) = (⟨((((cfg1.win 4).blk t).view.emb (ix2 (⟨(j 0).val, idx2_lt0 j⟩ : Fin 1024) (⟨(j 1).val, idx2_lt1 j⟩ : Fin 64))) 1).val, idx2_lt1 _⟩ : Fin 64) :=
    Fin.ext (by
      show (j 1).val = win1_4.index t (1 : Fin 2) * 64 + 1 * (j 1).val
      omega)
  rw [← er, ← ed]

/-- The result array after the region. -/
theorem finalOut (c : Dev nD) : (dat1 V c).arrAt 4 cfg1.N = GOut V c :=
  (dat1 V c).arrAt_eq_of_cover 4 _ (fun t hf => flushedOut_eq V c t hf) fun i => by
    have h0 : (i 0).val < 12288 := idx2_lt0 i
    have h1 : (i 1).val < 64 := idx2_lt1 i
    let t : Fin cfg1.N := ⟨6 * ((i 0).val / 1024) + 5, by rw [show cfg1.N = 72 from N_1]; omega⟩
    have htv : t.val = 6 * ((i 0).val / 1024) + 5 := rfl
    obtain ⟨-, -, -, -, -, -, -, -, e0, e1, -⟩ := idxF1 t
    refine ⟨t, (flush1_4 t).mpr (by omega), ?_⟩
    rw [mem_blkOut]
    intro a
    match a with
    | ⟨0, _⟩ => show win1_4.index t (0 : Fin 2) * 1024 ≤ (i 0).val ∧ (i 0).val < win1_4.index t (0 : Fin 2) * 1024 + 1024
                omega
    | ⟨1, _⟩ => show win1_4.index t (1 : Fin 2) * 64 ≤ (i 1).val ∧ (i 1).val < win1_4.index t (1 : Fin 2) * 64 + 64
                omega

end

end Cert.KernelIdeal.Frame

end
-- ==== Proof.Ref.Run.lean ====
/-
  The reference as a straight line of 47 host operations — the two matrix products giving `Wh` and its two logit
  columns, the broadcast sum and the leaky rectifier (its outlined function opened where it is called), the
  row-wise softmax (row maximum, shift, exponential, row sum, quotient), the product with `Wh`, and `elu` (its
  outlined function opened likewise) — and its run: every weakly fair execution ends with each buffer at the fold
  of these operations over the launch memory.
-/
import proofs.«107845_j2010044695310_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ binary main_arg0 main_arg1 main_v0 ((fun l r => Host.dotGeneral dot_S12288x128_S128x64_S12288x64_1_0_0_1_n_n none l r) : (⟨S12288x128, .f32⟩ : BufTy).Contents (Elt F) → (⟨S128x64, .f32⟩ : BufTy).Contents (Elt F) → (⟨S12288x64, .f32⟩ : BufTy).Contents (Elt F)),
    unary main_arg2 main_v1 ((extractStridedSlice S64x1 ![0, 0] · slices_S128x1_S64x1_0_0) : (⟨S128x1, .f32⟩ : BufTy).Contents (Elt F) → (⟨S64x1, .f32⟩ : BufTy).Contents (Elt F)),
    binary main_v0 main_v1 main_v2 ((fun l r => Host.dotGeneral dot_S12288x64_S64x1_S12288x1_1_0_0_1_n_n none l r) : (⟨S12288x64, .f32⟩ : BufTy).Contents (Elt F) → (⟨S64x1, .f32⟩ : BufTy).Contents (Elt F) → (⟨S12288x1, .f32⟩ : BufTy).Contents (Elt F)),
    unary main_arg2 main_v3 ((extractStridedSlice S64x1 ![64, 0] · slices_S128x1_S64x1_64_0) : (⟨S128x1, .f32⟩ : BufTy).Contents (Elt F) → (⟨S64x1, .f32⟩ : BufTy).Contents (Elt F)),
    binary main_v0 main_v3 main_v4 ((fun l r => Host.dotGeneral dot_S12288x64_S64x1_S12288x1_1_0_0_1_n_n none l r) : (⟨S12288x64, .f32⟩ : BufTy).Contents (Elt F) → (⟨S64x1, .f32⟩ : BufTy).Contents (Elt F) → (⟨S12288x1, .f32⟩ : BufTy).Contents (Elt F)),
    unary main_v4 main_v5 ((transpose S1x12288 [1, 0] · transposes_S12288x1_S1x12288_1_0) : (⟨S12288x1, .f32⟩ : BufTy).Contents (Elt F) → (⟨S1x12288, .f32⟩ : BufTy).Contents (Elt F)),
    unary main_v2 main_v6 (broadcastInDim S12288x12288 ![0, 1] bcast_S12288x1_S12288x12288_0_1 : (⟨S12288x1, .f32⟩ : BufTy).Contents (Elt F) → (⟨S12288x12288, .f32⟩ : BufTy).Contents (Elt F)),
    unary main_v5 main_v7 (broadcastInDim S12288x12288 ![0, 1] bcast_S1x12288_S12288x12288_0_1 : (⟨S1x12288, .f32⟩ : BufTy).Contents (Elt F) → (⟨S12288x12288, .f32⟩ : BufTy).Contents (Elt F)),
    binary main_v6 main_v7 main_v8 (addf : (⟨S12288x12288, .f32⟩ : BufTy).Contents (Elt F) → (⟨S12288x12288, .f32⟩ : BufTy).Contents (Elt F) → (⟨S12288x12288, .f32⟩ : BufTy).Contents (Elt F)),
    nullary main_cst (constant S_ .f32 0x3E4CCCCD#32),
    TRef.nullary main_call0.cst (constant S_ .f32 0x00000000#32),
    TRef.unary main_call0.cst main_call0.v0 (broadcastInDim S12288x12288 ![] bcast_S_S12288x12288),
    TRef.binary (.of main_v8) main_call0.v0 main_call0.v1 (cmpf .oge),
    TRef.unary (.of main_cst) main_call0.v2 id,
    TRef.unary main_call0.v2 main_call0.v3 (broadcastInDim S12288x12288 ![] bcast_S_S12288x12288),
    TRef.binary main_call0.v3 (.of main_v8) main_call0.v4 mulf,
    TRef.ternary main_call0.v1 (.of main_v8) main_call0.v4 main_call0.call0.v0 select,
    nullary main_cst_0 (constant S_ .f32 0xFF800000#32),
    binary main_v9 main_cst_0 main_v10 ((fun x v => Host.reduce FloatOps.maximumf x v reducesTo_S12288x12288_S12288_d1 h_S_) : (⟨S12288x12288, .f32⟩ : BufTy).Contents (Elt F) → (⟨S_, .f32⟩ : BufTy).Contents (Elt F) → (⟨S12288, .f32⟩ : BufTy).Contents (Elt F)),
    nullary main_cst_1 (constant S_ .f32 0xFF800000#32),
    unary main_cst_1 main_v11 (broadcastInDim S12288 ![] bcast_S_S12288 : (⟨S_, .f32⟩ : BufTy).Contents (Elt F) → (⟨S12288, .f32⟩ : BufTy).Contents (Elt F)),
    binary main_v11 main_v10 main_v12 (maximumf : (⟨S12288, .f32⟩ : BufTy).Contents (Elt F) → (⟨S12288, .f32⟩ : BufTy).Contents (Elt F) → (⟨S12288, .f32⟩ : BufTy).Contents (Elt F)),
    unary main_v12 main_v13 (broadcastInDim S12288x1 ![0] bcast_S12288_S12288x1_0 : (⟨S12288, .f32⟩ : BufTy).Contents (Elt F) → (⟨S12288x1, .f32⟩ : BufTy).Contents (Elt F)),
    unary main_v13 main_v14 (broadcastInDim S12288x12288 ![0, 1] bcast_S12288x1_S12288x12288_0_1 : (⟨S12288x1, .f32⟩ : BufTy).Contents (Elt F) → (⟨S12288x12288, .f32⟩ : BufTy).Contents (Elt F)),
    binary main_v9 main_v14 main_v15 (subf : (⟨S12288x12288, .f32⟩ : BufTy).Contents (Elt F) → (⟨S12288x12288, .f32⟩ : BufTy).Contents (Elt F) → (⟨S12288x12288, .f32⟩ : BufTy).Contents (Elt F)),
    unary main_v15 main_v16 (Host.exp : (⟨S12288x12288, .f32⟩ : BufTy).Contents (Elt F) → (⟨S12288x12288, .f32⟩ : BufTy).Contents (Elt F)),
    nullary main_cst_2 (constant S_ .f32 0x00000000#32),
    binary main_v16 main_cst_2 main_v17 ((fun x v => Host.reduceAdd x v reducesTo_S12288x12288_S12288_d1 h_S_) : (⟨S12288x12288, .f32⟩ : BufTy).Contents (Elt F) → (⟨S_, .f32⟩ : BufTy).Contents (Elt F) → (⟨S12288, .f32⟩ : BufTy).Contents (Elt F)),
    unary main_v17 main_v18 (broadcastInDim S12288x1 ![0] bcast_S12288_S12288x1_0 : (⟨S12288, .f32⟩ : BufTy).Contents (Elt F) → (⟨S12288x1, .f32⟩ : BufTy).Contents (Elt F)),
    unary main_v18 main_v19 (broadcastInDim S12288x12288 ![0, 1] bcast_S12288x1_S12288x12288_0_1 : (⟨S12288x1, .f32⟩ : BufTy).Contents (Elt F) → (⟨S12288x12288, .f32⟩ : BufTy).Contents (Elt F)),
    binary main_v16 main_v19 main_v20 (Host.divf : (⟨S12288x12288, .f32⟩ : BufTy).Contents (Elt F) → (⟨S12288x12288, .f32⟩ : BufTy).Contents (Elt F) → (⟨S12288x12288, .f32⟩ : BufTy).Contents (Elt F)),
    binary main_v20 main_v0 main_v21 ((fun l r => Host.dotGeneral dot_S12288x12288_S12288x64_S12288x64_1_0_0_1_n_n none l r) : (⟨S12288x12288, .f32⟩ : BufTy).Contents (Elt F) → (⟨S12288x64, .f32⟩ : BufTy).Contents (Elt F) → (⟨S12288x64, .f32⟩ : BufTy).Contents (Elt F)),
    TRef.nullary main_call1.cst (constant S_ .f32 0x00000000#32),
    TRef.unary main_call1.cst main_call1.v0 (broadcastInDim S12288x64 ![] bcast_S_S12288x64),
    TRef.binary (.of main_v21) main_call1.v0 main_call1.v1 (cmpf .ogt),
    TRef.nullary main_call1.cst_0 (constant S_ .f32 0x00000000#32),
    TRef.unary main_call1.cst_0 main_call1.v2 (broadcastInDim S12288x64 ![] bcast_S_S12288x64),
    TRef.binary (.of main_v21) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S12288x64 ![] bcast_S_S12288x64),
    TRef.ternary main_call1.v3 main_call1.call0.v1 (.of main_v21) main_call1.call0.v2 select,
    TRef.unary main_call1.call0.v2 main_call1.v5 Host.expm1,
    TRef.nullary main_call1.cst_2 (constant S_ .f32 0x3F800000#32),
    TRef.unary main_call1.cst_2 main_call1.v6 (broadcastInDim S12288x64 ![] bcast_S_S12288x64),
    TRef.binary main_call1.v6 main_call1.v5 main_call1.v7 mulf,
    TRef.ternary main_call1.v1 (.of main_v21) main_call1.v7 main_call1.call1.v0 select ]

set_option maxRecDepth 4096 in
/-- @main is that straight line: the outlined functions unfolded at their calls, sequencing reassociated. -/
theorem main_eq (c : Dev nD) : main (F := F) c = seq ops := by
  simp only [main, fn_leaky_relu.body, fn_where.body, fn_elu.body, fn_where_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., binary_bufs_sub .., unary_bufs_sub .., binary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- From any memory with zero counters every weakly fair execution of @main terminates, and every final state has each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.Ref.Value.lean ====
/-
  The reference's result as one function of the three arguments, stage by stage: the projection `Wh = h·W`, its two
  logit columns, the matrix of rectified pairwise sums, the row-wise softmax weights, their product with `Wh`, and
  `elu`. The line of operations is read in four stretches, each leaving its result as a function of what the stretch
  before left.
-/
import proofs.«107845_j2010044695310_2_alg».proof.Proof.Ref.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- `Wh = h·W`. -/
def rWh (h : FVec F S12288x128 .f32) (W : FVec F S128x64 .f32) : FVec F S12288x64 .f32 :=
  Host.dotGeneral dot_S12288x128_S128x64_S12288x64_1_0_0_1_n_n none h W
/-- The first logit column `Wh·a₁`. -/
def rS1 (h : FVec F S12288x128 .f32) (W : FVec F S128x64 .f32) (a : FVec F S128x1 .f32) : FVec F S12288x1 .f32 :=
  Host.dotGeneral dot_S12288x64_S64x1_S12288x1_1_0_0_1_n_n none (rWh h W) (extractStridedSlice S64x1 ![0, 0] a slices_S128x1_S64x1_0_0)
/-- The second logit column `Wh·a₂`. -/
def rS2 (h : FVec F S12288x128 .f32) (W : FVec F S128x64 .f32) (a : FVec F S128x1 .f32) : FVec F S12288x1 .f32 :=
  Host.dotGeneral dot_S12288x64_S64x1_S12288x1_1_0_0_1_n_n none (rWh h W) (extractStridedSlice S64x1 ![64, 0] a slices_S128x1_S64x1_64_0)
/-- The pairwise sums `s₁(i) + s₂(j)`. -/
def rSum (s1 s2 : FVec F S12288x1 .f32) : FVec F S12288x12288 .f32 :=
  addf (broadcastInDim S12288x12288 ![0, 1] bcast_S12288x1_S12288x12288_0_1 s1)
    (broadcastInDim S12288x12288 ![0, 1] bcast_S1x12288_S12288x12288_0_1 (transpose S1x12288 [1, 0] s2 transposes_S12288x1_S1x12288_1_0))
/-- The leaky rectifier with slope `s` below zero. -/
def rLeaky (x : FVec F S12288x12288 .f32) (s : FVec F S_ .f32) : FVec F S12288x12288 .f32 :=
  select (cmpf .oge x (broadcastInDim S12288x12288 ![] bcast_S_S12288x12288 (constant (F := F) S_ .f32 0x00000000#32)))
    x (mulf (broadcastInDim S12288x12288 ![] bcast_S_S12288x12288 (id s)) x)
/-- The row maxima (a maximum with `-∞` over the row's maximum from `-∞`). -/
def rRowMax (e : FVec F S12288x12288 .f32) : FVec F S12288 .f32 :=
  maximumf (broadcastInDim S12288 ![] bcast_S_S12288 (constant (F := F) S_ .f32 0xFF800000#32))
    (Host.reduce FloatOps.maximumf e (constant (F := F) S_ .f32 0xFF800000#32) reducesTo_S12288x12288_S12288_d1 h_S_)
/-- The exponentials of the entries less their row's maximum. -/
def rExp (e : FVec F S12288x12288 .f32) : FVec F S12288x12288 .f32 :=
  Host.exp (subf e (broadcastInDim S12288x12288 ![0, 1] bcast_S12288x1_S12288x12288_0_1 (broadcastInDim S12288x1 ![0] bcast_S12288_S12288x1_0 (rRowMax e))))
/-- The softmax weights: each exponential over its row's sum. -/
def rAtt (p : FVec F S12288x12288 .f32) : FVec F S12288x12288 .f32 :=
  Host.divf p (broadcastInDim S12288x12288 ![0, 1] bcast_S12288x1_S12288x12288_0_1 (broadcastInDim S12288x1 ![0] bcast_S12288_S12288x1_0
    (Host.reduceAdd p (constant (F := F) S_ .f32 0x00000000#32) reducesTo_S12288x12288_S12288_d1 h_S_)))
/-- The weighted rows: the softmax weights of the rectified sums times `Wh`. -/
def rMix (e : FVec F S12288x12288 .f32) (wh : FVec F S12288x64 .f32) : FVec F S12288x64 .f32 :=
  Host.dotGeneral dot_S12288x12288_S12288x64_S12288x64_1_0_0_1_n_n none (rAtt (rExp e)) wh
/-- `elu`: `x` where positive, else `1·expm1(x)` (of `0` where positive, so of `x`). -/
def rElu (x : FVec F S12288x64 .f32) : FVec F S12288x64 .f32 :=
  select (cmpf .ogt x (broadcastInDim S12288x64 ![] bcast_S_S12288x64 (constant (F := F) S_ .f32 0x00000000#32))) x
    (mulf (broadcastInDim S12288x64 ![] bcast_S_S12288x64 (constant (F := F) S_ .f32 0x3F800000#32))
      (Host.expm1 (select (cmpf .ogt x (broadcastInDim S12288x64 ![] bcast_S_S12288x64 (constant (F := F) S_ .f32 0x00000000#32)))
        (broadcastInDim S12288x64 ![] bcast_S_S12288x64 (id (constant (F := F) S_ .f32 0x00000000#32))) x)))
/-- The reference's result. -/
def rOut (h : FVec F S12288x128 .f32) (W : FVec F S128x64 .f32) (a : FVec F S128x1 .f32) : FVec F S12288x64 .f32 :=
  rElu (rMix (rLeaky (rSum (rS1 h W a) (rS2 h W a)) (constant (F := F) S_ .f32 0x3E4CCCCD#32)) (rWh h W))

/-! ## The four stretches -/

abbrev opsA : List (HloOp τ sig (Elt F)) :=
  [ binary main_arg0 main_arg1 main_v0 ((fun l r => Host.dotGeneral dot_S12288x128_S128x64_S12288x64_1_0_0_1_n_n none l r) : (⟨S12288x128, .f32⟩ : BufTy).Contents (Elt F) → (⟨S128x64, .f32⟩ : BufTy).Contents (Elt F) → (⟨S12288x64, .f32⟩ : BufTy).Contents (Elt F)),
    unary main_arg2 main_v1 ((extractStridedSlice S64x1 ![0, 0] · slices_S128x1_S64x1_0_0) : (⟨S128x1, .f32⟩ : BufTy).Contents (Elt F) → (⟨S64x1, .f32⟩ : BufTy).Contents (Elt F)),
    binary main_v0 main_v1 main_v2 ((fun l r => Host.dotGeneral dot_S12288x64_S64x1_S12288x1_1_0_0_1_n_n none l r) : (⟨S12288x64, .f32⟩ : BufTy).Contents (Elt F) → (⟨S64x1, .f32⟩ : BufTy).Contents (Elt F) → (⟨S12288x1, .f32⟩ : BufTy).Contents (Elt F)),
    unary main_arg2 main_v3 ((extractStridedSlice S64x1 ![64, 0] · slices_S128x1_S64x1_64_0) : (⟨S128x1, .f32⟩ : BufTy).Contents (Elt F) → (⟨S64x1, .f32⟩ : BufTy).Contents (Elt F)),
    binary main_v0 main_v3 main_v4 ((fun l r => Host.dotGeneral dot_S12288x64_S64x1_S12288x1_1_0_0_1_n_n none l r) : (⟨S12288x64, .f32⟩ : BufTy).Contents (Elt F) → (⟨S64x1, .f32⟩ : BufTy).Contents (Elt F) → (⟨S12288x1, .f32⟩ : BufTy).Contents (Elt F)),
    unary main_v4 main_v5 ((transpose S1x12288 [1, 0] · transposes_S12288x1_S1x12288_1_0) : (⟨S12288x1, .f32⟩ : BufTy).Contents (Elt F) → (⟨S1x12288, .f32⟩ : BufTy).Contents (Elt F)),
    unary main_v2 main_v6 (broadcastInDim S12288x12288 ![0, 1] bcast_S12288x1_S12288x12288_0_1 : (⟨S12288x1, .f32⟩ : BufTy).Contents (Elt F) → (⟨S12288x12288, .f32⟩ : BufTy).Contents (Elt F)),
    unary main_v5 main_v7 (broadcastInDim S12288x12288 ![0, 1] bcast_S1x12288_S12288x12288_0_1 : (⟨S1x12288, .f32⟩ : BufTy).Contents (Elt F) → (⟨S12288x12288, .f32⟩ : BufTy).Contents (Elt F)),
    binary main_v6 main_v7 main_v8 (addf : (⟨S12288x12288, .f32⟩ : BufTy).Contents (Elt F) → (⟨S12288x12288, .f32⟩ : BufTy).Contents (Elt F) → (⟨S12288x12288, .f32⟩ : BufTy).Contents (Elt F)),
    nullary main_cst (constant S_ .f32 0x3E4CCCCD#32) ]
abbrev opsB : List (HloOp τ sig (Elt F)) :=
  [ TRef.nullary main_call0.cst (constant S_ .f32 0x00000000#32),
    TRef.unary main_call0.cst main_call0.v0 (broadcastInDim S12288x12288 ![] bcast_S_S12288x12288),
    TRef.binary (.of main_v8) main_call0.v0 main_call0.v1 (cmpf .oge),
    TRef.unary (.of main_cst) main_call0.v2 id,
    TRef.unary main_call0.v2 main_call0.v3 (broadcastInDim S12288x12288 ![] bcast_S_S12288x12288),
    TRef.binary main_call0.v3 (.of main_v8) main_call0.v4 mulf,
    TRef.ternary main_call0.v1 (.of main_v8) main_call0.v4 main_call0.call0.v0 select ]
abbrev opsC : List (HloOp τ sig (Elt F)) :=
  [ nullary main_cst_0 (constant S_ .f32 0xFF800000#32),
    binary main_v9 main_cst_0 main_v10 ((fun x v => Host.reduce FloatOps.maximumf x v reducesTo_S12288x12288_S12288_d1 h_S_) : (⟨S12288x12288, .f32⟩ : BufTy).Contents (Elt F) → (⟨S_, .f32⟩ : BufTy).Contents (Elt F) → (⟨S12288, .f32⟩ : BufTy).Contents (Elt F)),
    nullary main_cst_1 (constant S_ .f32 0xFF800000#32),
    unary main_cst_1 main_v11 (broadcastInDim S12288 ![] bcast_S_S12288 : (⟨S_, .f32⟩ : BufTy).Contents (Elt F) → (⟨S12288, .f32⟩ : BufTy).Contents (Elt F)),
    binary main_v11 main_v10 main_v12 (maximumf : (⟨S12288, .f32⟩ : BufTy).Contents (Elt F) → (⟨S12288, .f32⟩ : BufTy).Contents (Elt F) → (⟨S12288, .f32⟩ : BufTy).Contents (Elt F)),
    unary main_v12 main_v13 (broadcastInDim S12288x1 ![0] bcast_S12288_S12288x1_0 : (⟨S12288, .f32⟩ : BufTy).Contents (Elt F) → (⟨S12288x1, .f32⟩ : BufTy).Contents (Elt F)),
    unary main_v13 main_v14 (broadcastInDim S12288x12288 ![0, 1] bcast_S12288x1_S12288x12288_0_1 : (⟨S12288x1, .f32⟩ : BufTy).Contents (Elt F) → (⟨S12288x12288, .f32⟩ : BufTy).Contents (Elt F)),
    binary main_v9 main_v14 main_v15 (subf : (⟨S12288x12288, .f32⟩ : BufTy).Contents (Elt F) → (⟨S12288x12288, .f32⟩ : BufTy).Contents (Elt F) → (⟨S12288x12288, .f32⟩ : BufTy).Contents (Elt F)),
    unary main_v15 main_v16 (Host.exp : (⟨S12288x12288, .f32⟩ : BufTy).Contents (Elt F) → (⟨S12288x12288, .f32⟩ : BufTy).Contents (Elt F)),
    nullary main_cst_2 (constant S_ .f32 0x00000000#32),
    binary main_v16 main_cst_2 main_v17 ((fun x v => Host.reduceAdd x v reducesTo_S12288x12288_S12288_d1 h_S_) : (⟨S12288x12288, .f32⟩ : BufTy).Contents (Elt F) → (⟨S_, .f32⟩ : BufTy).Contents (Elt F) → (⟨S12288, .f32⟩ : BufTy).Contents (Elt F)),
    unary main_v17 main_v18 (broadcastInDim S12288x1 ![0] bcast_S12288_S12288x1_0 : (⟨S12288, .f32⟩ : BufTy).Contents (Elt F) → (⟨S12288x1, .f32⟩ : BufTy).Contents (Elt F)),
    unary main_v18 main_v19 (broadcastInDim S12288x12288 ![0, 1] bcast_S12288x1_S12288x12288_0_1 : (⟨S12288x1, .f32⟩ : BufTy).Contents (Elt F) → (⟨S12288x12288, .f32⟩ : BufTy).Contents (Elt F)),
    binary main_v16 main_v19 main_v20 (Host.divf : (⟨S12288x12288, .f32⟩ : BufTy).Contents (Elt F) → (⟨S12288x12288, .f32⟩ : BufTy).Contents (Elt F) → (⟨S12288x12288, .f32⟩ : BufTy).Contents (Elt F)),
    binary main_v20 main_v0 main_v21 ((fun l r => Host.dotGeneral dot_S12288x12288_S12288x64_S12288x64_1_0_0_1_n_n none l r) : (⟨S12288x12288, .f32⟩ : BufTy).Contents (Elt F) → (⟨S12288x64, .f32⟩ : BufTy).Contents (Elt F) → (⟨S12288x64, .f32⟩ : BufTy).Contents (Elt F)) ]
abbrev opsD : List (HloOp τ sig (Elt F)) :=
  [ TRef.nullary main_call1.cst (constant S_ .f32 0x00000000#32),
    TRef.unary main_call1.cst main_call1.v0 (broadcastInDim S12288x64 ![] bcast_S_S12288x64),
    TRef.binary (.of main_v21) main_call1.v0 main_call1.v1 (cmpf .ogt),
    TRef.nullary main_call1.cst_0 (constant S_ .f32 0x00000000#32),
    TRef.unary main_call1.cst_0 main_call1.v2 (broadcastInDim S12288x64 ![] bcast_S_S12288x64),
    TRef.binary (.of main_v21) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S12288x64 ![] bcast_S_S12288x64),
    TRef.ternary main_call1.v3 main_call1.call0.v1 (.of main_v21) main_call1.call0.v2 select,
    TRef.unary main_call1.call0.v2 main_call1.v5 Host.expm1,
    TRef.nullary main_call1.cst_2 (constant S_ .f32 0x3F800000#32),
    TRef.unary main_call1.cst_2 main_call1.v6 (broadcastInDim S12288x64 ![] bcast_S_S12288x64),
    TRef.binary main_call1.v6 main_call1.v5 main_call1.v7 mulf,
    TRef.ternary main_call1.v1 (.of main_v21) main_call1.v7 main_call1.call1.v0 select ]

theorem ops_split : (ops : List (HloOp τ sig (Elt F))) = opsA ++ (opsB ++ (opsC ++ opsD)) := rfl

theorem after_append : ∀ (l₁ l₂ : List (HloOp τ sig (Elt F))) (V : Valuation τ sig (Elt F)), after (l₁ ++ l₂) V = after l₂ (after l₁ V)
  | [], _, _ => rfl
  | op :: l₁, l₂, V => after_append l₁ l₂ (op.result V)

/-! ### The first stretch: the projection, its two logit columns, their pairwise sums, the slope -/

theorem A_sum (V : Valuation τ sig (Elt F)) : after opsA V (main_v8 : DevRef τ sig)
    = rSum (rS1 (V (main_arg0 : DevRef τ sig)) (V (main_arg1 : DevRef τ sig)) (V (main_arg2 : DevRef τ sig)))
        (rS2 (V (main_arg0 : DevRef τ sig)) (V (main_arg1 : DevRef τ sig)) (V (main_arg2 : DevRef τ sig))) := by
  after_results
  rfl
theorem A_wh (V : Valuation τ sig (Elt F)) : after opsA V (main_v0 : DevRef τ sig)
    = rWh (V (main_arg0 : DevRef τ sig)) (V (main_arg1 : DevRef τ sig)) := by
  after_results
  rfl
theorem A_slope (V : Valuation τ sig (Elt F)) : after opsA V (main_cst : DevRef τ sig) = constant (F := F) S_ .f32 0x3E4CCCCD#32 := by
  after_results
theorem A_arg0 (V : Valuation τ sig (Elt F)) : after opsA V (main_arg0 : DevRef τ sig) = V (main_arg0 : DevRef τ sig) := by
  after_results
theorem A_arg1 (V : Valuation τ sig (Elt F)) : after opsA V (main_arg1 : DevRef τ sig) = V (main_arg1 : DevRef τ sig) := by
  after_results
theorem A_arg2 (V : Valuation τ sig (Elt F)) : after opsA V (main_arg2 : DevRef τ sig) = V (main_arg2 : DevRef τ sig) := by
  after_results

/-! ### The second: the rectifier -/

theorem B_leaky (V : Valuation τ sig (Elt F)) : after opsB V (main_v9 : DevRef τ sig)
    = rLeaky (V (main_v8 : DevRef τ sig)) (V (main_cst : DevRef τ sig)) := by
  after_results
  rfl
theorem B_wh (V : Valuation τ sig (Elt F)) : after opsB V (main_v0 : DevRef τ sig) = V (main_v0 : DevRef τ sig) := by
  after_results
theorem B_arg0 (V : Valuation τ sig (Elt F)) : after opsB V (main_arg0 : DevRef τ sig) = V (main_arg0 : DevRef τ sig) := by
  after_results
theorem B_arg1 (V : Valuation τ sig (Elt F)) : after opsB V (main_arg1 : DevRef τ sig) = V (main_arg1 : DevRef τ sig) := by
  after_results
theorem B_arg2 (V : Valuation τ sig (Elt F)) : after opsB V (main_arg2 : DevRef τ sig) = V (main_arg2 : DevRef τ sig) := by
  after_results

/-! ### The third: the softmax weights and their product with `Wh` -/

theorem C_mix (V : Valuation τ sig (Elt F)) : after opsC V (main_v21 : DevRef τ sig)
    = rMix (V (main_v9 : DevRef τ sig)) (V (main_v0 : DevRef τ sig)) := by
  after_results
  rfl
theorem C_arg0 (V : Valuation τ sig (Elt F)) : after opsC V (main_arg0 : DevRef τ sig) = V (main_arg0 : DevRef τ sig) := by
  after_results
theorem C_arg1 (V : Valuation τ sig (Elt F)) : after opsC V (main_arg1 : DevRef τ sig) = V (main_arg1 : DevRef τ sig) := by
  after_results
theorem C_arg2 (V : Valuation τ sig (Elt F)) : after opsC V (main_arg2 : DevRef τ sig) = V (main_arg2 : DevRef τ sig) := by
  after_results

/-! ### The fourth: `elu` -/

theorem D_elu (V : Valuation τ sig (Elt F)) : after opsD V (main_v22 : DevRef τ sig) = rElu (V (main_v21 : DevRef τ sig)) := by
  after_results
  rfl
theorem D_arg0 (V : Valuation τ sig (Elt F)) : after opsD V (main_arg0 : DevRef τ sig) = V (main_arg0 : DevRef τ sig) := by
  after_results
theorem D_arg1 (V : Valuation τ sig (Elt F)) : after opsD V (main_arg1 : DevRef τ sig) = V (main_arg1 : DevRef τ sig) := by
  after_results
theorem D_arg2 (V : Valuation τ sig (Elt F)) : after opsD V (main_arg2 : DevRef τ sig) = V (main_arg2 : DevRef τ sig) := by
  after_results

/-! ## The whole line -/

/-- The fold at the result buffer is that function of the arguments. -/
theorem out_eq (V : Valuation τ sig (Elt F)) :
    after ops V (main_v22 : DevRef τ sig)
      = rOut (V (main_arg0 : DevRef τ sig)) (V (main_arg1 : DevRef τ sig)) (V (main_arg2 : DevRef τ sig)) := by
  rw [ops_split, after_append, after_append, after_append, D_elu, C_mix, B_leaky, B_wh, A_sum, A_wh, A_slope]
  rfl

theorem arg0_eq (V : Valuation τ sig (Elt F)) : after ops V (main_arg0 : DevRef τ sig) = V (main_arg0 : DevRef τ sig) := by
  rw [ops_split, after_append, after_append, after_append, D_arg0, C_arg0, B_arg0, A_arg0]
theorem arg1_eq (V : Valuation τ sig (Elt F)) : after ops V (main_arg1 : DevRef τ sig) = V (main_arg1 : DevRef τ sig) := by
  rw [ops_split, after_append, after_append, after_append, D_arg1, C_arg1, B_arg1, A_arg1]
theorem arg2_eq (V : Valuation τ sig (Elt F)) : after ops V (main_arg2 : DevRef τ sig) = V (main_arg2 : DevRef τ sig) := by
  rw [ops_split, after_append, after_append, after_append, D_arg2, C_arg2, B_arg2, A_arg2]

end Cert.ReferenceIdeal.RefRun

end
-- ==== Proof.LibSoftmaxShift.lean ====
/-
  A softmax-weighted average does not depend on the shift.  For real logits `e j` and real values `w j` over a
  nonempty finite index set, and any two real shifts `m`, `M`,

      (Σ_j exp(e j − m) · w j) / (Σ_j exp(e j − m))  =  Σ_j (exp(e j − M) / Σ_k exp(e k − M)) · w j ,

  since exp(e j − m) = exp(M − m) · exp(e j − M) and the common positive factor cancels.  Stated over the reals and then
  over the extended reals for real-valued data (the exponential, the quotient and the sums of the ideal float
  instance), with two companions: a sum over `a·b` consecutive indices taken `b` at a time, and the maximum of a
  nonempty finite family of reals folded from −∞, which is a real.
-/
import Idealize.ShloMosaic.PureOps.Ideal.Laws

namespace Cert.LibSoftmaxShift

open Idealize.ShloMosaic

/-! ## Over the reals -/

theorem shift_real {J : Type*} [Fintype J] [Nonempty J] (e w : J → ℝ) (m M : ℝ) :
    (∑ j, Real.exp (e j - m) * w j) / (∑ j, Real.exp (e j - m))
      = ∑ j, Real.exp (e j - M) / (∑ k, Real.exp (e k - M)) * w j := by
  have hS : 0 < ∑ k, Real.exp (e k - M) := Finset.sum_pos (fun j _ => Real.exp_pos _) Finset.univ_nonempty
  have hκ : Real.exp (M - m) ≠ 0 := (Real.exp_pos _).ne'
  have key : ∀ j, Real.exp (e j - m) = Real.exp (M - m) * Real.exp (e j - M) := fun j => by
    rw [← Real.exp_add]; congr 1; ring
  have hnum : ∑ j, Real.exp (e j - m) * w j = Real.exp (M - m) * ∑ j, Real.exp (e j - M) * w j := by
    rw [Finset.mul_sum]; exact Finset.sum_congr rfl fun j _ => by rw [key j, mul_assoc]
  have hden : ∑ j, Real.exp (e j - m) = Real.exp (M - m) * ∑ j, Real.exp (e j - M) := by
    rw [Finset.mul_sum]; exact Finset.sum_congr rfl fun j _ => key j
  rw [hnum, hden, mul_div_mul_left _ _ hκ, Finset.sum_div]
  exact Finset.sum_congr rfl fun j _ => by rw [div_mul_eq_mul_div]

/-! ## Reals inside the extended reals -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe_coe (x y : ℝ) (hy : y ≠ 0) : Ideal.div (x : EReal) (y : EReal) = ((x / y : ℝ) : EReal) := by
  rw [Ideal.div_coe hy, ← EReal.coe_mul, mul_one_div]

theorem exp_sub_coe (x y : ℝ) : Ideal.exp ((x : EReal) - (y : EReal)) = ((Real.exp (x - y) : ℝ) : EReal) := by
  rw [← EReal.coe_sub, Ideal.exp_coe]

/-- The weighted average over the extended reals, for real data: the shift `m` against any real shift `Mx`, the
    second normalizer written from zero as a host sum is. -/
theorem shift_ereal {J : Type*} [Fintype J] [Nonempty J] (e w : J → ℝ) (m : ℝ) (Mx : EReal) (hM : ∃ r : ℝ, Mx = (r : EReal)) :
    Ideal.div (∑ j, Ideal.exp ((e j : EReal) - (m : EReal)) * (w j : EReal)) (∑ j, Ideal.exp ((e j : EReal) - (m : EReal)))
      = ∑ j, Ideal.div (Ideal.exp ((e j : EReal) - Mx)) (0 + ∑ k, Ideal.exp ((e k : EReal) - Mx)) * (w j : EReal) := by
  obtain ⟨M, rfl⟩ := hM
  have hS : ∀ μ : ℝ, (∑ k, Real.exp (e k - μ)) ≠ 0 := fun μ =>
    (Finset.sum_pos (fun j _ => Real.exp_pos _) Finset.univ_nonempty).ne'
  simp only [exp_sub_coe, ← EReal.coe_mul, coe_sum, zero_add]
  rw [div_coe_coe _ _ (hS m)]
  have : ∀ j, Ideal.div ((Real.exp (e j - M) : ℝ) : EReal) ((∑ k, Real.exp (e k - M) : ℝ) : EReal) * (w j : EReal)
      = ((Real.exp (e j - M) / (∑ k, Real.exp (e k - M)) * w j : ℝ) : EReal) := fun j => by
    rw [div_coe_coe _ _ (hS M), ← EReal.coe_mul]
  simp only [this, coe_sum]
  exact congrArg _ (shift_real e w m M)

/-! ## A maximum folded from −∞ over real entries -/

theorem fold_max_bot_real {ι : Type*} (s : Finset ι) (hs : s.Nonempty) (f : ι → ℝ) :
    ∃ r : ℝ, s.fold max (⊥ : EReal) (fun i => (f i : EReal)) = (r : EReal) := by
  classical
  induction s using Finset.induction_on with
  | empty => exact absurd hs Finset.not_nonempty_empty
  | insert a s ha ih =>
    rw [Finset.fold_insert ha]
    rcases s.eq_empty_or_nonempty with rfl | hne
    · exact ⟨f a, by simp⟩
    · obtain ⟨r, hr⟩ := ih hne
      exact ⟨max (f a) r, by rw [hr]; exact (EReal.coe_strictMono.monotone.map_max).symm⟩

/-! ## A sum taken in consecutive runs -/

theorem sum_runs {M : Type*} [AddCommMonoid M] (b : ℕ) (f : ℕ → M) : ∀ a : ℕ,
    ∑ k ∈ Finset.range a, ∑ j ∈ Finset.range b, f (b * k + j) = ∑ n ∈ Finset.range (a * b), f n
  | 0 => by simp
  | a + 1 => by
    rw [Finset.sum_range_succ, sum_runs b f a, Nat.succ_mul, Finset.sum_range_add, Nat.mul_comm a b]

end Cert.LibSoftmaxShift
-- ==== Proof.Ref.Idx.lean ====
/-
  The reference read entry by entry over the extended reals: `Wh(i, d) = Σ_k h(i, k)·W(k, d)`, the two logit columns
  `s₁(i) = Σ_d Wh(i, d)·a(d)` and `s₂(i) = Σ_d Wh(i, d)·a(64 + d)`, the rectified pairwise sums, the softmax weights
  with the row maximum as shift (a maximum folded from −∞, taken once more against −∞), their product with `Wh`, and
  `elu`. For real entries the row maximum is a real.
-/
import proofs.«107845_j2010044695310_2_alg».proof.Proof.Ref.Value
import proofs.«107845_j2010044695310_2_alg».proof.Proof.Gat.Scalar
import proofs.«107845_j2010044695310_2_alg».proof.Proof.LibDot
import proofs.«107845_j2010044695310_2_alg».proof.Proof.LibRowSum
import proofs.«107845_j2010044695310_2_alg».proof.Proof.LibSoftmaxShift
import Idealize.ShloMosaic.Lib.ValueLayout
import Idealize.ShloMosaic.Lib.IdealHost
import Idealize.ShloMosaic.Lib.Pipeline.Value

noncomputable section

namespace Cert.ReferenceIdeal.RefRun

open Cert.ReferenceIdeal Cert.ReferenceIdeal.Gen Idealize.ShloMosaic Idealize.ShloMosaic.ValueIdx Cert.Gat Cert.LibDot

theorem plainHW : Plain (dot_S12288x128_S128x64_S12288x64_1_0_0_1_n_n) :=
  ⟨rfl, rfl, fun _ _ => rfl, fun _ _ => rfl, fun _ _ => rfl, fun _ _ => rfl⟩
theorem plainWA : Plain (dot_S12288x64_S64x1_S12288x1_1_0_0_1_n_n) :=
  ⟨rfl, rfl, fun _ _ => rfl, fun _ _ => rfl, fun _ _ => rfl, fun _ _ => rfl⟩
theorem plainAV : Plain (dot_S12288x12288_S12288x64_S12288x64_1_0_0_1_n_n) :=
  ⟨rfl, rfl, fun _ _ => rfl, fun _ _ => rfl, fun _ _ => rfl, fun _ _ => rfl⟩

theorem ofBits_neg_inf : Ideal.ofBits .f32 0xFF800000#32 = ⊥ := by simp [Ideal.ofBits, Ideal.ieee]

theorem rWh_apply (h : FVec Ideal S12288x128 .f32) (W : FVec Ideal S128x64 .f32) (i : Fin 12288) (d : Fin 64) :
    rWh h W (ix2 i d) = ∑ k : Fin 128, h (ix2 i k) * W (ix2 k d) :=
  dotGeneral_ix2 plainHW none h W i d

theorem rS1_apply (h : FVec Ideal S12288x128 .f32) (W : FVec Ideal S128x64 .f32) (a : FVec Ideal S128x1 .f32) (i : Fin 12288) :
    rS1 h W a (ix2 i (0 : Fin 1)) = ∑ d : Fin 64, rWh h W (ix2 i d) * a (ix2 (⟨d.val, by omega⟩ : Fin 128) (0 : Fin 1)) := by
  unfold rS1
  rw [dotGeneral_ix2 plainWA]
  refine Finset.sum_congr rfl fun d _ => ?_
  rw [slice2_axis0_apply 0 a _ d (0 : Fin 1) (⟨d.val, by omega⟩ : Fin 128) (by simp)]

theorem rS2_apply (h : FVec Ideal S12288x128 .f32) (W : FVec Ideal S128x64 .f32) (a : FVec Ideal S128x1 .f32) (i : Fin 12288) :
    rS2 h W a (ix2 i (0 : Fin 1)) = ∑ d : Fin 64, rWh h W (ix2 i d) * a (ix2 (⟨64 + d.val, by omega⟩ : Fin 128) (0 : Fin 1)) := by
  unfold rS2
  rw [dotGeneral_ix2 plainWA]
  refine Finset.sum_congr rfl fun d _ => ?_
  rw [slice2_axis0_apply 64 a _ d (0 : Fin 1) (⟨64 + d.val, by omega⟩ : Fin 128) rfl]

theorem rSum_apply (s1 s2 : FVec Ideal S12288x1 .f32) (i j : Fin 12288) :
    rSum s1 s2 (ix2 i j) = s1 (ix2 i (0 : Fin 1)) + s2 (ix2 j (0 : Fin 1)) := by
  unfold rSum
  rw [addf_apply, broadcastInDim_apply _ _ s1 (ix2 i j) (ix2 i (0 : Fin 1)) (fun a => by match a with | ⟨0, _⟩ => rfl | ⟨1, _⟩ => rfl),
    broadcastInDim_apply _ _ _ (ix2 i j) (ix2 (0 : Fin 1) j) (fun a => by match a with | ⟨0, _⟩ => rfl | ⟨1, _⟩ => rfl), transpose_ix2_apply]

theorem lrelu_sel (a : EReal) :
    Scalar.select (FloatOps.cmpf (F := Ideal) (φ := .f32) .oge a (Ideal.ofBits .f32 0x00000000#32)) a
      (Ideal.ofBits .f32 0x3E4CCCCD#32 * a) = lrelu a :=
  (select_oge _ _ _ _).trans (by simp only [lrelu, c02, Ideal.ofBits_zero_f32])

theorem rLeaky_apply (x : FVec Ideal S12288x12288 .f32) (i j : Fin 12288) :
    rLeaky x (constant (F := Ideal) S_ .f32 0x3E4CCCCD#32) (ix2 i j) = lrelu (x (ix2 i j)) := by
  unfold rLeaky
  rw [select_apply, cmpf_apply, mulf_apply, broadcastInDim_scalar_apply, broadcastInDim_scalar_apply]
  exact lrelu_sel _

/-- The row maximum of real entries is a real. -/
theorem rRowMax_real (e : FVec Ideal S12288x12288 .f32) (i : Fin 12288) (f : Fin 12288 → ℝ)
    (hf : ∀ j : Fin 12288, e (ix2 i j) = (f j : EReal)) : ∃ r : ℝ, rRowMax e (ix1 i) = (r : EReal) := by
  have hR : S12288x12288.Reduces [1] S12288 := by decide
  obtain ⟨r, hr⟩ := Cert.LibSoftmaxShift.fold_max_bot_real (Finset.univ : Finset (Fin 12288)) Finset.univ_nonempty f
  refine ⟨r, ?_⟩
  unfold rRowMax
  rw [maximumf_apply, broadcastInDim_scalar_apply, constant_apply,
    Host.reduce_eq_fold_single FloatOps.maximumf e _ reducesTo_S12288x12288_S12288_d1 hR h_S_ (ix1 i)]
  have hfun : (e ∘ hR.lift (ix1 i)) = fun k : Fin 12288 => (f k : EReal) := funext fun (k : Fin 12288) =>
    (congrArg e (idx2_ext (hR.lift (ix1 i) k) i k rfl rfl)).trans (hf k)
  rw [show (Finset.univ : Finset (Fin (S12288x12288.size 1))).fold FloatOps.maximumf ((constant (F := Ideal) S_ .f32 0xFF800000#32) (Shape.Idx.first h_S_)) (e ∘ hR.lift (ix1 i))
      = (Finset.univ : Finset (Fin 12288)).fold max (⊥ : EReal) (fun k => (f k : EReal)) from by
    rw [hfun]; exact congrArg (fun b => (Finset.univ : Finset (Fin 12288)).fold max b _) ofBits_neg_inf]
  rw [hr, ofBits_neg_inf]
  exact max_eq_right bot_le

theorem rExp_apply (e : FVec Ideal S12288x12288 .f32) (i j : Fin 12288) :
    rExp e (ix2 i j) = Ideal.exp (e (ix2 i j) - rRowMax e (ix1 i)) := by
  unfold rExp
  show Ideal.exp (subf e _ (ix2 i j)) = _
  rw [subf_apply, broadcastInDim_apply _ _ _ (ix2 i j) (ix2 i (0 : Fin 1)) (fun a => by match a with | ⟨0, _⟩ => rfl | ⟨1, _⟩ => rfl),
    broadcastInDim_apply _ _ _ (ix2 i (0 : Fin 1)) (ix1 i) (fun a => by match a with | ⟨0, _⟩ => rfl)]

theorem rAtt_apply (p : FVec Ideal S12288x12288 .f32) (i j : Fin 12288) :
    rAtt p (ix2 i j) = Ideal.div (p (ix2 i j)) (0 + ∑ k : Fin 12288, p (ix2 i k)) := by
  have hR : S12288x12288.Reduces [1] S12288 := by decide
  unfold rAtt
  rw [hostDivf_apply, broadcastInDim_apply _ _ _ (ix2 i j) (ix2 i (0 : Fin 1)) (fun a => by match a with | ⟨0, _⟩ => rfl | ⟨1, _⟩ => rfl),
    broadcastInDim_apply _ _ _ (ix2 i (0 : Fin 1)) (ix1 i) (fun a => by match a with | ⟨0, _⟩ => rfl),
    hostReduceAdd_apply, Ideal.hostReduceAdd_single _ hR, constant_apply, Ideal.ofBits_zero_f32]
  refine congrArg (fun s => Ideal.div (p (ix2 i j)) (0 + s)) (Finset.sum_congr rfl fun k _ => ?_)
  exact congrArg p (idx2_ext _ i k rfl rfl)

theorem rMix_apply (e : FVec Ideal S12288x12288 .f32) (wh : FVec Ideal S12288x64 .f32) (i : Fin 12288) (d : Fin 64) :
    rMix e wh (ix2 i d) = ∑ j : Fin 12288, Ideal.div (Ideal.exp (e (ix2 i j) - rRowMax e (ix1 i)))
        (0 + ∑ k : Fin 12288, Ideal.exp (e (ix2 i k) - rRowMax e (ix1 i))) * wh (ix2 j d) := by
  unfold rMix
  rw [dotGeneral_ix2 plainAV]
  refine Finset.sum_congr rfl fun j _ => ?_
  rw [rAtt_apply, rExp_apply]
  simp only [rExp_apply]

theorem rElu_apply (x : FVec Ideal S12288x64 .f32) (i : Fin 12288) (d : Fin 64) : rElu x (ix2 i d) = eluR (x (ix2 i d)) := by
  unfold rElu
  rw [select_apply, cmpf_apply, mulf_apply]
  show Scalar.select _ _ (_ * (Ideal.exp (select _ _ x (ix2 i d)) - 1)) = _
  rw [select_apply, cmpf_apply, broadcastInDim_scalar_apply, broadcastInDim_scalar_apply, broadcastInDim_scalar_apply]
  show Scalar.select (Ideal.cmp .ogt (x (ix2 i d)) (Ideal.ofBits .f32 0x00000000#32)) (x (ix2 i d))
      (Ideal.ofBits .f32 0x3F800000#32 * (Ideal.exp (Scalar.select (Ideal.cmp .ogt (x (ix2 i d)) (Ideal.ofBits .f32 0x00000000#32)) (Ideal.ofBits .f32 0x00000000#32) (x (ix2 i d))) - 1)) = _
  rw [select_ogt, select_ogt, Ideal.ofBits_zero_f32, Ideal.ofBits_one_f32]
  rfl

/-- The reference's result at an entry. -/
theorem rOut_apply (h : FVec Ideal S12288x128 .f32) (W : FVec Ideal S128x64 .f32) (a : FVec Ideal S128x1 .f32) (i : Fin 12288) (d : Fin 64) :
    rOut h W a (ix2 i d) = eluR (∑ j : Fin 12288,
      Ideal.div (Ideal.exp (lrelu (rS1 h W a (ix2 i (0 : Fin 1)) + rS2 h W a (ix2 j (0 : Fin 1)))
            - rRowMax (rLeaky (rSum (rS1 h W a) (rS2 h W a)) (constant (F := Ideal) S_ .f32 0x3E4CCCCD#32)) (ix1 i)))
          (0 + ∑ k : Fin 12288, Ideal.exp (lrelu (rS1 h W a (ix2 i (0 : Fin 1)) + rS2 h W a (ix2 k (0 : Fin 1)))
            - rRowMax (rLeaky (rSum (rS1 h W a) (rS2 h W a)) (constant (F := Ideal) S_ .f32 0x3E4CCCCD#32)) (ix1 i)))
        * rWh h W (ix2 j d)) := by
  unfold rOut
  rw [rElu_apply, rMix_apply]
  simp only [rLeaky_apply, rSum_apply]

end Cert.ReferenceIdeal.RefRun

end
-- ==== Proof.Gat.Bridge.lean ====
/-
  One entry of the two results compared. For real logits, real value entries and real shifts, the kernel's entry —
  `elu` of the quotient of two sums, each taken as six consecutive runs of 2048 columns from zero, the weights shifted
  by the rectified sum with the largest second logit — is the reference's entry — `elu` of the softmax-weighted sum,
  the weights shifted by the row maximum: the runs concatenate to the whole row, and a softmax-weighted average does
  not depend on the shift.
-/
import proofs.«107845_j2010044695310_2_alg».proof.Proof.Gat.Scalar
import proofs.«107845_j2010044695310_2_alg».proof.Proof.LibSoftmaxShift

noncomputable section

namespace Cert.Gat

open Idealize.ShloMosaic Cert.LibSoftmaxShift

/-- A finite sum of products of reals is a real. -/
theorem sum_mul_real {ι : Type*} [Fintype ι] (f g : ι → EReal) (hf : ∀ i, ∃ r : ℝ, f i = (r : EReal)) (hg : ∀ i, ∃ r : ℝ, g i = (r : EReal)) :
    ∃ r : ℝ, ∑ i, f i * g i = (r : EReal) := by
  choose fr hfr using hf
  choose gr hgr using hg
  exact ⟨∑ i, fr i * gr i, by simp only [hfr, hgr, ← EReal.coe_mul, coe_sum]⟩

instance : Nonempty (Fin 12288) := ⟨⟨0, by norm_num⟩⟩

theorem entry_bridge (s1v : EReal) (s2 wh : Fin 12288 → EReal) (mx Mr : EReal) (P PV : ℕ → EReal)
    (hP : ∀ n : Fin 12288, P n.val = Ideal.exp (lrelu (s1v + s2 n) - lrelu (s1v + mx)))
    (hPV : ∀ n : Fin 12288, PV n.val = Ideal.exp (lrelu (s1v + s2 n) - lrelu (s1v + mx)) * wh n)
    (hs1 : ∃ r : ℝ, s1v = (r : EReal)) (hs2 : ∀ j, ∃ r : ℝ, s2 j = (r : EReal)) (hwh : ∀ j, ∃ r : ℝ, wh j = (r : EReal))
    (hmx : ∃ r : ℝ, mx = (r : EReal)) (hMr : ∃ r : ℝ, Mr = (r : EReal)) :
    eluK (Ideal.div (0 + ∑ k ∈ Finset.range 6, ∑ j ∈ Finset.range 2048, PV (2048 * k + j))
        (0 + ∑ k ∈ Finset.range 6, ∑ j ∈ Finset.range 2048, P (2048 * k + j)))
      = eluR (∑ j : Fin 12288, Ideal.div (Ideal.exp (lrelu (s1v + s2 j) - Mr))
          (0 + ∑ k : Fin 12288, Ideal.exp (lrelu (s1v + s2 k) - Mr)) * wh j) := by
  have hsum : ∀ Q : ℕ → EReal, ∑ k ∈ Finset.range 6, ∑ j ∈ Finset.range 2048, Q (2048 * k + j) = ∑ n : Fin 12288, Q n.val := fun Q => by
    rw [sum_runs 2048 Q 6]
    show ∑ n ∈ Finset.range 12288, Q n = _
    rw [Finset.sum_range]
  rw [hsum PV, hsum P, zero_add, zero_add, eluR_eq]
  simp only [hP, hPV]
  obtain ⟨a, rfl⟩ := hs1
  obtain ⟨μ, rfl⟩ := hmx
  choose b hb using hs2
  choose w hw using hwh
  have he : ∀ j, ∃ y : ℝ, lrelu ((a : EReal) + s2 j) = (y : EReal) := fun j => by
    rw [hb j, ← EReal.coe_add]; exact lrelu_real _
  choose e hE using he
  obtain ⟨m, hm⟩ : ∃ y : ℝ, lrelu ((a : EReal) + (μ : EReal)) = (y : EReal) := by
    rw [← EReal.coe_add]; exact lrelu_real _
  simp only [hE, hm, hw]
  exact congrArg eluK (shift_ereal e w m Mr hMr)

end Cert.Gat

end
-- ==== Proof.Gat.Finite.lean ====
/-
  The precondition read: if the predicate "every input entry's absolute value is below +∞" is all ones, every entry of
  the three inputs is a real number.
-/
import proofs.«107845_j2010044695310_2_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Idealize.ShloMosaic.ValueIdx Cert.Pre_finite_inputs

instance : Subsingleton S_.Idx := ⟨fun a b => funext fun d => d.elim0⟩

/-- An extended real whose absolute value compares below the pattern of +∞ is a real. -/
theorem real_of_lt_inf (x : EReal) (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  have hlt : max x (-x) < ⊤ := by
    by_contra hn
    unfold Ideal.cmp at h
    simp [hn] at h
  induction x using EReal.rec with
  | bot => simp at hlt
  | coe r => exact ⟨r, rfl⟩
  | top => simp at hlt

variable [Facts]

theorem reals_of_pre (h : FVec Ideal S12288x128 .f32) (W : FVec Ideal S128x64 .f32) (a : FVec Ideal S128x1 .f32)
    (hp : fn (F := Ideal) h W a = fun _ => 1#1) :
    (∀ i, ∃ r : ℝ, h i = (r : EReal)) ∧ (∀ i, ∃ r : ℝ, W i = (r : EReal)) ∧ (∀ i, ∃ r : ℝ, a i = (r : EReal)) := by
  have h0 := congrFun hp ix0
  dsimp only [fn] at h0
  obtain ⟨h38, h12⟩ := IntOp.andi_eq_one.mp h0
  obtain ⟨h3, h7⟩ := IntOp.andi_eq_one.mp h38
  exact ⟨fun i => real_of_lt_inf _ (Host.reduce_andi_all _ _ _ _ ix0 h3 i),
    fun i => real_of_lt_inf _ (Host.reduce_andi_all _ _ _ _ ix0 h7 i),
    fun i => real_of_lt_inf _ (Host.reduce_andi_all _ _ _ _ ix0 h12 i)⟩

end Cert.Finite

end
-- ==== Proof.Final.Links.lean ====
/-
  The two results are one array. The kernel program's logit columns, value rows and largest second logit are the
  reference's stages of the same inputs; under the precondition every one of them is a real number; so each entry of
  the kernel's result — `elu` of the quotient of the six-run sums — is the reference's entry.
-/
import proofs.«107845_j2010044695310_2_alg».proof.Proof.KValue.Host
import proofs.«107845_j2010044695310_2_alg».proof.Proof.KValue.R1
import proofs.«107845_j2010044695310_2_alg».proof.Proof.Ref.Idx
import proofs.«107845_j2010044695310_2_alg».proof.Proof.Gat.Bridge
import proofs.«107845_j2010044695310_2_alg».proof.Proof.Gat.Finite
import proofs.«107845_j2010044695310_2_alg».proof.Proof.Gen.Pre_finite_inputs

noncomputable section

namespace Cert.Final

open Idealize.ShloMosaic Idealize.ShloMosaic.TcCoe Idealize.ShloMosaic.ValueIdx Idealize.SL.Sem
open Cert.Gat Cert.LibSoftmaxShift
open Cert.KernelIdeal Cert.KernelIdeal.Gen Cert.KernelIdeal.Frame

variable (m : (ℓ : Loc nD τ sig) → Buf (Elt Ideal) ℓ) (ρ : Dev nD → PrngReg) (c : Dev nD)

/-- The three inputs on core `c`. -/
abbrev hIn : S12288x128.Idx → EReal := m ((c : Thread nD τ).loc main_arg0)
abbrev WIn : S128x64.Idx → EReal := m ((c : Thread nD τ).loc main_arg1)
abbrev aIn : S128x1.Idx → EReal := m ((c : Thread nD τ).loc main_arg2)

/-! ## The kernel program's intermediate arrays are the reference's stages -/

theorem GWh_eq (j : Fin 12288) (d : Fin 64) :
    GWh (V1 m ρ c main_arg0) (V1 m ρ c main_arg1) (ix2 j d) = Cert.ReferenceIdeal.RefRun.rWh (F := Ideal) (hIn m c) (WIn m c) (ix2 j d) := by
  rw [V1_arg0, V1_arg1, Cert.ReferenceIdeal.RefRun.rWh_apply]
  rfl

theorem link_wh (j : Fin 12288) (d : Fin 64) : wv (V3 m ρ) c j d = Cert.ReferenceIdeal.RefRun.rWh (F := Ideal) (hIn m c) (WIn m c) (ix2 j d) := by
  unfold wv
  rw [V3_Wh, W2_Wh]
  exact GWh_eq m ρ c j d

theorem link_s1 (i : Fin 12288) : w1 (V3 m ρ) c i = Cert.ReferenceIdeal.RefRun.rS1 (F := Ideal) (hIn m c) (WIn m c) (aIn m c) (ix2 i (0 : Fin 1)) := by
  unfold w1
  rw [V3_s1_apply, Cert.ReferenceIdeal.RefRun.rS1_apply]
  unfold GE
  refine Finset.sum_congr rfl fun d _ => congrArg₂ (· * ·) ?_ ?_
  · exact GWh_eq m ρ c i d
  · exact V1_A_left m ρ c d

theorem link_s2 (j : Fin 12288) : w2 (V3 m ρ) c j = Cert.ReferenceIdeal.RefRun.rS2 (F := Ideal) (hIn m c) (WIn m c) (aIn m c) (ix2 j (0 : Fin 1)) := by
  unfold w2
  rw [V3_s2row_apply, Cert.ReferenceIdeal.RefRun.rS2_apply]
  unfold GE
  refine Finset.sum_congr rfl fun d _ => congrArg₂ (· * ·) ?_ ?_
  · exact GWh_eq m ρ c j d
  · exact V1_A_right m ρ c d

/-! ## Under the precondition everything is real -/

section Real
variable (hH : ∀ i, ∃ r : ℝ, hIn m c i = (r : EReal)) (hW : ∀ i, ∃ r : ℝ, WIn m c i = (r : EReal)) (hA : ∀ i, ∃ r : ℝ, aIn m c i = (r : EReal))
include hH hW hA

theorem rWh_real (j : Fin 12288) (d : Fin 64) : ∃ r : ℝ, Cert.ReferenceIdeal.RefRun.rWh (F := Ideal) (hIn m c) (WIn m c) (ix2 j d) = (r : EReal) := by
  rw [Cert.ReferenceIdeal.RefRun.rWh_apply]
  exact sum_mul_real _ _ (fun k => hH _) (fun k => hW _)

theorem rS1_real (i : Fin 12288) : ∃ r : ℝ, Cert.ReferenceIdeal.RefRun.rS1 (F := Ideal) (hIn m c) (WIn m c) (aIn m c) (ix2 i (0 : Fin 1)) = (r : EReal) := by
  rw [Cert.ReferenceIdeal.RefRun.rS1_apply]
  exact sum_mul_real _ _ (fun d => rWh_real m c hH hW hA i d) (fun d => hA _)

theorem rS2_real (i : Fin 12288) : ∃ r : ℝ, Cert.ReferenceIdeal.RefRun.rS2 (F := Ideal) (hIn m c) (WIn m c) (aIn m c) (ix2 i (0 : Fin 1)) = (r : EReal) := by
  rw [Cert.ReferenceIdeal.RefRun.rS2_apply]
  exact sum_mul_real _ _ (fun d => rWh_real m c hH hW hA i d) (fun d => hA _)

/-- The largest second logit is a real: a maximum folded from −∞ over a nonempty family of reals. -/
theorem mx_real : ∃ r : ℝ, mxv (V3 m ρ) c = (r : EReal) := by
  have hcol : ∀ idx : S12288x1.Idx, ∃ r : ℝ,
      extractStridedSlice S12288x1 ![0, 1] (W2 m ρ c (Proc.devRef .tc main_v3_1)) slices_S12288x2_S12288x1_0_1 idx = (r : EReal) := fun idx => by
    have hj : idx = ix2 (⟨(idx 0).val, idx2_lt0 idx⟩ : Fin 12288) (0 : Fin 1) :=
      idx2_ext idx _ _ rfl (by have := idx2_lt1 idx; omega)
    rw [hj, slice2_axis1_apply 1 _ _ _ (0 : Fin 1) (1 : Fin 2) rfl]
    have := link_s2 m ρ c ⟨(idx 0).val, idx2_lt0 idx⟩
    unfold w2 at this
    rw [V3_s2row_apply] at this
    rw [W2_E, this]
    exact rS2_real m c hH hW hA _
  choose f hf using hcol
  unfold mxv
  rw [V3_mx, shapeCast_apply _ _ (ix2 (0 : Fin 1) (0 : Fin 1)) ix0 rfl, Host.reduce_eq_fold,
    show (extractStridedSlice S12288x1 ![0, 1] (W2 m ρ c (Proc.devRef .tc main_v3_1)) slices_S12288x2_S12288x1_0_1) = fun i => (f i : EReal) from funext hf]
  have hne : (Finset.univ.filter fun i : S12288x1.Idx => (reducesTo_S12288x1_S_d0_1 : S12288x1.ReducesTo [0, 1] S_).drop i = ix0).Nonempty :=
    ⟨ix2 (0 : Fin 12288) (0 : Fin 1), Finset.mem_filter.mpr ⟨Finset.mem_univ _, funext fun a => a.elim0⟩⟩
  obtain ⟨r, hr⟩ := fold_max_bot_real _ hne f
  refine ⟨r, ?_⟩
  rw [← hr]
  exact congrArg (fun b => Finset.fold max b _ _) Cert.ReferenceIdeal.RefRun.ofBits_neg_inf

end Real

/-! ## The two result arrays -/

/-- The attention region's result array is the closed form over the arrays it is entered with. -/
theorem W4_out : (W4 m ρ c (Proc.devRef .tc main_v9) : S12288x64.Idx → EReal) = GOut (V3 m ρ) c :=
  (W4_arr m ρ c 4).trans (finalOut (V3 m ρ) c)

theorem result_eq [Cert.Pre_finite_inputs.Facts]
    (hp : Cert.Pre_finite_inputs.fn (F := Ideal) (hIn m c) (WIn m c) (aIn m c) = fun _ => 1#1) :
    (W4 m ρ c (Proc.devRef .tc main_v9) : S12288x64.Idx → EReal) = Cert.ReferenceIdeal.RefRun.rOut (F := Ideal) (hIn m c) (WIn m c) (aIn m c) := by
  obtain ⟨hH, hW, hA⟩ := Cert.Finite.reals_of_pre _ _ _ hp
  rw [W4_out]
  funext idx
  have hidx : idx = ix2 (⟨(idx 0).val, idx2_lt0 idx⟩ : Fin 12288) (⟨(idx 1).val, idx2_lt1 idx⟩ : Fin 64) := idx2_ext idx _ _ rfl rfl
  generalize (⟨(idx 0).val, idx2_lt0 idx⟩ : Fin 12288) = i at hidx
  generalize (⟨(idx 1).val, idx2_lt1 idx⟩ : Fin 64) = d at hidx
  subst hidx
  rw [Cert.ReferenceIdeal.RefRun.rOut_apply]
  have hs1 := rS1_real m c hH hW hA i
  have hs2 := fun j => rS2_real m c hH hW hA j
  -- the row maximum is a real
  have hE : ∀ j : Fin 12288, ∃ y : ℝ, lrelu (Cert.ReferenceIdeal.RefRun.rS1 (F := Ideal) (hIn m c) (WIn m c) (aIn m c) (ix2 i (0 : Fin 1))
      + Cert.ReferenceIdeal.RefRun.rS2 (F := Ideal) (hIn m c) (WIn m c) (aIn m c) (ix2 j (0 : Fin 1))) = (y : EReal) := fun j => by
    obtain ⟨a, ha⟩ := hs1; obtain ⟨b, hb⟩ := hs2 j
    rw [ha, hb, ← EReal.coe_add]; exact lrelu_real _
  choose e he using hE
  have hMr := Cert.ReferenceIdeal.RefRun.rRowMax_real (Cert.ReferenceIdeal.RefRun.rLeaky (F := Ideal) (Cert.ReferenceIdeal.RefRun.rSum (F := Ideal) (Cert.ReferenceIdeal.RefRun.rS1 (F := Ideal) (hIn m c) (WIn m c) (aIn m c)) (Cert.ReferenceIdeal.RefRun.rS2 (F := Ideal) (hIn m c) (WIn m c) (aIn m c)))
      (constant (F := Ideal) Cert.ReferenceIdeal.S_ .f32 0x3E4CCCCD#32)) i e (fun j => by rw [Cert.ReferenceIdeal.RefRun.rLeaky_apply, Cert.ReferenceIdeal.RefRun.rSum_apply]; exact he j)
  show eluK (Ideal.div (Ak (V3 m ρ) c i d 5) (Lk (V3 m ρ) c i 5)) = _
  unfold Ak Lk
  refine entry_bridge (Cert.ReferenceIdeal.RefRun.rS1 (F := Ideal) (hIn m c) (WIn m c) (aIn m c) (ix2 i (0 : Fin 1)))
    (fun j => Cert.ReferenceIdeal.RefRun.rS2 (F := Ideal) (hIn m c) (WIn m c) (aIn m c) (ix2 j (0 : Fin 1)))
    (fun j => Cert.ReferenceIdeal.RefRun.rWh (F := Ideal) (hIn m c) (WIn m c) (ix2 j d)) (mxv (V3 m ρ) c) _ (Pn (V3 m ρ) c i) (PVn (V3 m ρ) c i d)
    (fun n => ?_) (fun n => ?_) hs1 hs2 (fun j => rWh_real m c hH hW hA j d) (mx_real m ρ c hH hW hA) hMr
  · unfold Pn Msp
    rw [dif_pos n.isLt, link_s1, link_s2]
  · unfold PVn Msp
    rw [dif_pos n.isLt, link_s1, link_s2, link_wh]

end Cert.Final

end
-- ==== Proof.lean ====
/-
  A graph-attention layer, fused on the accelerator, against its plain reference.

  Both programs compute, for every node `i` and feature `d`,
      `out(i, d) = elu( Σ_j softmax_j( lrelu(s₁(i) + s₂(j)) ) · Wh(j, d) )`,
  with `Wh = h·W`, `s₁ = Wh·a₁`, `s₂ = Wh·a₂`. The reference forms the full matrix of rectified sums and takes a row-wise
  softmax shifted by the row maximum. The kernel program first projects (`Wh` and the two logit columns, six row blocks),
  then streams the columns in six runs of 2048 per row block, accumulating the sum of the weights and the weighted sum
  of the value rows with every weight shifted by `lrelu(s₁(i) + max_j s₂(j))`, and divides once at the end.

  Over the extended reals, for finite inputs, the two agree: every intermediate is a real number, the six runs
  concatenate to the whole row, and a softmax-weighted average does not depend on the shift (the common factor
  `exp(M − m)` cancels between the weighted sum and the sum of the weights). The two spellings of `elu` are one function.

  The three frame claims: each kernel program is run as four segments (host lines, the projection region, host lines,
  the attention region), every weakly fair execution ending with each buffer at the fold of the four steps over the
  launch memory, under which the arguments are never written; the reference is a straight line of host operations.
  The ideal pass rewrote nothing, so the kernel's idealization is its own text read over the extended reals.
-/
import proofs.«107845_j2010044695310_2_alg».proof.Defs
import proofs.«107845_j2010044695310_2_alg».proof.Proof.Gen.Kernel
import proofs.«107845_j2010044695310_2_alg».proof.Proof.Gen.KernelIdeal
import proofs.«107845_j2010044695310_2_alg».proof.Proof.Gen.ReferenceIdeal
import proofs.«107845_j2010044695310_2_alg».proof.Proof.Gen.Pre_finite_inputs
import proofs.«107845_j2010044695310_2_alg».proof.Proof.Kernel.Run
import proofs.«107845_j2010044695310_2_alg».proof.Proof.Final.Links
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ =>
  (θ_run (Cert.Kernel.defs (F := Bits)) _ _).mono (fun r h c =>
    ⟨(h c _ (Cert.Kernel.Frame.mem_uc Cert.Kernel.main_arg0 (by decide))).trans (Cert.Kernel.Frame.W4_arg0 m ρ c),
      (h c _ (Cert.Kernel.Frame.mem_uc Cert.Kernel.main_arg1 (by decide))).trans (Cert.Kernel.Frame.W4_arg1 m ρ c),
      (h c _ (Cert.Kernel.Frame.mem_uc Cert.Kernel.main_arg2 (by decide))).trans (Cert.Kernel.Frame.W4_arg2 m ρ c)⟩)
    (Cert.Kernel.Frame.run (F := Bits) m ρ)

/-- So does its reading over the extended reals. -/
theorem frame_ki : Cert.frame_KernelIdeal := fun m ρ _ =>
  (θ_run (Cert.KernelIdeal.defs (F := Ideal)) _ _).mono (fun r h c =>
    ⟨(h c _ (Cert.KernelIdeal.Frame.mem_uc Cert.KernelIdeal.main_arg0 (by decide))).trans (Cert.KernelIdeal.Frame.W4_arg0 m ρ c),
      (h c _ (Cert.KernelIdeal.Frame.mem_uc Cert.KernelIdeal.main_arg1 (by decide))).trans (Cert.KernelIdeal.Frame.W4_arg1 m ρ c),
      (h c _ (Cert.KernelIdeal.Frame.mem_uc Cert.KernelIdeal.main_arg2 (by decide))).trans (Cert.KernelIdeal.Frame.W4_arg2 m ρ c)⟩)
    (Cert.KernelIdeal.Frame.run (F := Ideal) m ρ)

/-- The reference runs and leaves its arguments as launched. -/
theorem frame_ri : Cert.frame_ReferenceIdeal := fun m ρ _ =>
  (θ_run (Cert.ReferenceIdeal.defs (F := Ideal)) _ _).mono (fun r h c =>
    ⟨(h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _)⟩)
    (Cert.ReferenceIdeal.RefRun.run_main (F := Ideal) m ρ)

/-- Nothing was rewritten by the ideal pass. -/
theorem preserves : Cert.preserves_Kernel_KernelIdeal := trivial

/-- From memories agreeing on the finite arguments both programs end with the same result array. -/
theorem algebraic : Cert.algebraic_KernelIdeal_ReferenceIdeal := by
  intro m ρ m' ρ' hpre hagree
  refine ⟨fun c => Cert.KernelIdeal.Frame.W4 m ρ c (Proc.devRef .tc Cert.KernelIdeal.main_v9), ?_, ?_⟩
  · exact (θ_run (Cert.KernelIdeal.defs (F := Ideal)) _ _).mono (fun r h c =>
      ⟨h c _ (Cert.KernelIdeal.Frame.mem_uc Cert.KernelIdeal.main_v9 (by decide)),
        (h c _ (Cert.KernelIdeal.Frame.mem_uc Cert.KernelIdeal.main_arg0 (by decide))).trans (Cert.KernelIdeal.Frame.W4_arg0 m ρ c),
      (h c _ (Cert.KernelIdeal.Frame.mem_uc Cert.KernelIdeal.main_arg1 (by decide))).trans (Cert.KernelIdeal.Frame.W4_arg1 m ρ c),
      (h c _ (Cert.KernelIdeal.Frame.mem_uc Cert.KernelIdeal.main_arg2 (by decide))).trans (Cert.KernelIdeal.Frame.W4_arg2 m ρ c)⟩)
      (Cert.KernelIdeal.Frame.run (F := Ideal) m ρ)
  · refine (θ_run (Cert.ReferenceIdeal.defs (F := Ideal)) _ _).mono (fun r h c =>
      ⟨?_, (h c Cert.ReferenceIdeal.main_arg0).trans (Cert.ReferenceIdeal.RefRun.arg0_eq _),
        (h c Cert.ReferenceIdeal.main_arg1).trans (Cert.ReferenceIdeal.RefRun.arg1_eq _),
        (h c Cert.ReferenceIdeal.main_arg2).trans (Cert.ReferenceIdeal.RefRun.arg2_eq _)⟩)
      (Cert.ReferenceIdeal.RefRun.run_main (F := Ideal) m' ρ')
    obtain ⟨e0, e1, e2⟩ := hagree c
    refine (h c Cert.ReferenceIdeal.main_v22).trans ((Cert.ReferenceIdeal.RefRun.out_eq _).trans ?_)
    show Cert.ReferenceIdeal.RefRun.rOut (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) = _
    rw [e0, e1, e2]
    exact (Cert.Final.result_eq m ρ c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
